-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x256 : Shape := ⟨2, ![8192, 256]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S8192x8192 .f32) (main_arg1 : FVec F S8192x8192 .f32) (main_arg2 : FVec F S8192x256 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S8192x8192 : Shape := ⟨2, ![8192, 8192]⟩
abbrev S8192x256 : Shape := ⟨2, ![8192, 256]⟩
abbrev S1024x1024 : Shape := ⟨2, ![1024, 1024]⟩
abbrev S1024x2048 : Shape := ⟨2, ![1024, 2048]⟩
abbrev S1024x256 : Shape := ⟨2, ![1024, 256]⟩

abbrev nBuf : Space → Nat
  | .hbm => 9
  | .vmem => 19
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x256, .f32⟩
  | .hbm, ⟨3, _⟩ => ⟨S8192x8192, .bf16⟩
  | .hbm, ⟨4, _⟩ => ⟨S8192x8192, .bf16⟩
  | .hbm, ⟨5, _⟩ => ⟨S8192x256, .bf16⟩
  | .hbm, ⟨6, _⟩ => ⟨S8192x8192, .bf16⟩
  | .hbm, ⟨7, _⟩ => ⟨S8192x256, .bf16⟩
  | .hbm, ⟨8, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | .local _ .vmem, ⟨7, _⟩ => ⟨S1024x1024, .bf16⟩
  | .local _ .vmem, ⟨8, _⟩ => ⟨S1024x1024, .bf16⟩
  | .local _ .vmem, ⟨9, _⟩ => ⟨S8192x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .f32⟩
  | .local _ .vmem, ⟨13, _⟩ => ⟨S1024x1024, .bf16⟩
  | .local _ .vmem, ⟨14, _⟩ => ⟨S1024x1024, .bf16⟩
  | .local _ .vmem, ⟨15, _⟩ => ⟨S8192x256, .bf16⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 8], ![false, false]⟩

def k2_mult1 (i : grid2.Coords) : BitVec 32 :=
  let arg1 : BitVec 32 := BitVec.ofNat 32 (i 1).val
  let c1024_i32 : BitVec 32 := 1024#32
  let v3 : BitVec 32 := Scalar.muli arg1 c1024_i32
  v3
def k2_off1 (i : grid2.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x2048_S1024x2048_0_0 : (Rect.unit (s := S1024x2048) ![0, 0] S1024x2048.size inb_S1024x2048_S1024x2048_0_0).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  dot_S1024x1024_S1024x2048_S1024x2048_1_0_0_1_n_n_wf : DotDims.WF S1024x1024 S1024x2048 S1024x2048 [1] [0] [0] [1] [] []
  dot_S1024x1024_S1024x256_S1024x256_0_0_1_1_n_n_wf : DotDims.WF S1024x1024 S1024x256 S1024x256 [0] [0] [1] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .bf16 = 32 ∨ (Rect.block (s := S8192x8192) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .bf16 = 32 ∨ (Rect.block (s := S8192x8192) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .bf16 = 32 ∨ (Rect.block (s := S8192x8192) S1024x2048.size (cc0_transform_2 i) (hinb0_2 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .bf16 = 32 ∨ (Rect.block (s := S8192x256) S1024x256.size (cc1_transform_2 i) (hinb1_2 i)).WholeWords (EltTy.packing .bf16)
  hrank2 : 0 < grid2.rank
  k2_mult1_dvd : ∀ i : grid2.Coords, 1024 ∣ (k2_mult1 i).toNat
  k2_off1_inb : ∀ i : grid2.Coords, ∀ a, (k2_off1 i) a + S1024x256.size a ≤ S8192x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .bf16 = 32 ∨ (Rect.block (s := S8192x8192) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .bf16 = 32 ∨ (Rect.block (s := S8192x256) S8192x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S8192x256.size a
  hwx2_2 : ∀ i : grid2.Coords, EltTy.bits .f32 = 32 ∨ (Rect.block (s := S8192x256) S1024x256.size (cc2_transform_2 i) (hinb2_2 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x1024_S1024x256_S1024x256_0_0_1_1_n_n : DotDims S1024x1024 S1024x256 S1024x256 where
  lhsContracting := [0]
  rhsContracting := [0]
  lhsNonContracting := [1]
  rhsNonContracting := [1]
  lhsBatch := []
  rhsBatch := []
  wf := dot_S1024x1024_S1024x256_S1024x256_0_0_1_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v3) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v3) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1024x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x256 : Shape := ⟨2, ![8192, 256]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x256, .f32⟩
  | .hbm, ⟨3, _⟩ => ⟨S8192x8192, .f32⟩
  | .hbm, ⟨4, _⟩ => ⟨S8192x8192, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S8192x256, .f32⟩
  | .hbm, ⟨9, _⟩ => ⟨S8192x256, .i1⟩
  | .hbm, ⟨10, _⟩ => ⟨S_, .f32⟩
  | .hbm, ⟨11, _⟩ => ⟨S8192x256, .f32⟩
  | .hbm, ⟨12, _⟩ => ⟨S8192x256, .f32⟩
  | .hbm, ⟨13, _⟩ => ⟨S8192x256, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  transposes_S8192x8192_S8192x8192_1_0 : S8192x8192.Transposes [1, 0] S8192x8192
  bcast_S_S8192x256 : S_.BroadcastsInDim S8192x256 (![] : Fin 0 → Fin S8192x256.rank)
  dot_S8192x8192_S8192x8192_S8192x8192_1_0_0_1_n_n_wf : DotDims.WF S8192x8192 S8192x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KbR0Kit.lean ====
/-
  The first product, adj = att · inp, as the pipeline runs it: an 8 × 4 × 8 grid whose last coordinate walks the
  contraction in 8 blocks of 1024. What is fixed here, before any run: which points zero the accumulator (the first
  block of each contraction) and which write the result back (the last), the buffers a point is called with, and
  that an input's buffer holds its block of the array the region was entered with.
-/
import proofs.«125243_j9740985828005_2_alg».proof.Proof.Gen.Kernel.Launch
import proofs.«125243_j9740985828005_2_alg».proof.Proof.Gen.Kernel.Skeleton
import proofs.«125243_j9740985828005_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the arrays the region is entered with -/

/-- Window `w`'s block at point `t` of the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's block: whatever proof data has the entry array and leaves the block in place finds the block in the
    current buffer at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The right factor's block: found in the current buffer at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## Which points zero the accumulator, which write the result back -/

/-- The point is the first block of its contraction. -/
abbrev first0 (i : grid0.Coords) : Prop := (Scalar.cmpi .ne (Scalar.extui (Scalar.cmpi .eq (BitVec.ofNat 32 (i 2).val) 0#32)) 0#32) = 1#1
theorem first0_iff : ∀ t : Fin cfg0.N, first0 (grid0.coords t) ↔ t.val % 8 = 0 :=
  (by decide +kernel : ∀ t : Fin grid0.N, first0 (grid0.coords t) ↔ t.val % 8 = 0)

/-- The point is the last block of its contraction. -/
abbrev last0 (i : grid0.Coords) : Prop := k0_cond2 i = 1#1
theorem last0_iff : ∀ t : Fin cfg0.N, last0 (grid0.coords t) ↔ t.val % 8 = 7 :=
  (by decide +kernel : ∀ t : Fin grid0.N, last0 (grid0.coords t) ↔ t.val % 8 = 7)

theorem live0_0 : ∀ t : Fin cfg0.N, cfg0.idle 0 (grid0.coords t) = false := by decide +kernel
theorem live0_1 : ∀ t : Fin cfg0.N, cfg0.idle 1 (grid0.coords t) = false := by decide +kernel
/-- Away from the last block nothing is stored into the result's buffer, and it is not written back. -/
theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem live0_2 : ∀ t : Fin cfg0.N, last0 (grid0.coords t) → cfg0.idle 2 (grid0.coords t) = false := by decide +kernel

/-! ## The buffers a point is called with -/

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev acc0 : Memref sig .tc .vmem S1024x2048 .f32 := Memref.whole cc0_scratch0
abbrev accV0 : View sig .tc .vmem S1024x2048 .f32 := (acc0).view
/-- One of the result's buffers, through which its contents are stated. -/
abbrev outV0 : View sig .tc .vmem S1024x2048 .bf16 := (Memref.whole cc0_stg2_0 : Memref sig .tc .vmem S1024x2048 .bf16).view

end Cert.Kernel.Hand

end
-- ==== Proof.KbR0RunMid.lean ====
/-
  One middle block of the first product: the accumulator holds the blocks before it, the body adds this block's
  product to it and stores nothing into the result's buffer.
-/
import proofs.«125243_j9740985828005_2_alg».proof.Proof.KbR0Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that is neither the first nor the last block of its contraction: from the two inputs' buffers at their
    contents, the result's buffer at anything (handed back untouched) and the accumulator at `xs`, the body runs to
    the accumulator rewritten by the pieces found here. -/
noncomputable def run0_mid (c : Dev nD) (i : grid0.Coords) (arg2 : Memref sig .tc .vmem S1024x1024 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1024x2048 .f32) (harg5 : arg5.IsWhole) (hc0 : ¬first0 i) (hc1 : ¬last0 i)
    (x0 : Vec F S1024x1024 .bf16) (x1 : Vec F S1024x2048 .bf16) (xs : Vec F S1024x2048 .f32) :
    Σ' (L2 : List (View.Piece (Elt F) S1024x2048 .bf16)), { LS : List (View.Piece (Elt F) S1024x2048 .f32) //
      ∀ (xi2 : Vec F S1024x2048 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__mm1_kernel i arg2 harg2 arg3 harg3 arg4 harg4 arg5 harg5) K } := by
  refine ⟨[], ?_, fun xi2 E K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.KbR0RunFirst.lean ====
/-
  The first block of a contraction in the first product: whatever the accumulator held is overwritten by zeros, then
  this block's product is added; nothing is stored into the result's buffer.
-/
import proofs.«125243_j9740985828005_2_alg».proof.Proof.KbR0RunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first block of a contraction: from the two inputs' buffers at their contents, the result's buffer at
    anything (handed back untouched) and the accumulator at anything, the body runs to the accumulator rewritten by the
    pieces found here (the zeros first, then the sum). -/
noncomputable def run0_first (c : Dev nD) (i : grid0.Coords) (arg2 : Memref sig .tc .vmem S1024x1024 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1024x2048 .f32) (harg5 : arg5.IsWhole) (hc0 : first0 i) (hc1 : ¬last0 i)
    (x0 : Vec F S1024x1024 .bf16) (x1 : Vec F S1024x2048 .bf16) :
    Σ' (L2 : List (View.Piece (Elt F) S1024x2048 .bf16)), { LS : List (View.Piece (Elt F) S1024x2048 .f32) //
      ∀ (xi2 : Vec F S1024x2048 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__mm1_kernel i arg2 harg2 arg3 harg3 arg4 harg4 arg5 harg5) K } := by
  refine ⟨[], ?_, fun xi2 E K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.KbR0RunLast.lean ====
/-
  The last block of a contraction in the first product: this block's product is added to the accumulator, and the
  accumulator, rounded to the result's format, is stored over the whole of the result's buffer.
-/
import proofs.«125243_j9740985828005_2_alg».proof.Proof.KbR0RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last block of a contraction: from the two inputs' buffers at their contents, the result's buffer at
    anything and the accumulator at `xs`, the body runs to the accumulator and the result's buffer rewritten by the
    pieces found here. -/
noncomputable def run0_last (c : Dev nD) (i : grid0.Coords) (arg2 : Memref sig .tc .vmem S1024x1024 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1024x2048 .f32) (harg5 : arg5.IsWhole) (hc0 : ¬first0 i) (hc1 : last0 i)
    (x0 : Vec F S1024x1024 .bf16) (x1 : Vec F S1024x2048 .bf16) (xs : Vec F S1024x2048 .f32) :
    Σ' (L2 : List (View.Piece (Elt F) S1024x2048 .bf16)), { LS : List (View.Piece (Elt F) S1024x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__mm1_kernel i arg2 harg2 arg3 harg3 arg4 harg4 arg5 harg5) K } := by
  refine ⟨?_, ?_, fun E K => ?run⟩
  case run =>
    simp only [cc0__mm1_kernel_eq_skeleton]; unfold cc0__mm1_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Hand

end
-- ==== Proof.KbR0Data.lean ====
/-
  The first product point by point. At each point of the 8 × 4 × 8 grid the accumulator ends at what the point's case
  makes of it — zeros plus the first block's product, the previous contents plus this block's product — and at the last
  block of a contraction the result's buffer ends at the accumulator rounded. This module names those contents
  (read back through the pieces each case's run found), states the invariant that carries the accumulator from a point
  to the next, and proves that the body meets the pipeline's obligation at every point.
-/
import proofs.«125243_j9740985828005_2_alg».proof.Proof.KbR0RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem notLast0_of_first (t : Fin cfg0.N) (h0 : t.val % 8 = 0) : ¬last0 (grid0.coords t) :=
  fun h => absurd ((last0_iff t).mp h) (by omega)
theorem notFirst0 (t : Fin cfg0.N) (h0 : ¬t.val % 8 = 0) : ¬first0 (grid0.coords t) :=
  fun h => h0 ((first0_iff t).mp h)
theorem notLast0 (t : Fin cfg0.N) (h1 : ¬t.val % 8 = 7) : ¬last0 (grid0.coords t) :=
  fun h => h1 ((last0_iff t).mp h)

/-- First block: the pieces cover the accumulator. -/
theorem accCoverFirst0 (c : Dev nD) (t : Fin cfg0.N) (hf : first0 (grid0.coords t)) (hl : ¬last0 (grid0.coords t))
    (x0 : Vec F S1024x1024 .bf16) (x1 : Vec F S1024x2048 .bf16) (y : S1024x2048.Idx) :
    ∃ pc ∈ (run0_first c (grid0.coords t) (ms0_0 t) (hs0_0 t) (ms0_1 t) (hs0_1 t) (ms0_2 t) (hs0_2 t) acc0 (Memref.isWhole_whole _) hf hl x0 x1).2.1, y ∈ pc.1.set :=
  View.cover_of_tiledL (run0_first c (grid0.coords t) (ms0_0 t) (hs0_0 t) (ms0_1 t) (hs0_1 t) (ms0_2 t) (hs0_2 t) acc0 (Memref.isWhole_whole _) hf hl x0 x1).2.1 S1024x2048.size (by sl_kernel_rfl) y
/-- First block: what the accumulator holds afterwards. -/
def accFirst0 (c : Dev nD) (t : Fin cfg0.N) (hf : first0 (grid0.coords t)) (hl : ¬last0 (grid0.coords t))
    (x0 : Vec F S1024x1024 .bf16) (x1 : Vec F S1024x2048 .bf16) : Vec F S1024x2048 .f32 :=
  accV0.read (Elt F) (accV0.writes (Elt F) accV0.junk (run0_first c (grid0.coords t) (ms0_0 t) (hs0_0 t) (ms0_1 t) (hs0_1 t) (ms0_2 t) (hs0_2 t) acc0 (Memref.isWhole_whole _) hf hl x0 x1).2.1)
/-- First block: nothing is stored into the result's buffer; a name for what nobody reads. -/
def outFirst0 (c : Dev nD) (t : Fin cfg0.N) (hf : first0 (grid0.coords t)) (hl : ¬last0 (grid0.coords t))
    (x0 : Vec F S1024x1024 .bf16) (x1 : Vec F S1024x2048 .bf16) : Vec F S1024x2048 .bf16 :=
  outV0.read (Elt F) (outV0.writes (Elt F) outV0.junk (run0_first c (grid0.coords t) (ms0_0 t) (hs0_0 t) (ms0_1 t) (hs0_1 t) (ms0_2 t) (hs0_2 t) acc0 (Memref.isWhole_whole _) hf hl x0 x1).1)

/-- Middle block: the pieces cover the accumulator. -/
theorem accCoverMid0 (c : Dev nD) (t : Fin cfg0.N) (hf : ¬first0 (grid0.coords t)) (hl : ¬last0 (grid0.coords t))
    (x0 : Vec F S1024x1024 .bf16) (x1 : Vec F S1024x2048 .bf16) (xs : Vec F S1024x2048 .f32) (y : S1024x2048.Idx) :
    ∃ pc ∈ (run0_mid c (grid0.coords t) (ms0_0 t) (hs0_0 t) (ms0_1 t) (hs0_1 t) (ms0_2 t) (hs0_2 t) acc0 (Memref.isWhole_whole _) hf hl x0 x1 xs).2.1, y ∈ pc.1.set :=
  View.cover_of_tiledL (run0_mid c (grid0.coords t) (ms0_0 t) (hs0_0 t) (ms0_1 t) (hs0_1 t) (ms0_2 t) (hs0_2 t) acc0 (Memref.isWhole_whole _) hf hl x0 x1 xs).2.1 S1024x2048.size (by sl_kernel_rfl) y
def accMid0 (c : Dev nD) (t : Fin cfg0.N) (hf : ¬first0 (grid0.coords t)) (hl : ¬last0 (grid0.coords t))
    (x0 : Vec F S1024x1024 .bf16) (x1 : Vec F S1024x2048 .bf16) (xs : Vec F S1024x2048 .f32) : Vec F S1024x2048 .f32 :=
  accV0.read (Elt F) (accV0.writes (Elt F) accV0.junk (run0_mid c (grid0.coords t) (ms0_0 t) (hs0_0 t) (ms0_1 t) (hs0_1 t) (ms0_2 t) (hs0_2 t) acc0 (Memref.isWhole_whole _) hf hl x0 x1 xs).2.1)
def outMid0 (c : Dev nD) (t : Fin cfg0.N) (hf : ¬first0 (grid0.coords t)) (hl : ¬last0 (grid0.coords t))
    (x0 : Vec F S1024x1024 .bf16) (x1 : Vec F S1024x2048 .bf16) (xs : Vec F S1024x2048 .f32) : Vec F S1024x2048 .bf16 :=
  outV0.read (Elt F) (outV0.writes (Elt F) outV0.junk (run0_mid c (grid0.coords t) (ms0_0 t) (hs0_0 t) (ms0_1 t) (hs0_1 t) (ms0_2 t) (hs0_2 t) acc0 (Memref.isWhole_whole _) hf hl x0 x1 xs).1)

/-- Last block: the pieces cover the accumulator, and the result's buffer. -/
theorem accCoverLast0 (c : Dev nD) (t : Fin cfg0.N) (hf : ¬first0 (grid0.coords t)) (hl : last0 (grid0.coords t))
    (x0 : Vec F S1024x1024 .bf16) (x1 : Vec F S1024x2048 .bf16) (xs : Vec F S1024x2048 .f32) (y : S1024x2048.Idx) :
    ∃ pc ∈ (run0_last c (grid0.coords t) (ms0_0 t) (hs0_0 t) (ms0_1 t) (hs0_1 t) (ms0_2 t) (hs0_2 t) acc0 (Memref.isWhole_whole _) hf hl x0 x1 xs).2.1, y ∈ pc.1.set :=
  View.cover_of_tiledL (run0_last c (grid0.coords t) (ms0_0 t) (hs0_0 t) (ms0_1 t) (hs0_1 t) (ms0_2 t) (hs0_2 t) acc0 (Memref.isWhole_whole _) hf hl x0 x1 xs).2.1 S1024x2048.size (by sl_kernel_rfl) y
theorem outCoverLast0 (c : Dev nD) (t : Fin cfg0.N) (hf : ¬first0 (grid0.coords t)) (hl : last0 (grid0.coords t))
    (x0 : Vec F S1024x1024 .bf16) (x1 : Vec F S1024x2048 .bf16) (xs : Vec F S1024x2048 .f32) (y : S1024x2048.Idx) :
    ∃ pc ∈ (run0_last c (grid0.coords t) (ms0_0 t) (hs0_0 t) (ms0_1 t) (hs0_1 t) (ms0_2 t) (hs0_2 t) acc0 (Memref.isWhole_whole _) hf hl x0 x1 xs).1, y ∈ pc.1.set :=
  View.cover_of_tiledL (run0_last c (grid0.coords t) (ms0_0 t) (hs0_0 t) (ms0_1 t) (hs0_1 t) (ms0_2 t) (hs0_2 t) acc0 (Memref.isWhole_whole _) hf hl x0 x1 xs).1 S1024x2048.size (by sl_kernel_rfl) y
def accLast0 (c : Dev nD) (t : Fin cfg0.N) (hf : ¬first0 (grid0.coords t)) (hl : last0 (grid0.coords t))
    (x0 : Vec F S1024x1024 .bf16) (x1 : Vec F S1024x2048 .bf16) (xs : Vec F S1024x2048 .f32) : Vec F S1024x2048 .f32 :=
  accV0.read (Elt F) (accV0.writes (Elt F) accV0.junk (run0_last c (grid0.coords t) (ms0_0 t) (hs0_0 t) (ms0_1 t) (hs0_1 t) (ms0_2 t) (hs0_2 t) acc0 (Memref.isWhole_whole _) hf hl x0 x1 xs).2.1)
def outLast0 (c : Dev nD) (t : Fin cfg0.N) (hf : ¬first0 (grid0.coords t)) (hl : last0 (grid0.coords t))
    (x0 : Vec F S1024x1024 .bf16) (x1 : Vec F S1024x2048 .bf16) (xs : Vec F S1024x2048 .f32) : Vec F S1024x2048 .bf16 :=
  outV0.read (Elt F) (outV0.writes (Elt F) outV0.junk (run0_last c (grid0.coords t) (ms0_0 t) (hs0_0 t) (ms0_1 t) (hs0_1 t) (ms0_2 t) (hs0_2 t) acc0 (Memref.isWhole_whole _) hf hl x0 x1 xs).1)

/-! ## The accumulation, point by point -/

/-- What the result's buffer and the accumulator hold after the body at position `n`: the case the position selects,
    run on the point's blocks, a later block of a contraction over what the position before left in the accumulator. -/
def outsAt0 (c : Dev nD) : (n : ℕ) → n < cfg0.N → Vec F S1024x2048 .bf16 × Vec F S1024x2048 .f32
  | 0, hn => (outFirst0 c ⟨0, hn⟩ ((first0_iff ⟨0, hn⟩).mpr (Nat.zero_mod _)) (notLast0_of_first ⟨0, hn⟩ (Nat.zero_mod _)) (blk0 V c 0 ⟨0, hn⟩) (blk0 V c 1 ⟨0, hn⟩),
      accFirst0 c ⟨0, hn⟩ ((first0_iff ⟨0, hn⟩).mpr (Nat.zero_mod _)) (notLast0_of_first ⟨0, hn⟩ (Nat.zero_mod _)) (blk0 V c 0 ⟨0, hn⟩) (blk0 V c 1 ⟨0, hn⟩))
  | n + 1, hn =>
    if h0 : (n + 1) % 8 = 0 then
      (outFirst0 c ⟨n + 1, hn⟩ ((first0_iff ⟨n + 1, hn⟩).mpr h0) (notLast0_of_first ⟨n + 1, hn⟩ h0) (blk0 V c 0 ⟨n + 1, hn⟩) (blk0 V c 1 ⟨n + 1, hn⟩),
        accFirst0 c ⟨n + 1, hn⟩ ((first0_iff ⟨n + 1, hn⟩).mpr h0) (notLast0_of_first ⟨n + 1, hn⟩ h0) (blk0 V c 0 ⟨n + 1, hn⟩) (blk0 V c 1 ⟨n + 1, hn⟩))
    else if h1 : (n + 1) % 8 = 7 then
      (outLast0 c ⟨n + 1, hn⟩ (notFirst0 ⟨n + 1, hn⟩ h0) ((last0_iff ⟨n + 1, hn⟩).mpr h1) (blk0 V c 0 ⟨n + 1, hn⟩) (blk0 V c 1 ⟨n + 1, hn⟩) (outsAt0 c n (Nat.lt_of_succ_lt hn)).2,
        accLast0 c ⟨n + 1, hn⟩ (notFirst0 ⟨n + 1, hn⟩ h0) ((last0_iff ⟨n + 1, hn⟩).mpr h1) (blk0 V c 0 ⟨n + 1, hn⟩) (blk0 V c 1 ⟨n + 1, hn⟩) (outsAt0 c n (Nat.lt_of_succ_lt hn)).2)
    else
      (outMid0 c ⟨n + 1, hn⟩ (notFirst0 ⟨n + 1, hn⟩ h0) (notLast0 ⟨n + 1, hn⟩ h1) (blk0 V c 0 ⟨n + 1, hn⟩) (blk0 V c 1 ⟨n + 1, hn⟩) (outsAt0 c n (Nat.lt_of_succ_lt hn)).2,
        accMid0 c ⟨n + 1, hn⟩ (notFirst0 ⟨n + 1, hn⟩ h0) (notLast0 ⟨n + 1, hn⟩ h1) (blk0 V c 0 ⟨n + 1, hn⟩) (blk0 V c 1 ⟨n + 1, hn⟩) (outsAt0 c n (Nat.lt_of_succ_lt hn)).2)

theorem outsAt0_first (c : Dev nD) (t : Fin cfg0.N) (h0 : t.val % 8 = 0) :
    outsAt0 V c t.val t.isLt = (outFirst0 c t ((first0_iff t).mpr h0) (notLast0_of_first t h0) (blk0 V c 0 t) (blk0 V c 1 t),
      accFirst0 c t ((first0_iff t).mpr h0) (notLast0_of_first t h0) (blk0 V c 0 t) (blk0 V c 1 t)) := by
  obtain ⟨n, hn⟩ := t
  cases n with
  | zero => exact rfl
  | succ n => exact (dif_pos h0).trans rfl

theorem outsAt0_last (c : Dev nD) (t : Fin cfg0.N) (h0 : ¬t.val % 8 = 0) (h1 : t.val % 8 = 7) :
    outsAt0 V c t.val t.isLt = (outLast0 c t (notFirst0 t h0) ((last0_iff t).mpr h1) (blk0 V c 0 t) (blk0 V c 1 t) (outsAt0 V c (t.val - 1) (Nat.lt_of_le_of_lt (Nat.sub_le _ _) t.isLt)).2,
      accLast0 c t (notFirst0 t h0) ((last0_iff t).mpr h1) (blk0 V c 0 t) (blk0 V c 1 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

theorem outsAt0_mid (c : Dev nD) (t : Fin cfg0.N) (h0 : ¬t.val % 8 = 0) (h1 : ¬t.val % 8 = 7) :
    outsAt0 V c t.val t.isLt = (outMid0 c t (notFirst0 t h0) (notLast0 t h1) (blk0 V c 0 t) (blk0 V c 1 t) (outsAt0 V c (t.val - 1) (Nat.lt_of_le_of_lt (Nat.sub_le _ _) t.isLt)).2,
      accMid0 c t (notFirst0 t h0) (notLast0 t h1) (blk0 V c 0 t) (blk0 V c 1 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-! ## The invariant that carries the accumulator -/

/-- The scoped buffers other than this product's accumulator (the other products' buffers), unopened. -/
abbrev rest0 (c : Dev nD) : sProp 𝕄 :=
  Pipeline.scopedRestBut (Ix := Unit) (Name := ℕ) (U := UR sig nD τ) (Lvl := ℕ) (Val := Elt F) spec0 c [cc0_scratch0]

/-- Before the first point every scoped buffer is at anything: the accumulator, the others, and the random-number register at some state. -/
theorem PhiA0_eq (c : Dev nD) :
    (Pipeline.ΦA spec0 c : sProp 𝕄) = iprop((∃ d, owns (c : Thread nD τ) acc0 fullShare d) ∗ rest0 c ∗ (∃ r, prngReg c r)) := by
  unfold Pipeline.ΦA
  rw [Pipeline.scopedRest_split_of_list spec0 c [cc0_scratch0] (by decide) (by decide)]
  simp only [bigSepL_singleton, acc0, owns_whole]
  exact equiv_iff.mp ⟨BI.sep_assoc, BI.sep_assoc'⟩

/-- Before position `n`: at the start anything; afterwards the accumulator at what the position before left. -/
def PhiS0 (c : Dev nD) : (n : ℕ) → n ≤ cfg0.N → sProp 𝕄
  | 0, _ => Pipeline.ΦA spec0 c
  | n + 1, hn => iprop(owns (c : Thread nD τ) acc0 fullShare ((outsAt0 V c n hn).2) ∗ rest0 c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) acc0 fullShare ((outsAt0 V c n hn).2) ∗ rest0 c ∗ (∃ r, prngReg c r)) := rfl
theorem PhiS0_pos (c : Dev nD) (n : ℕ) (h : n ≤ cfg0.N) (hz : n ≠ 0) :
    PhiS0 V c n h = iprop(owns (c : Thread nD τ) acc0 fullShare ((outsAt0 V c (n - 1) (by omega)).2) ∗ rest0 c ∗ (∃ r, prngReg c r)) := by
  cases n with
  | zero => exact absurd rfl hz
  | succ n => rfl

/-! ## The proof data -/

/-- The arrays as the region finds them; after the body each input's buffer at its block, the result's at the
    accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

end Cert.Kernel.Hand

end
-- ==== Proof.KbR0Body.lean ====
/-
  The first product: the body meets the pipeline's obligation at every point. The invariant hands the body the
  accumulator (at anything at the very first point, else at what the point before left), the body's case runs, and the
  invariant takes the accumulator back at this point's contents; the result's buffer is handed back untouched except
  at the last block of a contraction, where it ends at the rounded accumulator.
-/
import proofs.«125243_j9740985828005_2_alg».proof.Proof.KbR0Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0 V, before0_1 V]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 8 = 0
  · have h1 : ¬t.val % 8 = 7 := by omega
    rw [Dat.leavesExact_idle (dat0 V c) 2 t (idle0_2 t (notLast0 t h1)) (noFlush0_2 t (notLast0 t h1))]
    rw [outsAt0_first V c t h0]
    unfold accFirst0; (try dsimp only)
    by_cases hz : t.val = 0
    · rw [PhiS0_castSucc V c t, PhiS0_zero V c _ _ hz, PhiA0_eq]
      iintro ⟨⟨HS, HR, Hg⟩, Ho, ⟨%d0, H0⟩, ⟨%d1, H1⟩, ⟨%d2, H2⟩⟩
      iapply ((run0_first c (grid0.coords t) _ _ _ _ _ _ _ _ ((first0_iff t).mpr h0) (notLast0_of_first t h0) (blk0 V c 0 t) (blk0 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (accCoverFirst0 c t _ _ _ _)
        isplitl [HR]; · iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨HS, HR, Hg⟩, Ho, ⟨%d0, H0⟩, ⟨%d1, H1⟩, ⟨%d2, H2⟩⟩
      iapply ((run0_first c (grid0.coords t) _ _ _ _ _ _ _ _ ((first0_iff t).mpr h0) (notLast0_of_first t h0) (blk0 V c 0 t) (blk0 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (accCoverFirst0 c t _ _ _ _)
        isplitl [HR]; · iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat0 V c).leavesExact 2 t = owns (c : Thread nD τ) (ms0_2 t) fullShare ((dat0 V c).after 2 t) from by
        unfold Dat.leavesExact; rw [live0_2 t ((last0_iff t).mpr h1)], after0_2]
      rw [outsAt0_last V c t h0 h1]
      unfold outLast0 accLast0; (try dsimp only)
      rw [PhiS0_castSucc V c t, PhiS0_pos V c _ _ hz]
      iintro ⟨⟨HS, HR, Hg⟩, Ho, ⟨%d0, H0⟩, ⟨%d1, H1⟩, ⟨%d2, H2⟩⟩
      iapply ((run0_last c (grid0.coords t) _ _ _ _ _ _ _ _ (notFirst0 t h0) ((last0_iff t).mpr h1) (blk0 V c 0 t) (blk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS]
        · unfold owns; iexists _; isplitr
          swap; · iexact HS
          ipureintro; exact View.read_writes_of_cover _ _ _ _ _ (accCoverLast0 c t _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverLast0 c t _ _ _ _ _)
    · rw [Dat.leavesExact_idle (dat0 V c) 2 t (idle0_2 t (notLast0 t h1)) (noFlush0_2 t (notLast0 t h1))]
      rw [outsAt0_mid V c t h0 h1]
      unfold accMid0; (try dsimp only)
      rw [PhiS0_castSucc V c t, PhiS0_pos V c _ _ hz]
      iintro ⟨⟨HS, HR, Hg⟩, Ho, ⟨%d0, H0⟩, ⟨%d1, H1⟩, ⟨%d2, H2⟩⟩
      iapply ((run0_mid c (grid0.coords t) _ _ _ _ _ _ _ _ (notFirst0 t h0) (notLast0 t h1) (blk0 V c 0 t) (blk0 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (accCoverMid0 c t _ _ _ _ _)
        isplitl [HR]; · iexact HR
        iexact Hg
      isplitl [Ho]; · iexact Ho
      isplitl [H0]; · iexact H0
      isplitl [H1]; · iexact H1
      iexists _; iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega), PhiA0_eq]
  iintro ⟨HS, HR, Hg⟩
  isplitl [HS]
  · iexists _; iexact HS
  isplitl [HR]; · iexact HR
  iexact Hg

end Cert.Kernel.Hand

end
-- ==== Proof.KbR1Kit.lean ====
/-
  The second product, tmp = adjᵀ · embs, as the pipeline runs it: an 8 × 8 grid whose second coordinate walks the
  contraction in 8 blocks of 1024. What is fixed here, before any run: which points zero the accumulator (the first
  block of each row of the grid) and which write the result back (the last), the buffers a point is called with, and
  that an input's buffer holds its block of the array the region was entered with.
-/
import proofs.«125243_j9740985828005_2_alg».proof.Proof.Gen.Kernel.Launch
import proofs.«125243_j9740985828005_2_alg».proof.Proof.Gen.Kernel.Skeleton
import proofs.«125243_j9740985828005_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the arrays the region is entered with -/

/-- Window `w`'s block at point `t` of the array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block: whatever proof data has the entry array and leaves the block in place finds the block in the
    current buffer at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The embedding array, resident whole: fetched once, found at every point. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## Which points zero the accumulator, which write the result back -/

/-- The point is the first block of its contraction. -/
abbrev first1 (i : grid1.Coords) : Prop := (Scalar.cmpi .ne (Scalar.extui (Scalar.cmpi .eq (BitVec.ofNat 32 (i 1).val) 0#32)) 0#32) = 1#1
theorem first1_iff : ∀ t : Fin cfg1.N, first1 (grid1.coords t) ↔ t.val % 8 = 0 :=
  (by decide +kernel : ∀ t : Fin grid1.N, first1 (grid1.coords t) ↔ t.val % 8 = 0)

/-- The point is the last block of its contraction. -/
abbrev last1 (i : grid1.Coords) : Prop := k1_cond2 i = 1#1
theorem last1_iff : ∀ t : Fin cfg1.N, last1 (grid1.coords t) ↔ t.val % 8 = 7 :=
  (by decide +kernel : ∀ t : Fin grid1.N, last1 (grid1.coords t) ↔ t.val % 8 = 7)

theorem live1_0 : ∀ t : Fin cfg1.N, cfg1.idle 0 (grid1.coords t) = false := by decide +kernel
theorem live1_1 : ∀ t : Fin cfg1.N, cfg1.idle 1 (grid1.coords t) = false := by decide +kernel
/-- Away from the last block nothing is stored into the result's buffer, and it is not written back. -/
theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

/-! ## The buffers a point is called with -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .bf16 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev acc1 : Memref sig .tc .vmem S1024x256 .f32 := Memref.whole cc1_scratch0
abbrev accV1 : View sig .tc .vmem S1024x256 .f32 := (acc1).view
/-- One of the result's buffers, through which its contents are stated. -/
abbrev outV1 : View sig .tc .vmem S1024x256 .bf16 := (Memref.whole cc1_stg2_0 : Memref sig .tc .vmem S1024x256 .bf16).view

end Cert.Kernel.Hand

end
-- ==== Proof.KbR1RunMid.lean ====
/-
  One middle block of the second product: the accumulator holds the blocks before it, the body adds this block's
  product to it and stores nothing into the result's buffer.
-/
import proofs.«125243_j9740985828005_2_alg».proof.Proof.KbR1Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that is neither the first nor the last block of its contraction: from the two inputs' buffers at their
    contents, the result's buffer at anything (handed back untouched) and the accumulator at `xs`, the body runs to
    the accumulator rewritten by the pieces found here. -/
noncomputable def run1_mid (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x256 .bf16) (harg4 : arg4.IsWhole) (arg5 : Memref sig .tc .vmem S1024x256 .f32) (harg5 : arg5.IsWhole) (hc0 : ¬first1 i) (hc1 : ¬last1 i)
    (x0 : Vec F S1024x1024 .bf16) (x1 : Vec F S8192x256 .bf16) (xs : Vec F S1024x256 .f32) :
    Σ' (L2 : List (View.Piece (Elt F) S1024x256 .bf16)), { LS : List (View.Piece (Elt F) S1024x256 .f32) //
      ∀ (xi2 : Vec F S1024x256 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__mm2_kernel i arg2 harg2 arg3 harg3 arg4 harg4 arg5 harg5) K } := by
  refine ⟨[], ?_, fun xi2 E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.KbR1RunFirst.lean ====
/-
  The first block of a contraction in the second product: whatever the accumulator held is overwritten by zeros, then
  this block's product is added; nothing is stored into the result's buffer.
-/
import proofs.«125243_j9740985828005_2_alg».proof.Proof.KbR1RunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first block of a contraction: from the two inputs' buffers at their contents, the result's buffer at
    anything (handed back untouched) and the accumulator at anything, the body runs to the accumulator rewritten by the
    pieces found here (the zeros first, then the sum). -/
noncomputable def run1_first (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x256 .bf16) (harg4 : arg4.IsWhole) (arg5 : Memref sig .tc .vmem S1024x256 .f32) (harg5 : arg5.IsWhole) (hc0 : first1 i) (hc1 : ¬last1 i)
    (x0 : Vec F S1024x1024 .bf16) (x1 : Vec F S8192x256 .bf16) :
    Σ' (L2 : List (View.Piece (Elt F) S1024x256 .bf16)), { LS : List (View.Piece (Elt F) S1024x256 .f32) //
      ∀ (xi2 : Vec F S1024x256 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__mm2_kernel i arg2 harg2 arg3 harg3 arg4 harg4 arg5 harg5) K } := by
  refine ⟨[], ?_, fun xi2 E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.KbR1RunLast.lean ====
/-
  The last block of a contraction in the second product: this block's product is added to the accumulator, and the
  accumulator, rounded to the result's format, is stored over the whole of the result's buffer.
-/
import proofs.«125243_j9740985828005_2_alg».proof.Proof.KbR1RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last block of a contraction: from the two inputs' buffers at their contents, the result's buffer at
    anything and the accumulator at `xs`, the body runs to the accumulator and the result's buffer rewritten by the
    pieces found here. -/
noncomputable def run1_last (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x256 .bf16) (harg4 : arg4.IsWhole) (arg5 : Memref sig .tc .vmem S1024x256 .f32) (harg5 : arg5.IsWhole) (hc0 : ¬first1 i) (hc1 : last1 i)
    (x0 : Vec F S1024x1024 .bf16) (x1 : Vec F S8192x256 .bf16) (xs : Vec F S1024x256 .f32) :
    Σ' (L2 : List (View.Piece (Elt F) S1024x256 .bf16)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__mm2_kernel i arg2 harg2 arg3 harg3 arg4 harg4 arg5 harg5) K } := by
  refine ⟨?_, ?_, fun E K => ?run⟩
  case run =>
    simp only [cc1__mm2_kernel_eq_skeleton]; unfold cc1__mm2_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Hand

end
-- ==== Proof.KbR1Data.lean ====
/-
  The second product point by point. At each point of the 8 × 8 grid the accumulator ends at what the point's case
  makes of it — zeros plus the first block's product, the previous contents plus this block's product — and at the last
  block of a contraction the result's buffer ends at the accumulator rounded. This module names those contents
  (read back through the pieces each case's run found), states the invariant that carries the accumulator from a point
  to the next, and proves that the body meets the pipeline's obligation at every point.
-/
import proofs.«125243_j9740985828005_2_alg».proof.Proof.KbR1RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem notLast1_of_first (t : Fin cfg1.N) (h0 : t.val % 8 = 0) : ¬last1 (grid1.coords t) :=
  fun h => absurd ((last1_iff t).mp h) (by omega)
theorem notFirst1 (t : Fin cfg1.N) (h0 : ¬t.val % 8 = 0) : ¬first1 (grid1.coords t) :=
  fun h => h0 ((first1_iff t).mp h)
theorem notLast1 (t : Fin cfg1.N) (h1 : ¬t.val % 8 = 7) : ¬last1 (grid1.coords t) :=
  fun h => h1 ((last1_iff t).mp h)

/-- First block: the pieces cover the accumulator. -/
theorem accCoverFirst1 (c : Dev nD) (t : Fin cfg1.N) (hf : first1 (grid1.coords t)) (hl : ¬last1 (grid1.coords t))
    (x0 : Vec F S1024x1024 .bf16) (x1 : Vec F S8192x256 .bf16) (y : S1024x256.Idx) :
    ∃ pc ∈ (run1_first c (grid1.coords t) (ms1_0 t) (hs1_0 t) (ms1_1 t) (hs1_1 t) (ms1_2 t) (hs1_2 t) acc1 (Memref.isWhole_whole _) hf hl x0 x1).2.1, y ∈ pc.1.set :=
  View.cover_of_tiledL (run1_first c (grid1.coords t) (ms1_0 t) (hs1_0 t) (ms1_1 t) (hs1_1 t) (ms1_2 t) (hs1_2 t) acc1 (Memref.isWhole_whole _) hf hl x0 x1).2.1 S1024x256.size (by sl_kernel_rfl) y
/-- First block: what the accumulator holds afterwards. -/
def accFirst1 (c : Dev nD) (t : Fin cfg1.N) (hf : first1 (grid1.coords t)) (hl : ¬last1 (grid1.coords t))
    (x0 : Vec F S1024x1024 .bf16) (x1 : Vec F S8192x256 .bf16) : Vec F S1024x256 .f32 :=
  accV1.read (Elt F) (accV1.writes (Elt F) accV1.junk (run1_first c (grid1.coords t) (ms1_0 t) (hs1_0 t) (ms1_1 t) (hs1_1 t) (ms1_2 t) (hs1_2 t) acc1 (Memref.isWhole_whole _) hf hl x0 x1).2.1)
/-- First block: nothing is stored into the result's buffer; a name for what nobody reads. -/
def outFirst1 (c : Dev nD) (t : Fin cfg1.N) (hf : first1 (grid1.coords t)) (hl : ¬last1 (grid1.coords t))
    (x0 : Vec F S1024x1024 .bf16) (x1 : Vec F S8192x256 .bf16) : Vec F S1024x256 .bf16 :=
  outV1.read (Elt F) (outV1.writes (Elt F) outV1.junk (run1_first c (grid1.coords t) (ms1_0 t) (hs1_0 t) (ms1_1 t) (hs1_1 t) (ms1_2 t) (hs1_2 t) acc1 (Memref.isWhole_whole _) hf hl x0 x1).1)

/-- Middle block: the pieces cover the accumulator. -/
theorem accCoverMid1 (c : Dev nD) (t : Fin cfg1.N) (hf : ¬first1 (grid1.coords t)) (hl : ¬last1 (grid1.coords t))
    (x0 : Vec F S1024x1024 .bf16) (x1 : Vec F S8192x256 .bf16) (xs : Vec F S1024x256 .f32) (y : S1024x256.Idx) :
    ∃ pc ∈ (run1_mid c (grid1.coords t) (ms1_0 t) (hs1_0 t) (ms1_1 t) (hs1_1 t) (ms1_2 t) (hs1_2 t) acc1 (Memref.isWhole_whole _) hf hl x0 x1 xs).2.1, y ∈ pc.1.set :=
  View.cover_of_tiledL (run1_mid c (grid1.coords t) (ms1_0 t) (hs1_0 t) (ms1_1 t) (hs1_1 t) (ms1_2 t) (hs1_2 t) acc1 (Memref.isWhole_whole _) hf hl x0 x1 xs).2.1 S1024x256.size (by sl_kernel_rfl) y
def accMid1 (c : Dev nD) (t : Fin cfg1.N) (hf : ¬first1 (grid1.coords t)) (hl : ¬last1 (grid1.coords t))
    (x0 : Vec F S1024x1024 .bf16) (x1 : Vec F S8192x256 .bf16) (xs : Vec F S1024x256 .f32) : Vec F S1024x256 .f32 :=
  accV1.read (Elt F) (accV1.writes (Elt F) accV1.junk (run1_mid c (grid1.coords t) (ms1_0 t) (hs1_0 t) (ms1_1 t) (hs1_1 t) (ms1_2 t) (hs1_2 t) acc1 (Memref.isWhole_whole _) hf hl x0 x1 xs).2.1)
def outMid1 (c : Dev nD) (t : Fin cfg1.N) (hf : ¬first1 (grid1.coords t)) (hl : ¬last1 (grid1.coords t))
    (x0 : Vec F S1024x1024 .bf16) (x1 : Vec F S8192x256 .bf16) (xs : Vec F S1024x256 .f32) : Vec F S1024x256 .bf16 :=
  outV1.read (Elt F) (outV1.writes (Elt F) outV1.junk (run1_mid c (grid1.coords t) (ms1_0 t) (hs1_0 t) (ms1_1 t) (hs1_1 t) (ms1_2 t) (hs1_2 t) acc1 (Memref.isWhole_whole _) hf hl x0 x1 xs).1)

/-- Last block: the pieces cover the accumulator, and the result's buffer. -/
theorem accCoverLast1 (c : Dev nD) (t : Fin cfg1.N) (hf : ¬first1 (grid1.coords t)) (hl : last1 (grid1.coords t))
    (x0 : Vec F S1024x1024 .bf16) (x1 : Vec F S8192x256 .bf16) (xs : Vec F S1024x256 .f32) (y : S1024x256.Idx) :
    ∃ pc ∈ (run1_last c (grid1.coords t) (ms1_0 t) (hs1_0 t) (ms1_1 t) (hs1_1 t) (ms1_2 t) (hs1_2 t) acc1 (Memref.isWhole_whole _) hf hl x0 x1 xs).2.1, y ∈ pc.1.set :=
  View.cover_of_tiledL (run1_last c (grid1.coords t) (ms1_0 t) (hs1_0 t) (ms1_1 t) (hs1_1 t) (ms1_2 t) (hs1_2 t) acc1 (Memref.isWhole_whole _) hf hl x0 x1 xs).2.1 S1024x256.size (by sl_kernel_rfl) y
theorem outCoverLast1 (c : Dev nD) (t : Fin cfg1.N) (hf : ¬first1 (grid1.coords t)) (hl : last1 (grid1.coords t))
    (x0 : Vec F S1024x1024 .bf16) (x1 : Vec F S8192x256 .bf16) (xs : Vec F S1024x256 .f32) (y : S1024x256.Idx) :
    ∃ pc ∈ (run1_last c (grid1.coords t) (ms1_0 t) (hs1_0 t) (ms1_1 t) (hs1_1 t) (ms1_2 t) (hs1_2 t) acc1 (Memref.isWhole_whole _) hf hl x0 x1 xs).1, y ∈ pc.1.set :=
  View.cover_of_tiledL (run1_last c (grid1.coords t) (ms1_0 t) (hs1_0 t) (ms1_1 t) (hs1_1 t) (ms1_2 t) (hs1_2 t) acc1 (Memref.isWhole_whole _) hf hl x0 x1 xs).1 S1024x256.size (by sl_kernel_rfl) y
def accLast1 (c : Dev nD) (t : Fin cfg1.N) (hf : ¬first1 (grid1.coords t)) (hl : last1 (grid1.coords t))
    (x0 : Vec F S1024x1024 .bf16) (x1 : Vec F S8192x256 .bf16) (xs : Vec F S1024x256 .f32) : Vec F S1024x256 .f32 :=
  accV1.read (Elt F) (accV1.writes (Elt F) accV1.junk (run1_last c (grid1.coords t) (ms1_0 t) (hs1_0 t) (ms1_1 t) (hs1_1 t) (ms1_2 t) (hs1_2 t) acc1 (Memref.isWhole_whole _) hf hl x0 x1 xs).2.1)
def outLast1 (c : Dev nD) (t : Fin cfg1.N) (hf : ¬first1 (grid1.coords t)) (hl : last1 (grid1.coords t))
    (x0 : Vec F S1024x1024 .bf16) (x1 : Vec F S8192x256 .bf16) (xs : Vec F S1024x256 .f32) : Vec F S1024x256 .bf16 :=
  outV1.read (Elt F) (outV1.writes (Elt F) outV1.junk (run1_last c (grid1.coords t) (ms1_0 t) (hs1_0 t) (ms1_1 t) (hs1_1 t) (ms1_2 t) (hs1_2 t) acc1 (Memref.isWhole_whole _) hf hl x0 x1 xs).1)

/-! ## The accumulation, point by point -/

/-- What the result's buffer and the accumulator hold after the body at position `n`: the case the position selects,
    run on the point's blocks, a later block of a contraction over what the position before left in the accumulator. -/
def outsAt1 (c : Dev nD) : (n : ℕ) → n < cfg1.N → Vec F S1024x256 .bf16 × Vec F S1024x256 .f32
  | 0, hn => (outFirst1 c ⟨0, hn⟩ ((first1_iff ⟨0, hn⟩).mpr (Nat.zero_mod _)) (notLast1_of_first ⟨0, hn⟩ (Nat.zero_mod _)) (blk1 V c 0 ⟨0, hn⟩) (blk1 V c 1 ⟨0, hn⟩),
      accFirst1 c ⟨0, hn⟩ ((first1_iff ⟨0, hn⟩).mpr (Nat.zero_mod _)) (notLast1_of_first ⟨0, hn⟩ (Nat.zero_mod _)) (blk1 V c 0 ⟨0, hn⟩) (blk1 V c 1 ⟨0, hn⟩))
  | n + 1, hn =>
    if h0 : (n + 1) % 8 = 0 then
      (outFirst1 c ⟨n + 1, hn⟩ ((first1_iff ⟨n + 1, hn⟩).mpr h0) (notLast1_of_first ⟨n + 1, hn⟩ h0) (blk1 V c 0 ⟨n + 1, hn⟩) (blk1 V c 1 ⟨n + 1, hn⟩),
        accFirst1 c ⟨n + 1, hn⟩ ((first1_iff ⟨n + 1, hn⟩).mpr h0) (notLast1_of_first ⟨n + 1, hn⟩ h0) (blk1 V c 0 ⟨n + 1, hn⟩) (blk1 V c 1 ⟨n + 1, hn⟩))
    else if h1 : (n + 1) % 8 = 7 then
      (outLast1 c ⟨n + 1, hn⟩ (notFirst1 ⟨n + 1, hn⟩ h0) ((last1_iff ⟨n + 1, hn⟩).mpr h1) (blk1 V c 0 ⟨n + 1, hn⟩) (blk1 V c 1 ⟨n + 1, hn⟩) (outsAt1 c n (Nat.lt_of_succ_lt hn)).2,
        accLast1 c ⟨n + 1, hn⟩ (notFirst1 ⟨n + 1, hn⟩ h0) ((last1_iff ⟨n + 1, hn⟩).mpr h1) (blk1 V c 0 ⟨n + 1, hn⟩) (blk1 V c 1 ⟨n + 1, hn⟩) (outsAt1 c n (Nat.lt_of_succ_lt hn)).2)
    else
      (outMid1 c ⟨n + 1, hn⟩ (notFirst1 ⟨n + 1, hn⟩ h0) (notLast1 ⟨n + 1, hn⟩ h1) (blk1 V c 0 ⟨n + 1, hn⟩) (blk1 V c 1 ⟨n + 1, hn⟩) (outsAt1 c n (Nat.lt_of_succ_lt hn)).2,
        accMid1 c ⟨n + 1, hn⟩ (notFirst1 ⟨n + 1, hn⟩ h0) (notLast1 ⟨n + 1, hn⟩ h1) (blk1 V c 0 ⟨n + 1, hn⟩) (blk1 V c 1 ⟨n + 1, hn⟩) (outsAt1 c n (Nat.lt_of_succ_lt hn)).2)

theorem outsAt1_first (c : Dev nD) (t : Fin cfg1.N) (h0 : t.val % 8 = 0) :
    outsAt1 V c t.val t.isLt = (outFirst1 c t ((first1_iff t).mpr h0) (notLast1_of_first t h0) (blk1 V c 0 t) (blk1 V c 1 t),
      accFirst1 c t ((first1_iff t).mpr h0) (notLast1_of_first t h0) (blk1 V c 0 t) (blk1 V c 1 t)) := by
  obtain ⟨n, hn⟩ := t
  cases n with
  | zero => exact rfl
  | succ n => exact (dif_pos h0).trans rfl

theorem outsAt1_last (c : Dev nD) (t : Fin cfg1.N) (h0 : ¬t.val % 8 = 0) (h1 : t.val % 8 = 7) :
    outsAt1 V c t.val t.isLt = (outLast1 c t (notFirst1 t h0) ((last1_iff t).mpr h1) (blk1 V c 0 t) (blk1 V c 1 t) (outsAt1 V c (t.val - 1) (Nat.lt_of_le_of_lt (Nat.sub_le _ _) t.isLt)).2,
      accLast1 c t (notFirst1 t h0) ((last1_iff t).mpr h1) (blk1 V c 0 t) (blk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

theorem outsAt1_mid (c : Dev nD) (t : Fin cfg1.N) (h0 : ¬t.val % 8 = 0) (h1 : ¬t.val % 8 = 7) :
    outsAt1 V c t.val t.isLt = (outMid1 c t (notFirst1 t h0) (notLast1 t h1) (blk1 V c 0 t) (blk1 V c 1 t) (outsAt1 V c (t.val - 1) (Nat.lt_of_le_of_lt (Nat.sub_le _ _) t.isLt)).2,
      accMid1 c t (notFirst1 t h0) (notLast1 t h1) (blk1 V c 0 t) (blk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-! ## The invariant that carries the accumulator -/

/-- The scoped buffers other than this product's accumulator (the other products' buffers), unopened. -/
abbrev rest1 (c : Dev nD) : sProp 𝕄 :=
  Pipeline.scopedRestBut (Ix := Unit) (Name := ℕ) (U := UR sig nD τ) (Lvl := ℕ) (Val := Elt F) spec1 c [cc1_scratch0]

/-- Before the first point every scoped buffer is at anything: the accumulator, the others, and the random-number register at some state. -/
theorem PhiA1_eq (c : Dev nD) :
    (Pipeline.ΦA spec1 c : sProp 𝕄) = iprop((∃ d, owns (c : Thread nD τ) acc1 fullShare d) ∗ rest1 c ∗ (∃ r, prngReg c r)) := by
  unfold Pipeline.ΦA
  rw [Pipeline.scopedRest_split_of_list spec1 c [cc1_scratch0] (by decide) (by decide)]
  simp only [bigSepL_singleton, acc1, owns_whole]
  exact equiv_iff.mp ⟨BI.sep_assoc, BI.sep_assoc'⟩

/-- Before position `n`: at the start anything; afterwards the accumulator at what the position before left. -/
def PhiS1 (c : Dev nD) : (n : ℕ) → n ≤ cfg1.N → sProp 𝕄
  | 0, _ => Pipeline.ΦA spec1 c
  | n + 1, hn => iprop(owns (c : Thread nD τ) acc1 fullShare ((outsAt1 V c n hn).2) ∗ rest1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) acc1 fullShare ((outsAt1 V c n hn).2) ∗ rest1 c ∗ (∃ r, prngReg c r)) := rfl
theorem PhiS1_pos (c : Dev nD) (n : ℕ) (h : n ≤ cfg1.N) (hz : n ≠ 0) :
    PhiS1 V c n h = iprop(owns (c : Thread nD τ) acc1 fullShare ((outsAt1 V c (n - 1) (by omega)).2) ∗ rest1 c ∗ (∃ r, prngReg c r)) := by
  cases n with
  | zero => exact absurd rfl hz
  | succ n => rfl

/-! ## The proof data -/

/-- The arrays as the region finds them; after the body each input's buffer at its block, the result's at the
    accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

end Cert.Kernel.Hand

end
-- ==== Proof.KbR1Body.lean ====
/-
  The second product: the body meets the pipeline's obligation at every point. The invariant hands the body the
  accumulator (at anything at the very first point, else at what the point before left), the body's case runs, and the
  invariant takes the accumulator back at this point's contents; the result's buffer is handed back untouched except
  at the last block of a contraction, where it ends at the rounded accumulator.
-/
import proofs.«125243_j9740985828005_2_alg».proof.Proof.KbR1Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  by_cases h0 : t.val % 8 = 0
  · have h1 : ¬t.val % 8 = 7 := by omega
    rw [Dat.leavesExact_idle (dat1 V c) 2 t (idle1_2 t (notLast1 t h1)) (noFlush1_2 t (notLast1 t h1))]
    rw [outsAt1_first V c t h0]
    unfold accFirst1; (try dsimp only)
    by_cases hz : t.val = 0
    · rw [PhiS1_castSucc V c t, PhiS1_zero V c _ _ hz, PhiA1_eq]
      iintro ⟨⟨HS, HR, Hg⟩, Ho, ⟨%d0, H0⟩, ⟨%d1, H1⟩, ⟨%d2, H2⟩⟩
      iapply ((run1_first c (grid1.coords t) _ _ _ _ _ _ _ _ ((first1_iff t).mpr h0) (notLast1_of_first t h0) (blk1 V c 0 t) (blk1 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (accCoverFirst1 c t _ _ _ _)
        isplitl [HR]; · iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨HS, HR, Hg⟩, Ho, ⟨%d0, H0⟩, ⟨%d1, H1⟩, ⟨%d2, H2⟩⟩
      iapply ((run1_first c (grid1.coords t) _ _ _ _ _ _ _ _ ((first1_iff t).mpr h0) (notLast1_of_first t h0) (blk1 V c 0 t) (blk1 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (accCoverFirst1 c t _ _ _ _)
        isplitl [HR]; · iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat1 V c).leavesExact 2 t = owns (c : Thread nD τ) (ms1_2 t) fullShare ((dat1 V c).after 2 t) from by
        unfold Dat.leavesExact; rw [live1_2 t ((last1_iff t).mpr h1)], after1_2]
      rw [outsAt1_last V c t h0 h1]
      unfold outLast1 accLast1; (try dsimp only)
      rw [PhiS1_castSucc V c t, PhiS1_pos V c _ _ hz]
      iintro ⟨⟨HS, HR, Hg⟩, Ho, ⟨%d0, H0⟩, ⟨%d1, H1⟩, ⟨%d2, H2⟩⟩
      iapply ((run1_last c (grid1.coords t) _ _ _ _ _ _ _ _ (notFirst1 t h0) ((last1_iff t).mpr h1) (blk1 V c 0 t) (blk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS]
        · unfold owns; iexists _; isplitr
          swap; · iexact HS
          ipureintro; exact View.read_writes_of_cover _ _ _ _ _ (accCoverLast1 c t _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverLast1 c t _ _ _ _ _)
    · rw [Dat.leavesExact_idle (dat1 V c) 2 t (idle1_2 t (notLast1 t h1)) (noFlush1_2 t (notLast1 t h1))]
      rw [outsAt1_mid V c t h0 h1]
      unfold accMid1; (try dsimp only)
      rw [PhiS1_castSucc V c t, PhiS1_pos V c _ _ hz]
      iintro ⟨⟨HS, HR, Hg⟩, Ho, ⟨%d0, H0⟩, ⟨%d1, H1⟩, ⟨%d2, H2⟩⟩
      iapply ((run1_mid c (grid1.coords t) _ _ _ _ _ _ _ _ (notFirst1 t h0) (notLast1 t h1) (blk1 V c 0 t) (blk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (accCoverMid1 c t _ _ _ _ _)
        isplitl [HR]; · iexact HR
        iexact Hg
      isplitl [Ho]; · iexact Ho
      isplitl [H0]; · iexact H0
      isplitl [H1]; · iexact H1
      iexists _; iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨HS, HR, Hg⟩
  isplitl [HS]
  · iexists _; iexact HS
  isplitl [HR]; · iexact HR
  iexact Hg

end Cert.Kernel.Hand

end
-- ==== Proof.KbR2Kit.lean ====
/-
  The third product, adj · tmp followed by the leaky rectifier, as the pipeline runs it: an 8 × 8 grid whose second coordinate walks the
  contraction in 8 blocks of 1024. What is fixed here, before any run: which points zero the accumulator (the first
  block of each row of the grid) and which write the result back (the last), the buffers a point is called with, and
  that an input's buffer holds its block of the array the region was entered with.
-/
import proofs.«125243_j9740985828005_2_alg».proof.Proof.Gen.Kernel.Launch
import proofs.«125243_j9740985828005_2_alg».proof.Proof.Gen.Kernel.Skeleton
import proofs.«125243_j9740985828005_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the arrays the region is entered with -/

/-- Window `w`'s block at point `t` of the array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency block: whatever proof data has the entry array and leaves the block in place finds the block in the
    current buffer at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The second product's result, resident whole: fetched once, found at every point. -/
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## Which points zero the accumulator, which write the result back -/

/-- The point is the first block of its contraction. -/
abbrev first2 (i : grid2.Coords) : Prop := (Scalar.cmpi .ne (Scalar.extui (Scalar.cmpi .eq (BitVec.ofNat 32 (i 1).val) 0#32)) 0#32) = 1#1
theorem first2_iff : ∀ t : Fin cfg2.N, first2 (grid2.coords t) ↔ t.val % 8 = 0 :=
  (by decide +kernel : ∀ t : Fin grid2.N, first2 (grid2.coords t) ↔ t.val % 8 = 0)

/-- The point is the last block of its contraction. -/
abbrev last2 (i : grid2.Coords) : Prop := k2_cond2 i = 1#1
theorem last2_iff : ∀ t : Fin cfg2.N, last2 (grid2.coords t) ↔ t.val % 8 = 7 :=
  (by decide +kernel : ∀ t : Fin grid2.N, last2 (grid2.coords t) ↔ t.val % 8 = 7)

theorem live2_0 : ∀ t : Fin cfg2.N, cfg2.idle 0 (grid2.coords t) = false := by decide +kernel
theorem live2_1 : ∀ t : Fin cfg2.N, cfg2.idle 1 (grid2.coords t) = false := by decide +kernel
/-- Away from the last block nothing is stored into the result's buffer, and it is not written back. -/
theorem idle2_2 : ∀ t : Fin cfg2.N, ¬last2 (grid2.coords t) → cfg2.idle 2 (grid2.coords t) = true := by decide +kernel
theorem noFlush2_2 : ∀ t : Fin cfg2.N, ¬last2 (grid2.coords t) → (cfg2.win 2).flush t = false := by decide +kernel
theorem live2_2 : ∀ t : Fin cfg2.N, last2 (grid2.coords t) → cfg2.idle 2 (grid2.coords t) = false := by decide +kernel

/-! ## The buffers a point is called with -/

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x256 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev acc2 : Memref sig .tc .vmem S1024x256 .f32 := Memref.whole cc2_scratch0
abbrev accV2 : View sig .tc .vmem S1024x256 .f32 := (acc2).view
/-- One of the result's buffers, through which its contents are stated. -/
abbrev outV2 : View sig .tc .vmem S1024x256 .f32 := (Memref.whole cc2_stg2_0 : Memref sig .tc .vmem S1024x256 .f32).view

end Cert.Kernel.Hand

end
-- ==== Proof.KbR2RunMid.lean ====
/-
  One middle block of the third product: the accumulator holds the blocks before it, the body adds this block's
  product to it and stores nothing into the result's buffer.
-/
import proofs.«125243_j9740985828005_2_alg».proof.Proof.KbR2Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that is neither the first nor the last block of its contraction: from the two inputs' buffers at their
    contents, the result's buffer at anything (handed back untouched) and the accumulator at `xs`, the body runs to
    the accumulator rewritten by the pieces found here. -/
noncomputable def run2_mid (c : Dev nD) (i : grid2.Coords) (arg2 : Memref sig .tc .vmem S1024x1024 .bf16) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬first2 i) (hc1 : ¬last2 i)
    (x0 : Vec F S1024x1024 .bf16) (x1 : Vec F S8192x256 .bf16) (xs : Vec F S1024x256 .f32) :
    Σ' (L2 : List (View.Piece (Elt F) S1024x256 .f32)), { LS : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc2__mm3_kernel i arg2 harg2 arg3 harg3 arg4 harg4 arg5 harg5) K } := by
  refine ⟨[], ?_, fun xi2 E K => ?run⟩
  case run =>
    simp only [cc2__mm3_kernel_eq_skeleton]; unfold cc2__mm3_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.KbR2RunFirst.lean ====
/-
  The first block of a contraction in the third product: whatever the accumulator held is overwritten by zeros, then
  this block's product is added; nothing is stored into the result's buffer.
-/
import proofs.«125243_j9740985828005_2_alg».proof.Proof.KbR2RunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first block of a contraction: from the two inputs' buffers at their contents, the result's buffer at
    anything (handed back untouched) and the accumulator at anything, the body runs to the accumulator rewritten by the
    pieces found here (the zeros first, then the sum). -/
noncomputable def run2_first (c : Dev nD) (i : grid2.Coords) (arg2 : Memref sig .tc .vmem S1024x1024 .bf16) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : first2 i) (hc1 : ¬last2 i)
    (x0 : Vec F S1024x1024 .bf16) (x1 : Vec F S8192x256 .bf16) :
    Σ' (L2 : List (View.Piece (Elt F) S1024x256 .f32)), { LS : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc2__mm3_kernel i arg2 harg2 arg3 harg3 arg4 harg4 arg5 harg5) K } := by
  refine ⟨[], ?_, fun xi2 E K => ?run⟩
  case run =>
    simp only [cc2__mm3_kernel_eq_skeleton]; unfold cc2__mm3_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand

end
-- ==== Proof.KbR2RunLast.lean ====
/-
  The last block of a contraction in the third product: this block's product is added to the accumulator, and the
  leaky rectifier of the accumulator is stored over the whole of the result's buffer.
-/
import proofs.«125243_j9740985828005_2_alg».proof.Proof.KbR2RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last block of a contraction: from the two inputs' buffers at their contents, the result's buffer at
    anything and the accumulator at `xs`, the body runs to the accumulator and the result's buffer rewritten by the
    pieces found here. -/
noncomputable def run2_last (c : Dev nD) (i : grid2.Coords) (arg2 : Memref sig .tc .vmem S1024x1024 .bf16) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬first2 i) (hc1 : last2 i)
    (x0 : Vec F S1024x1024 .bf16) (x1 : Vec F S8192x256 .bf16) (xs : Vec F S1024x256 .f32) :
    Σ' (L2 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc2__mm3_kernel i arg2 harg2 arg3 harg3 arg4 harg4 arg5 harg5) K } := by
  refine ⟨?_, ?_, fun E K => ?run⟩
  case run =>
    simp only [cc2__mm3_kernel_eq_skeleton]; unfold cc2__mm3_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Hand

end
-- ==== Proof.KbR2Data.lean ====
/-
  The third product point by point. At each point of the 8 × 8 grid the accumulator ends at what the point's case
  makes of it — zeros plus the first block's product, the previous contents plus this block's product — and at the last
  block of a contraction the result's buffer ends at the leaky rectifier of the accumulator. This module names those contents
  (read back through the pieces each case's run found), states the invariant that carries the accumulator from a point
  to the next, and proves that the body meets the pipeline's obligation at every point.
-/
import proofs.«125243_j9740985828005_2_alg».proof.Proof.KbR2RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem notLast2_of_first (t : Fin cfg2.N) (h0 : t.val % 8 = 0) : ¬last2 (grid2.coords t) :=
  fun h => absurd ((last2_iff t).mp h) (by omega)
theorem notFirst2 (t : Fin cfg2.N) (h0 : ¬t.val % 8 = 0) : ¬first2 (grid2.coords t) :=
  fun h => h0 ((first2_iff t).mp h)
theorem notLast2 (t : Fin cfg2.N) (h1 : ¬t.val % 8 = 7) : ¬last2 (grid2.coords t) :=
  fun h => h1 ((last2_iff t).mp h)

/-- First block: the pieces cover the accumulator. -/
theorem accCoverFirst2 (c : Dev nD) (t : Fin cfg2.N) (hf : first2 (grid2.coords t)) (hl : ¬last2 (grid2.coords t))
    (x0 : Vec F S1024x1024 .bf16) (x1 : Vec F S8192x256 .bf16) (y : S1024x256.Idx) :
    ∃ pc ∈ (run2_first c (grid2.coords t) (ms2_0 t) (hs2_0 t) (ms2_1 t) (hs2_1 t) (ms2_2 t) (hs2_2 t) acc2 (Memref.isWhole_whole _) hf hl x0 x1).2.1, y ∈ pc.1.set :=
  View.cover_of_tiledL (run2_first c (grid2.coords t) (ms2_0 t) (hs2_0 t) (ms2_1 t) (hs2_1 t) (ms2_2 t) (hs2_2 t) acc2 (Memref.isWhole_whole _) hf hl x0 x1).2.1 S1024x256.size (by sl_kernel_rfl) y
/-- First block: what the accumulator holds afterwards. -/
def accFirst2 (c : Dev nD) (t : Fin cfg2.N) (hf : first2 (grid2.coords t)) (hl : ¬last2 (grid2.coords t))
    (x0 : Vec F S1024x1024 .bf16) (x1 : Vec F S8192x256 .bf16) : Vec F S1024x256 .f32 :=
  accV2.read (Elt F) (accV2.writes (Elt F) accV2.junk (run2_first c (grid2.coords t) (ms2_0 t) (hs2_0 t) (ms2_1 t) (hs2_1 t) (ms2_2 t) (hs2_2 t) acc2 (Memref.isWhole_whole _) hf hl x0 x1).2.1)
/-- First block: nothing is stored into the result's buffer; a name for what nobody reads. -/
def outFirst2 (c : Dev nD) (t : Fin cfg2.N) (hf : first2 (grid2.coords t)) (hl : ¬last2 (grid2.coords t))
    (x0 : Vec F S1024x1024 .bf16) (x1 : Vec F S8192x256 .bf16) : Vec F S1024x256 .f32 :=
  outV2.read (Elt F) (outV2.writes (Elt F) outV2.junk (run2_first c (grid2.coords t) (ms2_0 t) (hs2_0 t) (ms2_1 t) (hs2_1 t) (ms2_2 t) (hs2_2 t) acc2 (Memref.isWhole_whole _) hf hl x0 x1).1)

/-- Middle block: the pieces cover the accumulator. -/
theorem accCoverMid2 (c : Dev nD) (t : Fin cfg2.N) (hf : ¬first2 (grid2.coords t)) (hl : ¬last2 (grid2.coords t))
    (x0 : Vec F S1024x1024 .bf16) (x1 : Vec F S8192x256 .bf16) (xs : Vec F S1024x256 .f32) (y : S1024x256.Idx) :
    ∃ pc ∈ (run2_mid c (grid2.coords t) (ms2_0 t) (hs2_0 t) (ms2_1 t) (hs2_1 t) (ms2_2 t) (hs2_2 t) acc2 (Memref.isWhole_whole _) hf hl x0 x1 xs).2.1, y ∈ pc.1.set :=
  View.cover_of_tiledL (run2_mid c (grid2.coords t) (ms2_0 t) (hs2_0 t) (ms2_1 t) (hs2_1 t) (ms2_2 t) (hs2_2 t) acc2 (Memref.isWhole_whole _) hf hl x0 x1 xs).2.1 S1024x256.size (by sl_kernel_rfl) y
def accMid2 (c : Dev nD) (t : Fin cfg2.N) (hf : ¬first2 (grid2.coords t)) (hl : ¬last2 (grid2.coords t))
    (x0 : Vec F S1024x1024 .bf16) (x1 : Vec F S8192x256 .bf16) (xs : Vec F S1024x256 .f32) : Vec F S1024x256 .f32 :=
  accV2.read (Elt F) (accV2.writes (Elt F) accV2.junk (run2_mid c (grid2.coords t) (ms2_0 t) (hs2_0 t) (ms2_1 t) (hs2_1 t) (ms2_2 t) (hs2_2 t) acc2 (Memref.isWhole_whole _) hf hl x0 x1 xs).2.1)
def outMid2 (c : Dev nD) (t : Fin cfg2.N) (hf : ¬first2 (grid2.coords t)) (hl : ¬last2 (grid2.coords t))
    (x0 : Vec F S1024x1024 .bf16) (x1 : Vec F S8192x256 .bf16) (xs : Vec F S1024x256 .f32) : Vec F S1024x256 .f32 :=
  outV2.read (Elt F) (outV2.writes (Elt F) outV2.junk (run2_mid c (grid2.coords t) (ms2_0 t) (hs2_0 t) (ms2_1 t) (hs2_1 t) (ms2_2 t) (hs2_2 t) acc2 (Memref.isWhole_whole _) hf hl x0 x1 xs).1)

/-- Last block: the pieces cover the accumulator, and the result's buffer. -/
theorem accCoverLast2 (c : Dev nD) (t : Fin cfg2.N) (hf : ¬first2 (grid2.coords t)) (hl : last2 (grid2.coords t))
    (x0 : Vec F S1024x1024 .bf16) (x1 : Vec F S8192x256 .bf16) (xs : Vec F S1024x256 .f32) (y : S1024x256.Idx) :
    ∃ pc ∈ (run2_last c (grid2.coords t) (ms2_0 t) (hs2_0 t) (ms2_1 t) (hs2_1 t) (ms2_2 t) (hs2_2 t) acc2 (Memref.isWhole_whole _) hf hl x0 x1 xs).2.1, y ∈ pc.1.set :=
  View.cover_of_tiledL (run2_last c (grid2.coords t) (ms2_0 t) (hs2_0 t) (ms2_1 t) (hs2_1 t) (ms2_2 t) (hs2_2 t) acc2 (Memref.isWhole_whole _) hf hl x0 x1 xs).2.1 S1024x256.size (by sl_kernel_rfl) y
theorem outCoverLast2 (c : Dev nD) (t : Fin cfg2.N) (hf : ¬first2 (grid2.coords t)) (hl : last2 (grid2.coords t))
    (x0 : Vec F S1024x1024 .bf16) (x1 : Vec F S8192x256 .bf16) (xs : Vec F S1024x256 .f32) (y : S1024x256.Idx) :
    ∃ pc ∈ (run2_last c (grid2.coords t) (ms2_0 t) (hs2_0 t) (ms2_1 t) (hs2_1 t) (ms2_2 t) (hs2_2 t) acc2 (Memref.isWhole_whole _) hf hl x0 x1 xs).1, y ∈ pc.1.set :=
  View.cover_of_tiledL (run2_last c (grid2.coords t) (ms2_0 t) (hs2_0 t) (ms2_1 t) (hs2_1 t) (ms2_2 t) (hs2_2 t) acc2 (Memref.isWhole_whole _) hf hl x0 x1 xs).1 S1024x256.size (by sl_kernel_rfl) y
def accLast2 (c : Dev nD) (t : Fin cfg2.N) (hf : ¬first2 (grid2.coords t)) (hl : last2 (grid2.coords t))
    (x0 : Vec F S1024x1024 .bf16) (x1 : Vec F S8192x256 .bf16) (xs : Vec F S1024x256 .f32) : Vec F S1024x256 .f32 :=
  accV2.read (Elt F) (accV2.writes (Elt F) accV2.junk (run2_last c (grid2.coords t) (ms2_0 t) (hs2_0 t) (ms2_1 t) (hs2_1 t) (ms2_2 t) (hs2_2 t) acc2 (Memref.isWhole_whole _) hf hl x0 x1 xs).2.1)
def outLast2 (c : Dev nD) (t : Fin cfg2.N) (hf : ¬first2 (grid2.coords t)) (hl : last2 (grid2.coords t))
    (x0 : Vec F S1024x1024 .bf16) (x1 : Vec F S8192x256 .bf16) (xs : Vec F S1024x256 .f32) : Vec F S1024x256 .f32 :=
  outV2.read (Elt F) (outV2.writes (Elt F) outV2.junk (run2_last c (grid2.coords t) (ms2_0 t) (hs2_0 t) (ms2_1 t) (hs2_1 t) (ms2_2 t) (hs2_2 t) acc2 (Memref.isWhole_whole _) hf hl x0 x1 xs).1)

/-! ## The accumulation, point by point -/

/-- What the result's buffer and the accumulator hold after the body at position `n`: the case the position selects,
    run on the point's blocks, a later block of a contraction over what the position before left in the accumulator. -/
def outsAt2 (c : Dev nD) : (n : ℕ) → n < cfg2.N → Vec F S1024x256 .f32 × Vec F S1024x256 .f32
  | 0, hn => (outFirst2 c ⟨0, hn⟩ ((first2_iff ⟨0, hn⟩).mpr (Nat.zero_mod _)) (notLast2_of_first ⟨0, hn⟩ (Nat.zero_mod _)) (blk2 V c 0 ⟨0, hn⟩) (blk2 V c 1 ⟨0, hn⟩),
      accFirst2 c ⟨0, hn⟩ ((first2_iff ⟨0, hn⟩).mpr (Nat.zero_mod _)) (notLast2_of_first ⟨0, hn⟩ (Nat.zero_mod _)) (blk2 V c 0 ⟨0, hn⟩) (blk2 V c 1 ⟨0, hn⟩))
  | n + 1, hn =>
    if h0 : (n + 1) % 8 = 0 then
      (outFirst2 c ⟨n + 1, hn⟩ ((first2_iff ⟨n + 1, hn⟩).mpr h0) (notLast2_of_first ⟨n + 1, hn⟩ h0) (blk2 V c 0 ⟨n + 1, hn⟩) (blk2 V c 1 ⟨n + 1, hn⟩),
        accFirst2 c ⟨n + 1, hn⟩ ((first2_iff ⟨n + 1, hn⟩).mpr h0) (notLast2_of_first ⟨n + 1, hn⟩ h0) (blk2 V c 0 ⟨n + 1, hn⟩) (blk2 V c 1 ⟨n + 1, hn⟩))
    else if h1 : (n + 1) % 8 = 7 then
      (outLast2 c ⟨n + 1, hn⟩ (notFirst2 ⟨n + 1, hn⟩ h0) ((last2_iff ⟨n + 1, hn⟩).mpr h1) (blk2 V c 0 ⟨n + 1, hn⟩) (blk2 V c 1 ⟨n + 1, hn⟩) (outsAt2 c n (Nat.lt_of_succ_lt hn)).2,
        accLast2 c ⟨n + 1, hn⟩ (notFirst2 ⟨n + 1, hn⟩ h0) ((last2_iff ⟨n + 1, hn⟩).mpr h1) (blk2 V c 0 ⟨n + 1, hn⟩) (blk2 V c 1 ⟨n + 1, hn⟩) (outsAt2 c n (Nat.lt_of_succ_lt hn)).2)
    else
      (outMid2 c ⟨n + 1, hn⟩ (notFirst2 ⟨n + 1, hn⟩ h0) (notLast2 ⟨n + 1, hn⟩ h1) (blk2 V c 0 ⟨n + 1, hn⟩) (blk2 V c 1 ⟨n + 1, hn⟩) (outsAt2 c n (Nat.lt_of_succ_lt hn)).2,
        accMid2 c ⟨n + 1, hn⟩ (notFirst2 ⟨n + 1, hn⟩ h0) (notLast2 ⟨n + 1, hn⟩ h1) (blk2 V c 0 ⟨n + 1, hn⟩) (blk2 V c 1 ⟨n + 1, hn⟩) (outsAt2 c n (Nat.lt_of_succ_lt hn)).2)

theorem outsAt2_first (c : Dev nD) (t : Fin cfg2.N) (h0 : t.val % 8 = 0) :
    outsAt2 V c t.val t.isLt = (outFirst2 c t ((first2_iff t).mpr h0) (notLast2_of_first t h0) (blk2 V c 0 t) (blk2 V c 1 t),
      accFirst2 c t ((first2_iff t).mpr h0) (notLast2_of_first t h0) (blk2 V c 0 t) (blk2 V c 1 t)) := by
  obtain ⟨n, hn⟩ := t
  cases n with
  | zero => exact rfl
  | succ n => exact (dif_pos h0).trans rfl

theorem outsAt2_last (c : Dev nD) (t : Fin cfg2.N) (h0 : ¬t.val % 8 = 0) (h1 : t.val % 8 = 7) :
    outsAt2 V c t.val t.isLt = (outLast2 c t (notFirst2 t h0) ((last2_iff t).mpr h1) (blk2 V c 0 t) (blk2 V c 1 t) (outsAt2 V c (t.val - 1) (Nat.lt_of_le_of_lt (Nat.sub_le _ _) t.isLt)).2,
      accLast2 c t (notFirst2 t h0) ((last2_iff t).mpr h1) (blk2 V c 0 t) (blk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

theorem outsAt2_mid (c : Dev nD) (t : Fin cfg2.N) (h0 : ¬t.val % 8 = 0) (h1 : ¬t.val % 8 = 7) :
    outsAt2 V c t.val t.isLt = (outMid2 c t (notFirst2 t h0) (notLast2 t h1) (blk2 V c 0 t) (blk2 V c 1 t) (outsAt2 V c (t.val - 1) (Nat.lt_of_le_of_lt (Nat.sub_le _ _) t.isLt)).2,
      accMid2 c t (notFirst2 t h0) (notLast2 t h1) (blk2 V c 0 t) (blk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-! ## The invariant that carries the accumulator -/

/-- The scoped buffers other than this product's accumulator (the other products' buffers), unopened. -/
abbrev rest2 (c : Dev nD) : sProp 𝕄 :=
  Pipeline.scopedRestBut (Ix := Unit) (Name := ℕ) (U := UR sig nD τ) (Lvl := ℕ) (Val := Elt F) spec2 c [cc2_scratch0]

/-- Before the first point every scoped buffer is at anything: the accumulator, the others, and the random-number register at some state. -/
theorem PhiA2_eq (c : Dev nD) :
    (Pipeline.ΦA spec2 c : sProp 𝕄) = iprop((∃ d, owns (c : Thread nD τ) acc2 fullShare d) ∗ rest2 c ∗ (∃ r, prngReg c r)) := by
  unfold Pipeline.ΦA
  rw [Pipeline.scopedRest_split_of_list spec2 c [cc2_scratch0] (by decide) (by decide)]
  simp only [bigSepL_singleton, acc2, owns_whole]
  exact equiv_iff.mp ⟨BI.sep_assoc, BI.sep_assoc'⟩

/-- Before position `n`: at the start anything; afterwards the accumulator at what the position before left. -/
def PhiS2 (c : Dev nD) : (n : ℕ) → n ≤ cfg2.N → sProp 𝕄
  | 0, _ => Pipeline.ΦA spec2 c
  | n + 1, hn => iprop(owns (c : Thread nD τ) acc2 fullShare ((outsAt2 V c n hn).2) ∗ rest2 c ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) acc2 fullShare ((outsAt2 V c n hn).2) ∗ rest2 c ∗ (∃ r, prngReg c r)) := rfl
theorem PhiS2_pos (c : Dev nD) (n : ℕ) (h : n ≤ cfg2.N) (hz : n ≠ 0) :
    PhiS2 V c n h = iprop(owns (c : Thread nD τ) acc2 fullShare ((outsAt2 V c (n - 1) (by omega)).2) ∗ rest2 c ∗ (∃ r, prngReg c r)) := by
  cases n with
  | zero => exact absurd rfl hz
  | succ n => rfl

/-! ## The proof data -/

/-- The arrays as the region finds them; after the body each input's buffer at its block, the result's at the
    accumulation's first component; the invariant above; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d

end Cert.Kernel.Hand

end
-- ==== Proof.KbR2Body.lean ====
/-
  The third product: the body meets the pipeline's obligation at every point. The invariant hands the body the
  accumulator (at anything at the very first point, else at what the point before left), the body's case runs, and the
  invariant takes the accumulator back at this point's contents; the result's buffer is handed back untouched except
  at the last block of a contraction, where it ends at the leaky rectifier of the accumulator.
-/
import proofs.«125243_j9740985828005_2_alg».proof.Proof.KbR2Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0 V, before2_1 V]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  by_cases h0 : t.val % 8 = 0
  · have h1 : ¬t.val % 8 = 7 := by omega
    rw [Dat.leavesExact_idle (dat2 V c) 2 t (idle2_2 t (notLast2 t h1)) (noFlush2_2 t (notLast2 t h1))]
    rw [outsAt2_first V c t h0]
    unfold accFirst2; (try dsimp only)
    by_cases hz : t.val = 0
    · rw [PhiS2_castSucc V c t, PhiS2_zero V c _ _ hz, PhiA2_eq]
      iintro ⟨⟨HS, HR, Hg⟩, Ho, ⟨%d0, H0⟩, ⟨%d1, H1⟩, ⟨%d2, H2⟩⟩
      iapply ((run2_first c (grid2.coords t) _ _ _ _ _ _ _ _ ((first2_iff t).mpr h0) (notLast2_of_first t h0) (blk2 V c 0 t) (blk2 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (accCoverFirst2 c t _ _ _ _)
        isplitl [HR]; · iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨HS, HR, Hg⟩, Ho, ⟨%d0, H0⟩, ⟨%d1, H1⟩, ⟨%d2, H2⟩⟩
      iapply ((run2_first c (grid2.coords t) _ _ _ _ _ _ _ _ ((first2_iff t).mpr h0) (notLast2_of_first t h0) (blk2 V c 0 t) (blk2 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (accCoverFirst2 c t _ _ _ _)
        isplitl [HR]; · iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat2 V c).leavesExact 2 t = owns (c : Thread nD τ) (ms2_2 t) fullShare ((dat2 V c).after 2 t) from by
        unfold Dat.leavesExact; rw [live2_2 t ((last2_iff t).mpr h1)], after2_2]
      rw [outsAt2_last V c t h0 h1]
      unfold outLast2 accLast2; (try dsimp only)
      rw [PhiS2_castSucc V c t, PhiS2_pos V c _ _ hz]
      iintro ⟨⟨HS, HR, Hg⟩, Ho, ⟨%d0, H0⟩, ⟨%d1, H1⟩, ⟨%d2, H2⟩⟩
      iapply ((run2_last c (grid2.coords t) _ _ _ _ _ _ _ _ (notFirst2 t h0) ((last2_iff t).mpr h1) (blk2 V c 0 t) (blk2 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS]
        · unfold owns; iexists _; isplitr
          swap; · iexact HS
          ipureintro; exact View.read_writes_of_cover _ _ _ _ _ (accCoverLast2 c t _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverLast2 c t _ _ _ _ _)
    · rw [Dat.leavesExact_idle (dat2 V c) 2 t (idle2_2 t (notLast2 t h1)) (noFlush2_2 t (notLast2 t h1))]
      rw [outsAt2_mid V c t h0 h1]
      unfold accMid2; (try dsimp only)
      rw [PhiS2_castSucc V c t, PhiS2_pos V c _ _ hz]
      iintro ⟨⟨HS, HR, Hg⟩, Ho, ⟨%d0, H0⟩, ⟨%d1, H1⟩, ⟨%d2, H2⟩⟩
      iapply ((run2_mid c (grid2.coords t) _ _ _ _ _ _ _ _ (notFirst2 t h0) (notLast2 t h1) (blk2 V c 0 t) (blk2 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (accCoverMid2 c t _ _ _ _ _)
        isplitl [HR]; · iexact HR
        iexact Hg
      isplitl [Ho]; · iexact Ho
      isplitl [H0]; · iexact H0
      isplitl [H1]; · iexact H1
      iexists _; iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨HS, HR, Hg⟩
  isplitl [HS]
  · iexists _; iexact HS
  isplitl [HR]; · iexact HR
  iexact Hg

end Cert.Kernel.Hand

end
-- ==== Proof.KbRun.lean ====
/-
  The whole program: three rounding casts on the host, then the three products, each a pipelined region. Between two
  items every unscoped buffer of the core is held whole at a known contents: the launch memory, then the casts applied,
  then after each product its result array at what the product's write-backs leave. Run to the end, every unscoped
  buffer holds the last of these contents; the arguments, which no item writes, hold what they were launched with.
-/
import proofs.«125243_j9740985828005_2_alg».proof.Proof.KbR0Body
import proofs.«125243_j9740985828005_2_alg».proof.Proof.KbR1Body
import proofs.«125243_j9740985828005_2_alg».proof.Proof.KbR2Body
import proofs.«125243_j9740985828005_2_alg».proof.Proof.Gen.Kernel.Regions
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => (s₀ m ρ).mem ((c : Dev nD), b)
/-- After the three casts. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After product 1: its arrays at what the pipeline leaves (the inputs as entered, the result's write-backs folded), every
    other buffer as before it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After product 2: its arrays at what the pipeline leaves (the inputs as entered, the result's write-backs folded), every
    other buffer as before it. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After product 3: its arrays at what the pipeline leaves (the inputs as entered, the result's write-backs folded), every
    other buffer as before it. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### The arguments end as launched -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

theorem W4_main_arg0 (c : Dev nD) : W4 m ρ c (Proc.devRef .tc main_arg0) = m ((c : Thread nD τ).loc main_arg0) :=
  (W4_of_ne m ρ c main_arg0 (by decide)).trans <| (W3_of_ne m ρ c main_arg0 (by decide)).trans <| (W2_of_ne m ρ c main_arg0 (by decide)).trans <| (W1_of m ρ c main_arg0 (by decide)).trans rfl
theorem W4_main_arg1 (c : Dev nD) : W4 m ρ c (Proc.devRef .tc main_arg1) = m ((c : Thread nD τ).loc main_arg1) :=
  (W4_of_ne m ρ c main_arg1 (by decide)).trans <| (W3_of_ne m ρ c main_arg1 (by decide)).trans <| (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of_ne m ρ c main_arg2 (by decide)).trans <| (W2_of_ne m ρ c main_arg2 (by decide)).trans <| (W1_of m ρ c main_arg2 (by decide)).trans rfl

/-! ## The proof data family and the thread state -/

/-- Each product's proof data at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the random-number register at some state, and nothing owed. -/
abbrev R (c : Dev nD) : sProp 𝕄 := iprop((∃ r, prngReg c r) ∗ ∃ W, owes (c : Thread nD τ) (0 : CellTallies nD τ sig Unit) W)
/-- The casts as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last contents, the random-number register at some state. -/
abbrev Tₙ (c : Dev nD) : sProp 𝕄 := iprop(StableHlo.held (c : Thread nD τ) (Pipeline.ucRefs τ sig) (W4 m ρ c) ∗ ∃ r, prngReg c r)

/-! ## The products as segments -/

set_option backward.isDefEq.respectTransparency.types false in
/-- Product 1 as a segment: entered with every unscoped buffer at the contents before it, left with its result array
    at what its write-backs leave and every other buffer as entered. Its arrays are split out of the unscoped buffers
    at the entry and put back at the exit; the random-number register and the scoped buffers pass through the invariant
    that carries the accumulator; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    refine BIBase.Entails.trans (hout0 (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Product 2 as a segment: entered with every unscoped buffer at the contents before it, left with its result array
    at what its write-backs leave and every other buffer as entered. Its arrays are split out of the unscoped buffers
    at the entry and put back at the exit; the random-number register and the scoped buffers pass through the invariant
    that carries the accumulator; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    refine BIBase.Entails.trans (hout1 (V2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Product 3 as a segment: entered with every unscoped buffer at the contents before it, left with its result array
    at what its write-backs leave and every other buffer as entered. Its arrays are split out of the unscoped buffers
    at the entry and put back at the exit; the random-number register and the scoped buffers pass through the invariant
    that carries the accumulator; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V3 m ρ) c)
    unfold Pipeline.ΦA
    iintro ⟨Hp, -, Hr⟩
    isplitl [Hr]; · iexact Hr
    iexact Hp
  hout c := by
    refine BIBase.Entails.trans (hout2 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and in
    every final state each unscoped buffer of each core holds the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- The result array ends at what the third product's write-backs leave. -/
theorem result : θ_run defs (onTc (τ := τ) (main (F := F))) ⟨m, fun _ => 0, ρ⟩ (fun r => ∀ c : Dev nD,
      r.2.mem ((c.tc : Thread nD τ).loc main_v5) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun s h c =>
    ⟨(h c _ (mem_uc main_v5 (by decide))).trans (W4_arr m ρ c 2),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Hand

end
-- ==== Proof.KiR0Kit.lean ====
/-
  The first product, adj = att · inp, as the pipeline runs it: an 8 × 4 × 8 grid whose last coordinate walks the
  contraction in 8 blocks of 1024. What is fixed here, before any run: which points zero the accumulator (the first
  block of each contraction) and which write the result back (the last), the buffers a point is called with, and
  that an input's buffer holds its block of the array the region was entered with.
-/
import proofs.«125243_j9740985828005_2_alg».proof.Proof.Gen.KernelIdeal.Launch
import proofs.«125243_j9740985828005_2_alg».proof.Proof.Gen.KernelIdeal.Skeleton
import proofs.«125243_j9740985828005_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the arrays the region is entered with -/

/-- Window `w`'s block at point `t` of the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's block: whatever proof data has the entry array and leaves the block in place finds the block in the
    current buffer at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The right factor's block: found in the current buffer at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## Which points zero the accumulator, which write the result back -/

/-- The point is the first block of its contraction. -/
abbrev first0 (i : grid0.Coords) : Prop := (Scalar.cmpi .ne (Scalar.extui (Scalar.cmpi .eq (BitVec.ofNat 32 (i 2).val) 0#32)) 0#32) = 1#1
theorem first0_iff : ∀ t : Fin cfg0.N, first0 (grid0.coords t) ↔ t.val % 8 = 0 :=
  (by decide +kernel : ∀ t : Fin grid0.N, first0 (grid0.coords t) ↔ t.val % 8 = 0)

/-- The point is the last block of its contraction. -/
abbrev last0 (i : grid0.Coords) : Prop := k0_cond2 i = 1#1
theorem last0_iff : ∀ t : Fin cfg0.N, last0 (grid0.coords t) ↔ t.val % 8 = 7 :=
  (by decide +kernel : ∀ t : Fin grid0.N, last0 (grid0.coords t) ↔ t.val % 8 = 7)

theorem live0_0 : ∀ t : Fin cfg0.N, cfg0.idle 0 (grid0.coords t) = false := by decide +kernel
theorem live0_1 : ∀ t : Fin cfg0.N, cfg0.idle 1 (grid0.coords t) = false := by decide +kernel
/-- Away from the last block nothing is stored into the result's buffer, and it is not written back. -/
theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem live0_2 : ∀ t : Fin cfg0.N, last0 (grid0.coords t) → cfg0.idle 2 (grid0.coords t) = false := by decide +kernel

/-! ## The buffers a point is called with -/

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev acc0 : Memref sig .tc .vmem S1024x2048 .f32 := Memref.whole cc0_scratch0
abbrev accV0 : View sig .tc .vmem S1024x2048 .f32 := (acc0).view
/-- One of the result's buffers, through which its contents are stated. -/
abbrev outV0 : View sig .tc .vmem S1024x2048 .bf16 := (Memref.whole cc0_stg2_0 : Memref sig .tc .vmem S1024x2048 .bf16).view

end Cert.KernelIdeal.Hand

end
-- ==== Proof.KiR0RunMid.lean ====
/-
  One middle block of the first product: the accumulator holds the blocks before it, the body adds this block's
  product to it and stores nothing into the result's buffer.
-/
import proofs.«125243_j9740985828005_2_alg».proof.Proof.KiR0Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that is neither the first nor the last block of its contraction: from the two inputs' buffers at their
    contents, the result's buffer at anything (handed back untouched) and the accumulator at `xs`, the body runs to
    the accumulator rewritten by the pieces found here. -/
noncomputable def run0_mid (c : Dev nD) (i : grid0.Coords) (arg2 : Memref sig .tc .vmem S1024x1024 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1024x2048 .f32) (harg5 : arg5.IsWhole) (hc0 : ¬first0 i) (hc1 : ¬last0 i)
    (x0 : Vec F S1024x1024 .bf16) (x1 : Vec F S1024x2048 .bf16) (xs : Vec F S1024x2048 .f32) :
    Σ' (L2 : List (View.Piece (Elt F) S1024x2048 .bf16)), { LS : List (View.Piece (Elt F) S1024x2048 .f32) //
      ∀ (xi2 : Vec F S1024x2048 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__mm1_kernel i arg2 harg2 arg3 harg3 arg4 harg4 arg5 harg5) K } := by
  refine ⟨[], ?_, fun xi2 E K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KiR0RunFirst.lean ====
/-
  The first block of a contraction in the first product: whatever the accumulator held is overwritten by zeros, then
  this block's product is added; nothing is stored into the result's buffer.
-/
import proofs.«125243_j9740985828005_2_alg».proof.Proof.KiR0RunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first block of a contraction: from the two inputs' buffers at their contents, the result's buffer at
    anything (handed back untouched) and the accumulator at anything, the body runs to the accumulator rewritten by the
    pieces found here (the zeros first, then the sum). -/
noncomputable def run0_first (c : Dev nD) (i : grid0.Coords) (arg2 : Memref sig .tc .vmem S1024x1024 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1024x2048 .f32) (harg5 : arg5.IsWhole) (hc0 : first0 i) (hc1 : ¬last0 i)
    (x0 : Vec F S1024x1024 .bf16) (x1 : Vec F S1024x2048 .bf16) :
    Σ' (L2 : List (View.Piece (Elt F) S1024x2048 .bf16)), { LS : List (View.Piece (Elt F) S1024x2048 .f32) //
      ∀ (xi2 : Vec F S1024x2048 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__mm1_kernel i arg2 harg2 arg3 harg3 arg4 harg4 arg5 harg5) K } := by
  refine ⟨[], ?_, fun xi2 E K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KiR0RunLast.lean ====
/-
  The last block of a contraction in the first product: this block's product is added to the accumulator, and the
  accumulator, rounded to the result's format, is stored over the whole of the result's buffer.
-/
import proofs.«125243_j9740985828005_2_alg».proof.Proof.KiR0RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last block of a contraction: from the two inputs' buffers at their contents, the result's buffer at
    anything and the accumulator at `xs`, the body runs to the accumulator and the result's buffer rewritten by the
    pieces found here. -/
noncomputable def run0_last (c : Dev nD) (i : grid0.Coords) (arg2 : Memref sig .tc .vmem S1024x1024 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1024x2048 .f32) (harg5 : arg5.IsWhole) (hc0 : ¬first0 i) (hc1 : last0 i)
    (x0 : Vec F S1024x1024 .bf16) (x1 : Vec F S1024x2048 .bf16) (xs : Vec F S1024x2048 .f32) :
    Σ' (L2 : List (View.Piece (Elt F) S1024x2048 .bf16)), { LS : List (View.Piece (Elt F) S1024x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__mm1_kernel i arg2 harg2 arg3 harg3 arg4 harg4 arg5 harg5) K } := by
  refine ⟨?_, ?_, fun E K => ?run⟩
  case run =>
    simp only [cc0__mm1_kernel_eq_skeleton]; unfold cc0__mm1_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Hand

end
-- ==== Proof.KiR0Data.lean ====
/-
  The first product point by point. At each point of the 8 × 4 × 8 grid the accumulator ends at what the point's case
  makes of it — zeros plus the first block's product, the previous contents plus this block's product — and at the last
  block of a contraction the result's buffer ends at the accumulator rounded. This module names those contents
  (read back through the pieces each case's run found), states the invariant that carries the accumulator from a point
  to the next, and proves that the body meets the pipeline's obligation at every point.
-/
import proofs.«125243_j9740985828005_2_alg».proof.Proof.KiR0RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem notLast0_of_first (t : Fin cfg0.N) (h0 : t.val % 8 = 0) : ¬last0 (grid0.coords t) :=
  fun h => absurd ((last0_iff t).mp h) (by omega)
theorem notFirst0 (t : Fin cfg0.N) (h0 : ¬t.val % 8 = 0) : ¬first0 (grid0.coords t) :=
  fun h => h0 ((first0_iff t).mp h)
theorem notLast0 (t : Fin cfg0.N) (h1 : ¬t.val % 8 = 7) : ¬last0 (grid0.coords t) :=
  fun h => h1 ((last0_iff t).mp h)

/-- First block: the pieces cover the accumulator. -/
theorem accCoverFirst0 (c : Dev nD) (t : Fin cfg0.N) (hf : first0 (grid0.coords t)) (hl : ¬last0 (grid0.coords t))
    (x0 : Vec F S1024x1024 .bf16) (x1 : Vec F S1024x2048 .bf16) (y : S1024x2048.Idx) :
    ∃ pc ∈ (run0_first c (grid0.coords t) (ms0_0 t) (hs0_0 t) (ms0_1 t) (hs0_1 t) (ms0_2 t) (hs0_2 t) acc0 (Memref.isWhole_whole _) hf hl x0 x1).2.1, y ∈ pc.1.set :=
  View.cover_of_tiledL (run0_first c (grid0.coords t) (ms0_0 t) (hs0_0 t) (ms0_1 t) (hs0_1 t) (ms0_2 t) (hs0_2 t) acc0 (Memref.isWhole_whole _) hf hl x0 x1).2.1 S1024x2048.size (by sl_kernel_rfl) y
/-- First block: what the accumulator holds afterwards. -/
def accFirst0 (c : Dev nD) (t : Fin cfg0.N) (hf : first0 (grid0.coords t)) (hl : ¬last0 (grid0.coords t))
    (x0 : Vec F S1024x1024 .bf16) (x1 : Vec F S1024x2048 .bf16) : Vec F S1024x2048 .f32 :=
  accV0.read (Elt F) (accV0.writes (Elt F) accV0.junk (run0_first c (grid0.coords t) (ms0_0 t) (hs0_0 t) (ms0_1 t) (hs0_1 t) (ms0_2 t) (hs0_2 t) acc0 (Memref.isWhole_whole _) hf hl x0 x1).2.1)
/-- First block: nothing is stored into the result's buffer; a name for what nobody reads. -/
def outFirst0 (c : Dev nD) (t : Fin cfg0.N) (hf : first0 (grid0.coords t)) (hl : ¬last0 (grid0.coords t))
    (x0 : Vec F S1024x1024 .bf16) (x1 : Vec F S1024x2048 .bf16) : Vec F S1024x2048 .bf16 :=
  outV0.read (Elt F) (outV0.writes (Elt F) outV0.junk (run0_first c (grid0.coords t) (ms0_0 t) (hs0_0 t) (ms0_1 t) (hs0_1 t) (ms0_2 t) (hs0_2 t) acc0 (Memref.isWhole_whole _) hf hl x0 x1).1)

/-- Middle block: the pieces cover the accumulator. -/
theorem accCoverMid0 (c : Dev nD) (t : Fin cfg0.N) (hf : ¬first0 (grid0.coords t)) (hl : ¬last0 (grid0.coords t))
    (x0 : Vec F S1024x1024 .bf16) (x1 : Vec F S1024x2048 .bf16) (xs : Vec F S1024x2048 .f32) (y : S1024x2048.Idx) :
    ∃ pc ∈ (run0_mid c (grid0.coords t) (ms0_0 t) (hs0_0 t) (ms0_1 t) (hs0_1 t) (ms0_2 t) (hs0_2 t) acc0 (Memref.isWhole_whole _) hf hl x0 x1 xs).2.1, y ∈ pc.1.set :=
  View.cover_of_tiledL (run0_mid c (grid0.coords t) (ms0_0 t) (hs0_0 t) (ms0_1 t) (hs0_1 t) (ms0_2 t) (hs0_2 t) acc0 (Memref.isWhole_whole _) hf hl x0 x1 xs).2.1 S1024x2048.size (by sl_kernel_rfl) y
def accMid0 (c : Dev nD) (t : Fin cfg0.N) (hf : ¬first0 (grid0.coords t)) (hl : ¬last0 (grid0.coords t))
    (x0 : Vec F S1024x1024 .bf16) (x1 : Vec F S1024x2048 .bf16) (xs : Vec F S1024x2048 .f32) : Vec F S1024x2048 .f32 :=
  accV0.read (Elt F) (accV0.writes (Elt F) accV0.junk (run0_mid c (grid0.coords t) (ms0_0 t) (hs0_0 t) (ms0_1 t) (hs0_1 t) (ms0_2 t) (hs0_2 t) acc0 (Memref.isWhole_whole _) hf hl x0 x1 xs).2.1)
def outMid0 (c : Dev nD) (t : Fin cfg0.N) (hf : ¬first0 (grid0.coords t)) (hl : ¬last0 (grid0.coords t))
    (x0 : Vec F S1024x1024 .bf16) (x1 : Vec F S1024x2048 .bf16) (xs : Vec F S1024x2048 .f32) : Vec F S1024x2048 .bf16 :=
  outV0.read (Elt F) (outV0.writes (Elt F) outV0.junk (run0_mid c (grid0.coords t) (ms0_0 t) (hs0_0 t) (ms0_1 t) (hs0_1 t) (ms0_2 t) (hs0_2 t) acc0 (Memref.isWhole_whole _) hf hl x0 x1 xs).1)

/-- Last block: the pieces cover the accumulator, and the result's buffer. -/
theorem accCoverLast0 (c : Dev nD) (t : Fin cfg0.N) (hf : ¬first0 (grid0.coords t)) (hl : last0 (grid0.coords t))
    (x0 : Vec F S1024x1024 .bf16) (x1 : Vec F S1024x2048 .bf16) (xs : Vec F S1024x2048 .f32) (y : S1024x2048.Idx) :
    ∃ pc ∈ (run0_last c (grid0.coords t) (ms0_0 t) (hs0_0 t) (ms0_1 t) (hs0_1 t) (ms0_2 t) (hs0_2 t) acc0 (Memref.isWhole_whole _) hf hl x0 x1 xs).2.1, y ∈ pc.1.set :=
  View.cover_of_tiledL (run0_last c (grid0.coords t) (ms0_0 t) (hs0_0 t) (ms0_1 t) (hs0_1 t) (ms0_2 t) (hs0_2 t) acc0 (Memref.isWhole_whole _) hf hl x0 x1 xs).2.1 S1024x2048.size (by sl_kernel_rfl) y
theorem outCoverLast0 (c : Dev nD) (t : Fin cfg0.N) (hf : ¬first0 (grid0.coords t)) (hl : last0 (grid0.coords t))
    (x0 : Vec F S1024x1024 .bf16) (x1 : Vec F S1024x2048 .bf16) (xs : Vec F S1024x2048 .f32) (y : S1024x2048.Idx) :
    ∃ pc ∈ (run0_last c (grid0.coords t) (ms0_0 t) (hs0_0 t) (ms0_1 t) (hs0_1 t) (ms0_2 t) (hs0_2 t) acc0 (Memref.isWhole_whole _) hf hl x0 x1 xs).1, y ∈ pc.1.set :=
  View.cover_of_tiledL (run0_last c (grid0.coords t) (ms0_0 t) (hs0_0 t) (ms0_1 t) (hs0_1 t) (ms0_2 t) (hs0_2 t) acc0 (Memref.isWhole_whole _) hf hl x0 x1 xs).1 S1024x2048.size (by sl_kernel_rfl) y
def accLast0 (c : Dev nD) (t : Fin cfg0.N) (hf : ¬first0 (grid0.coords t)) (hl : last0 (grid0.coords t))
    (x0 : Vec F S1024x1024 .bf16) (x1 : Vec F S1024x2048 .bf16) (xs : Vec F S1024x2048 .f32) : Vec F S1024x2048 .f32 :=
  accV0.read (Elt F) (accV0.writes (Elt F) accV0.junk (run0_last c (grid0.coords t) (ms0_0 t) (hs0_0 t) (ms0_1 t) (hs0_1 t) (ms0_2 t) (hs0_2 t) acc0 (Memref.isWhole_whole _) hf hl x0 x1 xs).2.1)
def outLast0 (c : Dev nD) (t : Fin cfg0.N) (hf : ¬first0 (grid0.coords t)) (hl : last0 (grid0.coords t))
    (x0 : Vec F S1024x1024 .bf16) (x1 : Vec F S1024x2048 .bf16) (xs : Vec F S1024x2048 .f32) : Vec F S1024x2048 .bf16 :=
  outV0.read (Elt F) (outV0.writes (Elt F) outV0.junk (run0_last c (grid0.coords t) (ms0_0 t) (hs0_0 t) (ms0_1 t) (hs0_1 t) (ms0_2 t) (hs0_2 t) acc0 (Memref.isWhole_whole _) hf hl x0 x1 xs).1)

/-! ## The accumulation, point by point -/

/-- What the result's buffer and the accumulator hold after the body at position `n`: the case the position selects,
    run on the point's blocks, a later block of a contraction over what the position before left in the accumulator. -/
def outsAt0 (c : Dev nD) : (n : ℕ) → n < cfg0.N → Vec F S1024x2048 .bf16 × Vec F S1024x2048 .f32
  | 0, hn => (outFirst0 c ⟨0, hn⟩ ((first0_iff ⟨0, hn⟩).mpr (Nat.zero_mod _)) (notLast0_of_first ⟨0, hn⟩ (Nat.zero_mod _)) (blk0 V c 0 ⟨0, hn⟩) (blk0 V c 1 ⟨0, hn⟩),
      accFirst0 c ⟨0, hn⟩ ((first0_iff ⟨0, hn⟩).mpr (Nat.zero_mod _)) (notLast0_of_first ⟨0, hn⟩ (Nat.zero_mod _)) (blk0 V c 0 ⟨0, hn⟩) (blk0 V c 1 ⟨0, hn⟩))
  | n + 1, hn =>
    if h0 : (n + 1) % 8 = 0 then
      (outFirst0 c ⟨n + 1, hn⟩ ((first0_iff ⟨n + 1, hn⟩).mpr h0) (notLast0_of_first ⟨n + 1, hn⟩ h0) (blk0 V c 0 ⟨n + 1, hn⟩) (blk0 V c 1 ⟨n + 1, hn⟩),
        accFirst0 c ⟨n + 1, hn⟩ ((first0_iff ⟨n + 1, hn⟩).mpr h0) (notLast0_of_first ⟨n + 1, hn⟩ h0) (blk0 V c 0 ⟨n + 1, hn⟩) (blk0 V c 1 ⟨n + 1, hn⟩))
    else if h1 : (n + 1) % 8 = 7 then
      (outLast0 c ⟨n + 1, hn⟩ (notFirst0 ⟨n + 1, hn⟩ h0) ((last0_iff ⟨n + 1, hn⟩).mpr h1) (blk0 V c 0 ⟨n + 1, hn⟩) (blk0 V c 1 ⟨n + 1, hn⟩) (outsAt0 c n (Nat.lt_of_succ_lt hn)).2,
        accLast0 c ⟨n + 1, hn⟩ (notFirst0 ⟨n + 1, hn⟩ h0) ((last0_iff ⟨n + 1, hn⟩).mpr h1) (blk0 V c 0 ⟨n + 1, hn⟩) (blk0 V c 1 ⟨n + 1, hn⟩) (outsAt0 c n (Nat.lt_of_succ_lt hn)).2)
    else
      (outMid0 c ⟨n + 1, hn⟩ (notFirst0 ⟨n + 1, hn⟩ h0) (notLast0 ⟨n + 1, hn⟩ h1) (blk0 V c 0 ⟨n + 1, hn⟩) (blk0 V c 1 ⟨n + 1, hn⟩) (outsAt0 c n (Nat.lt_of_succ_lt hn)).2,
        accMid0 c ⟨n + 1, hn⟩ (notFirst0 ⟨n + 1, hn⟩ h0) (notLast0 ⟨n + 1, hn⟩ h1) (blk0 V c 0 ⟨n + 1, hn⟩) (blk0 V c 1 ⟨n + 1, hn⟩) (outsAt0 c n (Nat.lt_of_succ_lt hn)).2)

theorem outsAt0_first (c : Dev nD) (t : Fin cfg0.N) (h0 : t.val % 8 = 0) :
    outsAt0 V c t.val t.isLt = (outFirst0 c t ((first0_iff t).mpr h0) (notLast0_of_first t h0) (blk0 V c 0 t) (blk0 V c 1 t),
      accFirst0 c t ((first0_iff t).mpr h0) (notLast0_of_first t h0) (blk0 V c 0 t) (blk0 V c 1 t)) := by
  obtain ⟨n, hn⟩ := t
  cases n with
  | zero => exact rfl
  | succ n => exact (dif_pos h0).trans rfl

theorem outsAt0_last (c : Dev nD) (t : Fin cfg0.N) (h0 : ¬t.val % 8 = 0) (h1 : t.val % 8 = 7) :
    outsAt0 V c t.val t.isLt = (outLast0 c t (notFirst0 t h0) ((last0_iff t).mpr h1) (blk0 V c 0 t) (blk0 V c 1 t) (outsAt0 V c (t.val - 1) (Nat.lt_of_le_of_lt (Nat.sub_le _ _) t.isLt)).2,
      accLast0 c t (notFirst0 t h0) ((last0_iff t).mpr h1) (blk0 V c 0 t) (blk0 V c 1 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

theorem outsAt0_mid (c : Dev nD) (t : Fin cfg0.N) (h0 : ¬t.val % 8 = 0) (h1 : ¬t.val % 8 = 7) :
    outsAt0 V c t.val t.isLt = (outMid0 c t (notFirst0 t h0) (notLast0 t h1) (blk0 V c 0 t) (blk0 V c 1 t) (outsAt0 V c (t.val - 1) (Nat.lt_of_le_of_lt (Nat.sub_le _ _) t.isLt)).2,
      accMid0 c t (notFirst0 t h0) (notLast0 t h1) (blk0 V c 0 t) (blk0 V c 1 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-! ## The invariant that carries the accumulator -/

/-- The scoped buffers other than this product's accumulator (the other products' buffers), unopened. -/
abbrev rest0 (c : Dev nD) : sProp 𝕄 :=
  Pipeline.scopedRestBut (Ix := Unit) (Name := ℕ) (U := UR sig nD τ) (Lvl := ℕ) (Val := Elt F) spec0 c [cc0_scratch0]

/-- Before the first point every scoped buffer is at anything: the accumulator, the others, and the random-number register at some state. -/
theorem PhiA0_eq (c : Dev nD) :
    (Pipeline.ΦA spec0 c : sProp 𝕄) = iprop((∃ d, owns (c : Thread nD τ) acc0 fullShare d) ∗ rest0 c ∗ (∃ r, prngReg c r)) := by
  unfold Pipeline.ΦA
  rw [Pipeline.scopedRest_split_of_list spec0 c [cc0_scratch0] (by decide) (by decide)]
  simp only [bigSepL_singleton, acc0, owns_whole]
  exact equiv_iff.mp ⟨BI.sep_assoc, BI.sep_assoc'⟩

/-- Before position `n`: at the start anything; afterwards the accumulator at what the position before left. -/
def PhiS0 (c : Dev nD) : (n : ℕ) → n ≤ cfg0.N → sProp 𝕄
  | 0, _ => Pipeline.ΦA spec0 c
  | n + 1, hn => iprop(owns (c : Thread nD τ) acc0 fullShare ((outsAt0 V c n hn).2) ∗ rest0 c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) acc0 fullShare ((outsAt0 V c n hn).2) ∗ rest0 c ∗ (∃ r, prngReg c r)) := rfl
theorem PhiS0_pos (c : Dev nD) (n : ℕ) (h : n ≤ cfg0.N) (hz : n ≠ 0) :
    PhiS0 V c n h = iprop(owns (c : Thread nD τ) acc0 fullShare ((outsAt0 V c (n - 1) (by omega)).2) ∗ rest0 c ∗ (∃ r, prngReg c r)) := by
  cases n with
  | zero => exact absurd rfl hz
  | succ n => rfl

/-! ## The proof data -/

/-- The arrays as the region finds them; after the body each input's buffer at its block, the result's at the
    accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

end Cert.KernelIdeal.Hand

end
-- ==== Proof.KiR0Body.lean ====
/-
  The first product: the body meets the pipeline's obligation at every point. The invariant hands the body the
  accumulator (at anything at the very first point, else at what the point before left), the body's case runs, and the
  invariant takes the accumulator back at this point's contents; the result's buffer is handed back untouched except
  at the last block of a contraction, where it ends at the rounded accumulator.
-/
import proofs.«125243_j9740985828005_2_alg».proof.Proof.KiR0Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0 V, before0_1 V]
  rw [show (dat0 V c).owesAt () t.succ = (dat0 V c).owesAt () t.castSucc from rfl]
  rw [show (dat0 V c).Φ t.succ = PhiS0 V c (t.val + 1) t.isLt from rfl, PhiS0_succ]
  have hN : t.val < 256 := lt_of_lt_of_eq t.isLt (show cfg0.N = 256 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 8 = 0
  · have h1 : ¬t.val % 8 = 7 := by omega
    rw [Dat.leavesExact_idle (dat0 V c) 2 t (idle0_2 t (notLast0 t h1)) (noFlush0_2 t (notLast0 t h1))]
    rw [outsAt0_first V c t h0]
    unfold accFirst0; (try dsimp only)
    by_cases hz : t.val = 0
    · rw [PhiS0_castSucc V c t, PhiS0_zero V c _ _ hz, PhiA0_eq]
      iintro ⟨⟨HS, HR, Hg⟩, Ho, ⟨%d0, H0⟩, ⟨%d1, H1⟩, ⟨%d2, H2⟩⟩
      iapply ((run0_first c (grid0.coords t) _ _ _ _ _ _ _ _ ((first0_iff t).mpr h0) (notLast0_of_first t h0) (blk0 V c 0 t) (blk0 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (accCoverFirst0 c t _ _ _ _)
        isplitl [HR]; · iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨HS, HR, Hg⟩, Ho, ⟨%d0, H0⟩, ⟨%d1, H1⟩, ⟨%d2, H2⟩⟩
      iapply ((run0_first c (grid0.coords t) _ _ _ _ _ _ _ _ ((first0_iff t).mpr h0) (notLast0_of_first t h0) (blk0 V c 0 t) (blk0 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (accCoverFirst0 c t _ _ _ _)
        isplitl [HR]; · iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat0 V c).leavesExact 2 t = owns (c : Thread nD τ) (ms0_2 t) fullShare ((dat0 V c).after 2 t) from by
        unfold Dat.leavesExact; rw [live0_2 t ((last0_iff t).mpr h1)], after0_2]
      rw [outsAt0_last V c t h0 h1]
      unfold outLast0 accLast0; (try dsimp only)
      rw [PhiS0_castSucc V c t, PhiS0_pos V c _ _ hz]
      iintro ⟨⟨HS, HR, Hg⟩, Ho, ⟨%d0, H0⟩, ⟨%d1, H1⟩, ⟨%d2, H2⟩⟩
      iapply ((run0_last c (grid0.coords t) _ _ _ _ _ _ _ _ (notFirst0 t h0) ((last0_iff t).mpr h1) (blk0 V c 0 t) (blk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS]
        · unfold owns; iexists _; isplitr
          swap; · iexact HS
          ipureintro; exact View.read_writes_of_cover _ _ _ _ _ (accCoverLast0 c t _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverLast0 c t _ _ _ _ _)
    · rw [Dat.leavesExact_idle (dat0 V c) 2 t (idle0_2 t (notLast0 t h1)) (noFlush0_2 t (notLast0 t h1))]
      rw [outsAt0_mid V c t h0 h1]
      unfold accMid0; (try dsimp only)
      rw [PhiS0_castSucc V c t, PhiS0_pos V c _ _ hz]
      iintro ⟨⟨HS, HR, Hg⟩, Ho, ⟨%d0, H0⟩, ⟨%d1, H1⟩, ⟨%d2, H2⟩⟩
      iapply ((run0_mid c (grid0.coords t) _ _ _ _ _ _ _ _ (notFirst0 t h0) (notLast0 t h1) (blk0 V c 0 t) (blk0 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (accCoverMid0 c t _ _ _ _ _)
        isplitl [HR]; · iexact HR
        iexact Hg
      isplitl [Ho]; · iexact Ho
      isplitl [H0]; · iexact H0
      isplitl [H1]; · iexact H1
      iexists _; iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 256 := N_0; omega), PhiA0_eq]
  iintro ⟨HS, HR, Hg⟩
  isplitl [HS]
  · iexists _; iexact HS
  isplitl [HR]; · iexact HR
  iexact Hg

end Cert.KernelIdeal.Hand

end
-- ==== Proof.KiR1Kit.lean ====
/-
  The second product, tmp = adjᵀ · embs, as the pipeline runs it: an 8 × 8 grid whose second coordinate walks the
  contraction in 8 blocks of 1024. What is fixed here, before any run: which points zero the accumulator (the first
  block of each row of the grid) and which write the result back (the last), the buffers a point is called with, and
  that an input's buffer holds its block of the array the region was entered with.
-/
import proofs.«125243_j9740985828005_2_alg».proof.Proof.Gen.KernelIdeal.Launch
import proofs.«125243_j9740985828005_2_alg».proof.Proof.Gen.KernelIdeal.Skeleton
import proofs.«125243_j9740985828005_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the arrays the region is entered with -/

/-- Window `w`'s block at point `t` of the array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block: whatever proof data has the entry array and leaves the block in place finds the block in the
    current buffer at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The embedding array, resident whole: fetched once, found at every point. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## Which points zero the accumulator, which write the result back -/

/-- The point is the first block of its contraction. -/
abbrev first1 (i : grid1.Coords) : Prop := (Scalar.cmpi .ne (Scalar.extui (Scalar.cmpi .eq (BitVec.ofNat 32 (i 1).val) 0#32)) 0#32) = 1#1
theorem first1_iff : ∀ t : Fin cfg1.N, first1 (grid1.coords t) ↔ t.val % 8 = 0 :=
  (by decide +kernel : ∀ t : Fin grid1.N, first1 (grid1.coords t) ↔ t.val % 8 = 0)

/-- The point is the last block of its contraction. -/
abbrev last1 (i : grid1.Coords) : Prop := k1_cond2 i = 1#1
theorem last1_iff : ∀ t : Fin cfg1.N, last1 (grid1.coords t) ↔ t.val % 8 = 7 :=
  (by decide +kernel : ∀ t : Fin grid1.N, last1 (grid1.coords t) ↔ t.val % 8 = 7)

theorem live1_0 : ∀ t : Fin cfg1.N, cfg1.idle 0 (grid1.coords t) = false := by decide +kernel
theorem live1_1 : ∀ t : Fin cfg1.N, cfg1.idle 1 (grid1.coords t) = false := by decide +kernel
/-- Away from the last block nothing is stored into the result's buffer, and it is not written back. -/
theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

/-! ## The buffers a point is called with -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .bf16 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev acc1 : Memref sig .tc .vmem S1024x256 .f32 := Memref.whole cc1_scratch0
abbrev accV1 : View sig .tc .vmem S1024x256 .f32 := (acc1).view
/-- One of the result's buffers, through which its contents are stated. -/
abbrev outV1 : View sig .tc .vmem S1024x256 .bf16 := (Memref.whole cc1_stg2_0 : Memref sig .tc .vmem S1024x256 .bf16).view

end Cert.KernelIdeal.Hand

end
-- ==== Proof.KiR1RunMid.lean ====
/-
  One middle block of the second product: the accumulator holds the blocks before it, the body adds this block's
  product to it and stores nothing into the result's buffer.
-/
import proofs.«125243_j9740985828005_2_alg».proof.Proof.KiR1Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that is neither the first nor the last block of its contraction: from the two inputs' buffers at their
    contents, the result's buffer at anything (handed back untouched) and the accumulator at `xs`, the body runs to
    the accumulator rewritten by the pieces found here. -/
noncomputable def run1_mid (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x256 .bf16) (harg4 : arg4.IsWhole) (arg5 : Memref sig .tc .vmem S1024x256 .f32) (harg5 : arg5.IsWhole) (hc0 : ¬first1 i) (hc1 : ¬last1 i)
    (x0 : Vec F S1024x1024 .bf16) (x1 : Vec F S8192x256 .bf16) (xs : Vec F S1024x256 .f32) :
    Σ' (L2 : List (View.Piece (Elt F) S1024x256 .bf16)), { LS : List (View.Piece (Elt F) S1024x256 .f32) //
      ∀ (xi2 : Vec F S1024x256 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__mm2_kernel i arg2 harg2 arg3 harg3 arg4 harg4 arg5 harg5) K } := by
  refine ⟨[], ?_, fun xi2 E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KiR1RunFirst.lean ====
/-
  The first block of a contraction in the second product: whatever the accumulator held is overwritten by zeros, then
  this block's product is added; nothing is stored into the result's buffer.
-/
import proofs.«125243_j9740985828005_2_alg».proof.Proof.KiR1RunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first block of a contraction: from the two inputs' buffers at their contents, the result's buffer at
    anything (handed back untouched) and the accumulator at anything, the body runs to the accumulator rewritten by the
    pieces found here (the zeros first, then the sum). -/
noncomputable def run1_first (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x256 .bf16) (harg4 : arg4.IsWhole) (arg5 : Memref sig .tc .vmem S1024x256 .f32) (harg5 : arg5.IsWhole) (hc0 : first1 i) (hc1 : ¬last1 i)
    (x0 : Vec F S1024x1024 .bf16) (x1 : Vec F S8192x256 .bf16) :
    Σ' (L2 : List (View.Piece (Elt F) S1024x256 .bf16)), { LS : List (View.Piece (Elt F) S1024x256 .f32) //
      ∀ (xi2 : Vec F S1024x256 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__mm2_kernel i arg2 harg2 arg3 harg3 arg4 harg4 arg5 harg5) K } := by
  refine ⟨[], ?_, fun xi2 E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KiR1RunLast.lean ====
/-
  The last block of a contraction in the second product: this block's product is added to the accumulator, and the
  accumulator, rounded to the result's format, is stored over the whole of the result's buffer.
-/
import proofs.«125243_j9740985828005_2_alg».proof.Proof.KiR1RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last block of a contraction: from the two inputs' buffers at their contents, the result's buffer at
    anything and the accumulator at `xs`, the body runs to the accumulator and the result's buffer rewritten by the
    pieces found here. -/
noncomputable def run1_last (c : Dev nD) (i : grid1.Coords) (arg2 : Memref sig .tc .vmem S1024x1024 .bf16) (harg2 : arg2.IsWhole) (arg3 : Memref sig .tc .vmem S8192x256 .bf16) (harg3 : arg3.IsWhole) (arg4 : Memref sig .tc .vmem S1024x256 .bf16) (harg4 : arg4.IsWhole) (arg5 : Memref sig .tc .vmem S1024x256 .f32) (harg5 : arg5.IsWhole) (hc0 : ¬first1 i) (hc1 : last1 i)
    (x0 : Vec F S1024x1024 .bf16) (x1 : Vec F S8192x256 .bf16) (xs : Vec F S1024x256 .f32) :
    Σ' (L2 : List (View.Piece (Elt F) S1024x256 .bf16)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__mm2_kernel i arg2 harg2 arg3 harg3 arg4 harg4 arg5 harg5) K } := by
  refine ⟨?_, ?_, fun E K => ?run⟩
  case run =>
    simp only [cc1__mm2_kernel_eq_skeleton]; unfold cc1__mm2_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Hand

end
-- ==== Proof.KiR1Data.lean ====
/-
  The second product point by point. At each point of the 8 × 8 grid the accumulator ends at what the point's case
  makes of it — zeros plus the first block's product, the previous contents plus this block's product — and at the last
  block of a contraction the result's buffer ends at the accumulator rounded. This module names those contents
  (read back through the pieces each case's run found), states the invariant that carries the accumulator from a point
  to the next, and proves that the body meets the pipeline's obligation at every point.
-/
import proofs.«125243_j9740985828005_2_alg».proof.Proof.KiR1RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem notLast1_of_first (t : Fin cfg1.N) (h0 : t.val % 8 = 0) : ¬last1 (grid1.coords t) :=
  fun h => absurd ((last1_iff t).mp h) (by omega)
theorem notFirst1 (t : Fin cfg1.N) (h0 : ¬t.val % 8 = 0) : ¬first1 (grid1.coords t) :=
  fun h => h0 ((first1_iff t).mp h)
theorem notLast1 (t : Fin cfg1.N) (h1 : ¬t.val % 8 = 7) : ¬last1 (grid1.coords t) :=
  fun h => h1 ((last1_iff t).mp h)

/-- First block: the pieces cover the accumulator. -/
theorem accCoverFirst1 (c : Dev nD) (t : Fin cfg1.N) (hf : first1 (grid1.coords t)) (hl : ¬last1 (grid1.coords t))
    (x0 : Vec F S1024x1024 .bf16) (x1 : Vec F S8192x256 .bf16) (y : S1024x256.Idx) :
    ∃ pc ∈ (run1_first c (grid1.coords t) (ms1_0 t) (hs1_0 t) (ms1_1 t) (hs1_1 t) (ms1_2 t) (hs1_2 t) acc1 (Memref.isWhole_whole _) hf hl x0 x1).2.1, y ∈ pc.1.set :=
  View.cover_of_tiledL (run1_first c (grid1.coords t) (ms1_0 t) (hs1_0 t) (ms1_1 t) (hs1_1 t) (ms1_2 t) (hs1_2 t) acc1 (Memref.isWhole_whole _) hf hl x0 x1).2.1 S1024x256.size (by sl_kernel_rfl) y
/-- First block: what the accumulator holds afterwards. -/
def accFirst1 (c : Dev nD) (t : Fin cfg1.N) (hf : first1 (grid1.coords t)) (hl : ¬last1 (grid1.coords t))
    (x0 : Vec F S1024x1024 .bf16) (x1 : Vec F S8192x256 .bf16) : Vec F S1024x256 .f32 :=
  accV1.read (Elt F) (accV1.writes (Elt F) accV1.junk (run1_first c (grid1.coords t) (ms1_0 t) (hs1_0 t) (ms1_1 t) (hs1_1 t) (ms1_2 t) (hs1_2 t) acc1 (Memref.isWhole_whole _) hf hl x0 x1).2.1)
/-- First block: nothing is stored into the result's buffer; a name for what nobody reads. -/
def outFirst1 (c : Dev nD) (t : Fin cfg1.N) (hf : first1 (grid1.coords t)) (hl : ¬last1 (grid1.coords t))
    (x0 : Vec F S1024x1024 .bf16) (x1 : Vec F S8192x256 .bf16) : Vec F S1024x256 .bf16 :=
  outV1.read (Elt F) (outV1.writes (Elt F) outV1.junk (run1_first c (grid1.coords t) (ms1_0 t) (hs1_0 t) (ms1_1 t) (hs1_1 t) (ms1_2 t) (hs1_2 t) acc1 (Memref.isWhole_whole _) hf hl x0 x1).1)

/-- Middle block: the pieces cover the accumulator. -/
theorem accCoverMid1 (c : Dev nD) (t : Fin cfg1.N) (hf : ¬first1 (grid1.coords t)) (hl : ¬last1 (grid1.coords t))
    (x0 : Vec F S1024x1024 .bf16) (x1 : Vec F S8192x256 .bf16) (xs : Vec F S1024x256 .f32) (y : S1024x256.Idx) :
    ∃ pc ∈ (run1_mid c (grid1.coords t) (ms1_0 t) (hs1_0 t) (ms1_1 t) (hs1_1 t) (ms1_2 t) (hs1_2 t) acc1 (Memref.isWhole_whole _) hf hl x0 x1 xs).2.1, y ∈ pc.1.set :=
  View.cover_of_tiledL (run1_mid c (grid1.coords t) (ms1_0 t) (hs1_0 t) (ms1_1 t) (hs1_1 t) (ms1_2 t) (hs1_2 t) acc1 (Memref.isWhole_whole _) hf hl x0 x1 xs).2.1 S1024x256.size (by sl_kernel_rfl) y
def accMid1 (c : Dev nD) (t : Fin cfg1.N) (hf : ¬first1 (grid1.coords t)) (hl : ¬last1 (grid1.coords t))
    (x0 : Vec F S1024x1024 .bf16) (x1 : Vec F S8192x256 .bf16) (xs : Vec F S1024x256 .f32) : Vec F S1024x256 .f32 :=
  accV1.read (Elt F) (accV1.writes (Elt F) accV1.junk (run1_mid c (grid1.coords t) (ms1_0 t) (hs1_0 t) (ms1_1 t) (hs1_1 t) (ms1_2 t) (hs1_2 t) acc1 (Memref.isWhole_whole _) hf hl x0 x1 xs).2.1)
def outMid1 (c : Dev nD) (t : Fin cfg1.N) (hf : ¬first1 (grid1.coords t)) (hl : ¬last1 (grid1.coords t))
    (x0 : Vec F S1024x1024 .bf16) (x1 : Vec F S8192x256 .bf16) (xs : Vec F S1024x256 .f32) : Vec F S1024x256 .bf16 :=
  outV1.read (Elt F) (outV1.writes (Elt F) outV1.junk (run1_mid c (grid1.coords t) (ms1_0 t) (hs1_0 t) (ms1_1 t) (hs1_1 t) (ms1_2 t) (hs1_2 t) acc1 (Memref.isWhole_whole _) hf hl x0 x1 xs).1)

/-- Last block: the pieces cover the accumulator, and the result's buffer. -/
theorem accCoverLast1 (c : Dev nD) (t : Fin cfg1.N) (hf : ¬first1 (grid1.coords t)) (hl : last1 (grid1.coords t))
    (x0 : Vec F S1024x1024 .bf16) (x1 : Vec F S8192x256 .bf16) (xs : Vec F S1024x256 .f32) (y : S1024x256.Idx) :
    ∃ pc ∈ (run1_last c (grid1.coords t) (ms1_0 t) (hs1_0 t) (ms1_1 t) (hs1_1 t) (ms1_2 t) (hs1_2 t) acc1 (Memref.isWhole_whole _) hf hl x0 x1 xs).2.1, y ∈ pc.1.set :=
  View.cover_of_tiledL (run1_last c (grid1.coords t) (ms1_0 t) (hs1_0 t) (ms1_1 t) (hs1_1 t) (ms1_2 t) (hs1_2 t) acc1 (Memref.isWhole_whole _) hf hl x0 x1 xs).2.1 S1024x256.size (by sl_kernel_rfl) y
theorem outCoverLast1 (c : Dev nD) (t : Fin cfg1.N) (hf : ¬first1 (grid1.coords t)) (hl : last1 (grid1.coords t))
    (x0 : Vec F S1024x1024 .bf16) (x1 : Vec F S8192x256 .bf16) (xs : Vec F S1024x256 .f32) (y : S1024x256.Idx) :
    ∃ pc ∈ (run1_last c (grid1.coords t) (ms1_0 t) (hs1_0 t) (ms1_1 t) (hs1_1 t) (ms1_2 t) (hs1_2 t) acc1 (Memref.isWhole_whole _) hf hl x0 x1 xs).1, y ∈ pc.1.set :=
  View.cover_of_tiledL (run1_last c (grid1.coords t) (ms1_0 t) (hs1_0 t) (ms1_1 t) (hs1_1 t) (ms1_2 t) (hs1_2 t) acc1 (Memref.isWhole_whole _) hf hl x0 x1 xs).1 S1024x256.size (by sl_kernel_rfl) y
def accLast1 (c : Dev nD) (t : Fin cfg1.N) (hf : ¬first1 (grid1.coords t)) (hl : last1 (grid1.coords t))
    (x0 : Vec F S1024x1024 .bf16) (x1 : Vec F S8192x256 .bf16) (xs : Vec F S1024x256 .f32) : Vec F S1024x256 .f32 :=
  accV1.read (Elt F) (accV1.writes (Elt F) accV1.junk (run1_last c (grid1.coords t) (ms1_0 t) (hs1_0 t) (ms1_1 t) (hs1_1 t) (ms1_2 t) (hs1_2 t) acc1 (Memref.isWhole_whole _) hf hl x0 x1 xs).2.1)
def outLast1 (c : Dev nD) (t : Fin cfg1.N) (hf : ¬first1 (grid1.coords t)) (hl : last1 (grid1.coords t))
    (x0 : Vec F S1024x1024 .bf16) (x1 : Vec F S8192x256 .bf16) (xs : Vec F S1024x256 .f32) : Vec F S1024x256 .bf16 :=
  outV1.read (Elt F) (outV1.writes (Elt F) outV1.junk (run1_last c (grid1.coords t) (ms1_0 t) (hs1_0 t) (ms1_1 t) (hs1_1 t) (ms1_2 t) (hs1_2 t) acc1 (Memref.isWhole_whole _) hf hl x0 x1 xs).1)

/-! ## The accumulation, point by point -/

/-- What the result's buffer and the accumulator hold after the body at position `n`: the case the position selects,
    run on the point's blocks, a later block of a contraction over what the position before left in the accumulator. -/
def outsAt1 (c : Dev nD) : (n : ℕ) → n < cfg1.N → Vec F S1024x256 .bf16 × Vec F S1024x256 .f32
  | 0, hn => (outFirst1 c ⟨0, hn⟩ ((first1_iff ⟨0, hn⟩).mpr (Nat.zero_mod _)) (notLast1_of_first ⟨0, hn⟩ (Nat.zero_mod _)) (blk1 V c 0 ⟨0, hn⟩) (blk1 V c 1 ⟨0, hn⟩),
      accFirst1 c ⟨0, hn⟩ ((first1_iff ⟨0, hn⟩).mpr (Nat.zero_mod _)) (notLast1_of_first ⟨0, hn⟩ (Nat.zero_mod _)) (blk1 V c 0 ⟨0, hn⟩) (blk1 V c 1 ⟨0, hn⟩))
  | n + 1, hn =>
    if h0 : (n + 1) % 8 = 0 then
      (outFirst1 c ⟨n + 1, hn⟩ ((first1_iff ⟨n + 1, hn⟩).mpr h0) (notLast1_of_first ⟨n + 1, hn⟩ h0) (blk1 V c 0 ⟨n + 1, hn⟩) (blk1 V c 1 ⟨n + 1, hn⟩),
        accFirst1 c ⟨n + 1, hn⟩ ((first1_iff ⟨n + 1, hn⟩).mpr h0) (notLast1_of_first ⟨n + 1, hn⟩ h0) (blk1 V c 0 ⟨n + 1, hn⟩) (blk1 V c 1 ⟨n + 1, hn⟩))
    else if h1 : (n + 1) % 8 = 7 then
      (outLast1 c ⟨n + 1, hn⟩ (notFirst1 ⟨n + 1, hn⟩ h0) ((last1_iff ⟨n + 1, hn⟩).mpr h1) (blk1 V c 0 ⟨n + 1, hn⟩) (blk1 V c 1 ⟨n + 1, hn⟩) (outsAt1 c n (Nat.lt_of_succ_lt hn)).2,
        accLast1 c ⟨n + 1, hn⟩ (notFirst1 ⟨n + 1, hn⟩ h0) ((last1_iff ⟨n + 1, hn⟩).mpr h1) (blk1 V c 0 ⟨n + 1, hn⟩) (blk1 V c 1 ⟨n + 1, hn⟩) (outsAt1 c n (Nat.lt_of_succ_lt hn)).2)
    else
      (outMid1 c ⟨n + 1, hn⟩ (notFirst1 ⟨n + 1, hn⟩ h0) (notLast1 ⟨n + 1, hn⟩ h1) (blk1 V c 0 ⟨n + 1, hn⟩) (blk1 V c 1 ⟨n + 1, hn⟩) (outsAt1 c n (Nat.lt_of_succ_lt hn)).2,
        accMid1 c ⟨n + 1, hn⟩ (notFirst1 ⟨n + 1, hn⟩ h0) (notLast1 ⟨n + 1, hn⟩ h1) (blk1 V c 0 ⟨n + 1, hn⟩) (blk1 V c 1 ⟨n + 1, hn⟩) (outsAt1 c n (Nat.lt_of_succ_lt hn)).2)

theorem outsAt1_first (c : Dev nD) (t : Fin cfg1.N) (h0 : t.val % 8 = 0) :
    outsAt1 V c t.val t.isLt = (outFirst1 c t ((first1_iff t).mpr h0) (notLast1_of_first t h0) (blk1 V c 0 t) (blk1 V c 1 t),
      accFirst1 c t ((first1_iff t).mpr h0) (notLast1_of_first t h0) (blk1 V c 0 t) (blk1 V c 1 t)) := by
  obtain ⟨n, hn⟩ := t
  cases n with
  | zero => exact rfl
  | succ n => exact (dif_pos h0).trans rfl

theorem outsAt1_last (c : Dev nD) (t : Fin cfg1.N) (h0 : ¬t.val % 8 = 0) (h1 : t.val % 8 = 7) :
    outsAt1 V c t.val t.isLt = (outLast1 c t (notFirst1 t h0) ((last1_iff t).mpr h1) (blk1 V c 0 t) (blk1 V c 1 t) (outsAt1 V c (t.val - 1) (Nat.lt_of_le_of_lt (Nat.sub_le _ _) t.isLt)).2,
      accLast1 c t (notFirst1 t h0) ((last1_iff t).mpr h1) (blk1 V c 0 t) (blk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

theorem outsAt1_mid (c : Dev nD) (t : Fin cfg1.N) (h0 : ¬t.val % 8 = 0) (h1 : ¬t.val % 8 = 7) :
    outsAt1 V c t.val t.isLt = (outMid1 c t (notFirst1 t h0) (notLast1 t h1) (blk1 V c 0 t) (blk1 V c 1 t) (outsAt1 V c (t.val - 1) (Nat.lt_of_le_of_lt (Nat.sub_le _ _) t.isLt)).2,
      accMid1 c t (notFirst1 t h0) (notLast1 t h1) (blk1 V c 0 t) (blk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-! ## The invariant that carries the accumulator -/

/-- The scoped buffers other than this product's accumulator (the other products' buffers), unopened. -/
abbrev rest1 (c : Dev nD) : sProp 𝕄 :=
  Pipeline.scopedRestBut (Ix := Unit) (Name := ℕ) (U := UR sig nD τ) (Lvl := ℕ) (Val := Elt F) spec1 c [cc1_scratch0]

/-- Before the first point every scoped buffer is at anything: the accumulator, the others, and the random-number register at some state. -/
theorem PhiA1_eq (c : Dev nD) :
    (Pipeline.ΦA spec1 c : sProp 𝕄) = iprop((∃ d, owns (c : Thread nD τ) acc1 fullShare d) ∗ rest1 c ∗ (∃ r, prngReg c r)) := by
  unfold Pipeline.ΦA
  rw [Pipeline.scopedRest_split_of_list spec1 c [cc1_scratch0] (by decide) (by decide)]
  simp only [bigSepL_singleton, acc1, owns_whole]
  exact equiv_iff.mp ⟨BI.sep_assoc, BI.sep_assoc'⟩

/-- Before position `n`: at the start anything; afterwards the accumulator at what the position before left. -/
def PhiS1 (c : Dev nD) : (n : ℕ) → n ≤ cfg1.N → sProp 𝕄
  | 0, _ => Pipeline.ΦA spec1 c
  | n + 1, hn => iprop(owns (c : Thread nD τ) acc1 fullShare ((outsAt1 V c n hn).2) ∗ rest1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) acc1 fullShare ((outsAt1 V c n hn).2) ∗ rest1 c ∗ (∃ r, prngReg c r)) := rfl
theorem PhiS1_pos (c : Dev nD) (n : ℕ) (h : n ≤ cfg1.N) (hz : n ≠ 0) :
    PhiS1 V c n h = iprop(owns (c : Thread nD τ) acc1 fullShare ((outsAt1 V c (n - 1) (by omega)).2) ∗ rest1 c ∗ (∃ r, prngReg c r)) := by
  cases n with
  | zero => exact absurd rfl hz
  | succ n => rfl

/-! ## The proof data -/

/-- The arrays as the region finds them; after the body each input's buffer at its block, the result's at the
    accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

end Cert.KernelIdeal.Hand

end
-- ==== Proof.KiR1Body.lean ====
/-
  The second product: the body meets the pipeline's obligation at every point. The invariant hands the body the
  accumulator (at anything at the very first point, else at what the point before left), the body's case runs, and the
  invariant takes the accumulator back at this point's contents; the result's buffer is handed back untouched except
  at the last block of a contraction, where it ends at the rounded accumulator.
-/
import proofs.«125243_j9740985828005_2_alg».proof.Proof.KiR1Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  by_cases h0 : t.val % 8 = 0
  · have h1 : ¬t.val % 8 = 7 := by omega
    rw [Dat.leavesExact_idle (dat1 V c) 2 t (idle1_2 t (notLast1 t h1)) (noFlush1_2 t (notLast1 t h1))]
    rw [outsAt1_first V c t h0]
    unfold accFirst1; (try dsimp only)
    by_cases hz : t.val = 0
    · rw [PhiS1_castSucc V c t, PhiS1_zero V c _ _ hz, PhiA1_eq]
      iintro ⟨⟨HS, HR, Hg⟩, Ho, ⟨%d0, H0⟩, ⟨%d1, H1⟩, ⟨%d2, H2⟩⟩
      iapply ((run1_first c (grid1.coords t) _ _ _ _ _ _ _ _ ((first1_iff t).mpr h0) (notLast1_of_first t h0) (blk1 V c 0 t) (blk1 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (accCoverFirst1 c t _ _ _ _)
        isplitl [HR]; · iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨HS, HR, Hg⟩, Ho, ⟨%d0, H0⟩, ⟨%d1, H1⟩, ⟨%d2, H2⟩⟩
      iapply ((run1_first c (grid1.coords t) _ _ _ _ _ _ _ _ ((first1_iff t).mpr h0) (notLast1_of_first t h0) (blk1 V c 0 t) (blk1 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (accCoverFirst1 c t _ _ _ _)
        isplitl [HR]; · iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat1 V c).leavesExact 2 t = owns (c : Thread nD τ) (ms1_2 t) fullShare ((dat1 V c).after 2 t) from by
        unfold Dat.leavesExact; rw [live1_2 t ((last1_iff t).mpr h1)], after1_2]
      rw [outsAt1_last V c t h0 h1]
      unfold outLast1 accLast1; (try dsimp only)
      rw [PhiS1_castSucc V c t, PhiS1_pos V c _ _ hz]
      iintro ⟨⟨HS, HR, Hg⟩, Ho, ⟨%d0, H0⟩, ⟨%d1, H1⟩, ⟨%d2, H2⟩⟩
      iapply ((run1_last c (grid1.coords t) _ _ _ _ _ _ _ _ (notFirst1 t h0) ((last1_iff t).mpr h1) (blk1 V c 0 t) (blk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS]
        · unfold owns; iexists _; isplitr
          swap; · iexact HS
          ipureintro; exact View.read_writes_of_cover _ _ _ _ _ (accCoverLast1 c t _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverLast1 c t _ _ _ _ _)
    · rw [Dat.leavesExact_idle (dat1 V c) 2 t (idle1_2 t (notLast1 t h1)) (noFlush1_2 t (notLast1 t h1))]
      rw [outsAt1_mid V c t h0 h1]
      unfold accMid1; (try dsimp only)
      rw [PhiS1_castSucc V c t, PhiS1_pos V c _ _ hz]
      iintro ⟨⟨HS, HR, Hg⟩, Ho, ⟨%d0, H0⟩, ⟨%d1, H1⟩, ⟨%d2, H2⟩⟩
      iapply ((run1_mid c (grid1.coords t) _ _ _ _ _ _ _ _ (notFirst1 t h0) (notLast1 t h1) (blk1 V c 0 t) (blk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (accCoverMid1 c t _ _ _ _ _)
        isplitl [HR]; · iexact HR
        iexact Hg
      isplitl [Ho]; · iexact Ho
      isplitl [H0]; · iexact H0
      isplitl [H1]; · iexact H1
      iexists _; iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨HS, HR, Hg⟩
  isplitl [HS]
  · iexists _; iexact HS
  isplitl [HR]; · iexact HR
  iexact Hg

end Cert.KernelIdeal.Hand

end
-- ==== Proof.KiR2Kit.lean ====
/-
  The third product, adj · tmp followed by the leaky rectifier, as the pipeline runs it: an 8 × 8 grid whose second coordinate walks the
  contraction in 8 blocks of 1024. What is fixed here, before any run: which points zero the accumulator (the first
  block of each row of the grid) and which write the result back (the last), the buffers a point is called with, and
  that an input's buffer holds its block of the array the region was entered with.
-/
import proofs.«125243_j9740985828005_2_alg».proof.Proof.Gen.KernelIdeal.Launch
import proofs.«125243_j9740985828005_2_alg».proof.Proof.Gen.KernelIdeal.Skeleton
import proofs.«125243_j9740985828005_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the arrays the region is entered with -/

/-- Window `w`'s block at point `t` of the array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency block: whatever proof data has the entry array and leaves the block in place finds the block in the
    current buffer at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The second product's result, resident whole: fetched once, found at every point. -/
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## Which points zero the accumulator, which write the result back -/

/-- The point is the first block of its contraction. -/
abbrev first2 (i : grid2.Coords) : Prop := (Scalar.cmpi .ne (Scalar.extui (Scalar.cmpi .eq (BitVec.ofNat 32 (i 1).val) 0#32)) 0#32) = 1#1
theorem first2_iff : ∀ t : Fin cfg2.N, first2 (grid2.coords t) ↔ t.val % 8 = 0 :=
  (by decide +kernel : ∀ t : Fin grid2.N, first2 (grid2.coords t) ↔ t.val % 8 = 0)

/-- The point is the last block of its contraction. -/
abbrev last2 (i : grid2.Coords) : Prop := k2_cond2 i = 1#1
theorem last2_iff : ∀ t : Fin cfg2.N, last2 (grid2.coords t) ↔ t.val % 8 = 7 :=
  (by decide +kernel : ∀ t : Fin grid2.N, last2 (grid2.coords t) ↔ t.val % 8 = 7)

theorem live2_0 : ∀ t : Fin cfg2.N, cfg2.idle 0 (grid2.coords t) = false := by decide +kernel
theorem live2_1 : ∀ t : Fin cfg2.N, cfg2.idle 1 (grid2.coords t) = false := by decide +kernel
/-- Away from the last block nothing is stored into the result's buffer, and it is not written back. -/
theorem idle2_2 : ∀ t : Fin cfg2.N, ¬last2 (grid2.coords t) → cfg2.idle 2 (grid2.coords t) = true := by decide +kernel
theorem noFlush2_2 : ∀ t : Fin cfg2.N, ¬last2 (grid2.coords t) → (cfg2.win 2).flush t = false := by decide +kernel
theorem live2_2 : ∀ t : Fin cfg2.N, last2 (grid2.coords t) → cfg2.idle 2 (grid2.coords t) = false := by decide +kernel

/-! ## The buffers a point is called with -/

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x256 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev acc2 : Memref sig .tc .vmem S1024x256 .f32 := Memref.whole cc2_scratch0
abbrev accV2 : View sig .tc .vmem S1024x256 .f32 := (acc2).view
/-- One of the result's buffers, through which its contents are stated. -/
abbrev outV2 : View sig .tc .vmem S1024x256 .f32 := (Memref.whole cc2_stg2_0 : Memref sig .tc .vmem S1024x256 .f32).view

end Cert.KernelIdeal.Hand

end
-- ==== Proof.KiR2RunMid.lean ====
/-
  One middle block of the third product: the accumulator holds the blocks before it, the body adds this block's
  product to it and stores nothing into the result's buffer.
-/
import proofs.«125243_j9740985828005_2_alg».proof.Proof.KiR2Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that is neither the first nor the last block of its contraction: from the two inputs' buffers at their
    contents, the result's buffer at anything (handed back untouched) and the accumulator at `xs`, the body runs to
    the accumulator rewritten by the pieces found here. -/
noncomputable def run2_mid (c : Dev nD) (i : grid2.Coords) (arg2 : Memref sig .tc .vmem S1024x1024 .bf16) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬first2 i) (hc1 : ¬last2 i)
    (x0 : Vec F S1024x1024 .bf16) (x1 : Vec F S8192x256 .bf16) (xs : Vec F S1024x256 .f32) :
    Σ' (L2 : List (View.Piece (Elt F) S1024x256 .f32)), { LS : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc2__mm3_kernel i arg2 harg2 arg3 harg3 arg4 harg4 arg5 harg5) K } := by
  refine ⟨[], ?_, fun xi2 E K => ?run⟩
  case run =>
    simp only [cc2__mm3_kernel_eq_skeleton]; unfold cc2__mm3_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KiR2RunFirst.lean ====
/-
  The first block of a contraction in the third product: whatever the accumulator held is overwritten by zeros, then
  this block's product is added; nothing is stored into the result's buffer.
-/
import proofs.«125243_j9740985828005_2_alg».proof.Proof.KiR2RunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first block of a contraction: from the two inputs' buffers at their contents, the result's buffer at
    anything (handed back untouched) and the accumulator at anything, the body runs to the accumulator rewritten by the
    pieces found here (the zeros first, then the sum). -/
noncomputable def run2_first (c : Dev nD) (i : grid2.Coords) (arg2 : Memref sig .tc .vmem S1024x1024 .bf16) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : first2 i) (hc1 : ¬last2 i)
    (x0 : Vec F S1024x1024 .bf16) (x1 : Vec F S8192x256 .bf16) :
    Σ' (L2 : List (View.Piece (Elt F) S1024x256 .f32)), { LS : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc2__mm3_kernel i arg2 harg2 arg3 harg3 arg4 harg4 arg5 harg5) K } := by
  refine ⟨[], ?_, fun xi2 E K => ?run⟩
  case run =>
    simp only [cc2__mm3_kernel_eq_skeleton]; unfold cc2__mm3_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand

end
-- ==== Proof.KiR2RunLast.lean ====
/-
  The last block of a contraction in the third product: this block's product is added to the accumulator, and the
  leaky rectifier of the accumulator is stored over the whole of the result's buffer.
-/
import proofs.«125243_j9740985828005_2_alg».proof.Proof.KiR2RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last block of a contraction: from the two inputs' buffers at their contents, the result's buffer at
    anything and the accumulator at `xs`, the body runs to the accumulator and the result's buffer rewritten by the
    pieces found here. -/
noncomputable def run2_last (c : Dev nD) (i : grid2.Coords) (arg2 : Memref sig .tc .vmem S1024x1024 .bf16) (harg2 : arg2.IsWhole) (arg3 : Memref sig .tc .vmem S8192x256 .bf16) (harg3 : arg3.IsWhole) (arg4 : Memref sig .tc .vmem S1024x256 .f32) (harg4 : arg4.IsWhole) (arg5 : Memref sig .tc .vmem S1024x256 .f32) (harg5 : arg5.IsWhole) (hc0 : ¬first2 i) (hc1 : last2 i)
    (x0 : Vec F S1024x1024 .bf16) (x1 : Vec F S8192x256 .bf16) (xs : Vec F S1024x256 .f32) :
    Σ' (L2 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc2__mm3_kernel i arg2 harg2 arg3 harg3 arg4 harg4 arg5 harg5) K } := by
  refine ⟨?_, ?_, fun E K => ?run⟩
  case run =>
    simp only [cc2__mm3_kernel_eq_skeleton]; unfold cc2__mm3_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Hand

end
-- ==== Proof.KiR2Data.lean ====
/-
  The third product point by point. At each point of the 8 × 8 grid the accumulator ends at what the point's case
  makes of it — zeros plus the first block's product, the previous contents plus this block's product — and at the last
  block of a contraction the result's buffer ends at the leaky rectifier of the accumulator. This module names those contents
  (read back through the pieces each case's run found), states the invariant that carries the accumulator from a point
  to the next, and proves that the body meets the pipeline's obligation at every point.
-/
import proofs.«125243_j9740985828005_2_alg».proof.Proof.KiR2RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem notLast2_of_first (t : Fin cfg2.N) (h0 : t.val % 8 = 0) : ¬last2 (grid2.coords t) :=
  fun h => absurd ((last2_iff t).mp h) (by omega)
theorem notFirst2 (t : Fin cfg2.N) (h0 : ¬t.val % 8 = 0) : ¬first2 (grid2.coords t) :=
  fun h => h0 ((first2_iff t).mp h)
theorem notLast2 (t : Fin cfg2.N) (h1 : ¬t.val % 8 = 7) : ¬last2 (grid2.coords t) :=
  fun h => h1 ((last2_iff t).mp h)

/-- First block: the pieces cover the accumulator. -/
theorem accCoverFirst2 (c : Dev nD) (t : Fin cfg2.N) (hf : first2 (grid2.coords t)) (hl : ¬last2 (grid2.coords t))
    (x0 : Vec F S1024x1024 .bf16) (x1 : Vec F S8192x256 .bf16) (y : S1024x256.Idx) :
    ∃ pc ∈ (run2_first c (grid2.coords t) (ms2_0 t) (hs2_0 t) (ms2_1 t) (hs2_1 t) (ms2_2 t) (hs2_2 t) acc2 (Memref.isWhole_whole _) hf hl x0 x1).2.1, y ∈ pc.1.set :=
  View.cover_of_tiledL (run2_first c (grid2.coords t) (ms2_0 t) (hs2_0 t) (ms2_1 t) (hs2_1 t) (ms2_2 t) (hs2_2 t) acc2 (Memref.isWhole_whole _) hf hl x0 x1).2.1 S1024x256.size (by sl_kernel_rfl) y
/-- First block: what the accumulator holds afterwards. -/
def accFirst2 (c : Dev nD) (t : Fin cfg2.N) (hf : first2 (grid2.coords t)) (hl : ¬last2 (grid2.coords t))
    (x0 : Vec F S1024x1024 .bf16) (x1 : Vec F S8192x256 .bf16) : Vec F S1024x256 .f32 :=
  accV2.read (Elt F) (accV2.writes (Elt F) accV2.junk (run2_first c (grid2.coords t) (ms2_0 t) (hs2_0 t) (ms2_1 t) (hs2_1 t) (ms2_2 t) (hs2_2 t) acc2 (Memref.isWhole_whole _) hf hl x0 x1).2.1)
/-- First block: nothing is stored into the result's buffer; a name for what nobody reads. -/
def outFirst2 (c : Dev nD) (t : Fin cfg2.N) (hf : first2 (grid2.coords t)) (hl : ¬last2 (grid2.coords t))
    (x0 : Vec F S1024x1024 .bf16) (x1 : Vec F S8192x256 .bf16) : Vec F S1024x256 .f32 :=
  outV2.read (Elt F) (outV2.writes (Elt F) outV2.junk (run2_first c (grid2.coords t) (ms2_0 t) (hs2_0 t) (ms2_1 t) (hs2_1 t) (ms2_2 t) (hs2_2 t) acc2 (Memref.isWhole_whole _) hf hl x0 x1).1)

/-- Middle block: the pieces cover the accumulator. -/
theorem accCoverMid2 (c : Dev nD) (t : Fin cfg2.N) (hf : ¬first2 (grid2.coords t)) (hl : ¬last2 (grid2.coords t))
    (x0 : Vec F S1024x1024 .bf16) (x1 : Vec F S8192x256 .bf16) (xs : Vec F S1024x256 .f32) (y : S1024x256.Idx) :
    ∃ pc ∈ (run2_mid c (grid2.coords t) (ms2_0 t) (hs2_0 t) (ms2_1 t) (hs2_1 t) (ms2_2 t) (hs2_2 t) acc2 (Memref.isWhole_whole _) hf hl x0 x1 xs).2.1, y ∈ pc.1.set :=
  View.cover_of_tiledL (run2_mid c (grid2.coords t) (ms2_0 t) (hs2_0 t) (ms2_1 t) (hs2_1 t) (ms2_2 t) (hs2_2 t) acc2 (Memref.isWhole_whole _) hf hl x0 x1 xs).2.1 S1024x256.size (by sl_kernel_rfl) y
def accMid2 (c : Dev nD) (t : Fin cfg2.N) (hf : ¬first2 (grid2.coords t)) (hl : ¬last2 (grid2.coords t))
    (x0 : Vec F S1024x1024 .bf16) (x1 : Vec F S8192x256 .bf16) (xs : Vec F S1024x256 .f32) : Vec F S1024x256 .f32 :=
  accV2.read (Elt F) (accV2.writes (Elt F) accV2.junk (run2_mid c (grid2.coords t) (ms2_0 t) (hs2_0 t) (ms2_1 t) (hs2_1 t) (ms2_2 t) (hs2_2 t) acc2 (Memref.isWhole_whole _) hf hl x0 x1 xs).2.1)
def outMid2 (c : Dev nD) (t : Fin cfg2.N) (hf : ¬first2 (grid2.coords t)) (hl : ¬last2 (grid2.coords t))
    (x0 : Vec F S1024x1024 .bf16) (x1 : Vec F S8192x256 .bf16) (xs : Vec F S1024x256 .f32) : Vec F S1024x256 .f32 :=
  outV2.read (Elt F) (outV2.writes (Elt F) outV2.junk (run2_mid c (grid2.coords t) (ms2_0 t) (hs2_0 t) (ms2_1 t) (hs2_1 t) (ms2_2 t) (hs2_2 t) acc2 (Memref.isWhole_whole _) hf hl x0 x1 xs).1)

/-- Last block: the pieces cover the accumulator, and the result's buffer. -/
theorem accCoverLast2 (c : Dev nD) (t : Fin cfg2.N) (hf : ¬first2 (grid2.coords t)) (hl : last2 (grid2.coords t))
    (x0 : Vec F S1024x1024 .bf16) (x1 : Vec F S8192x256 .bf16) (xs : Vec F S1024x256 .f32) (y : S1024x256.Idx) :
    ∃ pc ∈ (run2_last c (grid2.coords t) (ms2_0 t) (hs2_0 t) (ms2_1 t) (hs2_1 t) (ms2_2 t) (hs2_2 t) acc2 (Memref.isWhole_whole _) hf hl x0 x1 xs).2.1, y ∈ pc.1.set :=
  View.cover_of_tiledL (run2_last c (grid2.coords t) (ms2_0 t) (hs2_0 t) (ms2_1 t) (hs2_1 t) (ms2_2 t) (hs2_2 t) acc2 (Memref.isWhole_whole _) hf hl x0 x1 xs).2.1 S1024x256.size (by sl_kernel_rfl) y
theorem outCoverLast2 (c : Dev nD) (t : Fin cfg2.N) (hf : ¬first2 (grid2.coords t)) (hl : last2 (grid2.coords t))
    (x0 : Vec F S1024x1024 .bf16) (x1 : Vec F S8192x256 .bf16) (xs : Vec F S1024x256 .f32) (y : S1024x256.Idx) :
    ∃ pc ∈ (run2_last c (grid2.coords t) (ms2_0 t) (hs2_0 t) (ms2_1 t) (hs2_1 t) (ms2_2 t) (hs2_2 t) acc2 (Memref.isWhole_whole _) hf hl x0 x1 xs).1, y ∈ pc.1.set :=
  View.cover_of_tiledL (run2_last c (grid2.coords t) (ms2_0 t) (hs2_0 t) (ms2_1 t) (hs2_1 t) (ms2_2 t) (hs2_2 t) acc2 (Memref.isWhole_whole _) hf hl x0 x1 xs).1 S1024x256.size (by sl_kernel_rfl) y
def accLast2 (c : Dev nD) (t : Fin cfg2.N) (hf : ¬first2 (grid2.coords t)) (hl : last2 (grid2.coords t))
    (x0 : Vec F S1024x1024 .bf16) (x1 : Vec F S8192x256 .bf16) (xs : Vec F S1024x256 .f32) : Vec F S1024x256 .f32 :=
  accV2.read (Elt F) (accV2.writes (Elt F) accV2.junk (run2_last c (grid2.coords t) (ms2_0 t) (hs2_0 t) (ms2_1 t) (hs2_1 t) (ms2_2 t) (hs2_2 t) acc2 (Memref.isWhole_whole _) hf hl x0 x1 xs).2.1)
def outLast2 (c : Dev nD) (t : Fin cfg2.N) (hf : ¬first2 (grid2.coords t)) (hl : last2 (grid2.coords t))
    (x0 : Vec F S1024x1024 .bf16) (x1 : Vec F S8192x256 .bf16) (xs : Vec F S1024x256 .f32) : Vec F S1024x256 .f32 :=
  outV2.read (Elt F) (outV2.writes (Elt F) outV2.junk (run2_last c (grid2.coords t) (ms2_0 t) (hs2_0 t) (ms2_1 t) (hs2_1 t) (ms2_2 t) (hs2_2 t) acc2 (Memref.isWhole_whole _) hf hl x0 x1 xs).1)

/-! ## The accumulation, point by point -/

/-- What the result's buffer and the accumulator hold after the body at position `n`: the case the position selects,
    run on the point's blocks, a later block of a contraction over what the position before left in the accumulator. -/
def outsAt2 (c : Dev nD) : (n : ℕ) → n < cfg2.N → Vec F S1024x256 .f32 × Vec F S1024x256 .f32
  | 0, hn => (outFirst2 c ⟨0, hn⟩ ((first2_iff ⟨0, hn⟩).mpr (Nat.zero_mod _)) (notLast2_of_first ⟨0, hn⟩ (Nat.zero_mod _)) (blk2 V c 0 ⟨0, hn⟩) (blk2 V c 1 ⟨0, hn⟩),
      accFirst2 c ⟨0, hn⟩ ((first2_iff ⟨0, hn⟩).mpr (Nat.zero_mod _)) (notLast2_of_first ⟨0, hn⟩ (Nat.zero_mod _)) (blk2 V c 0 ⟨0, hn⟩) (blk2 V c 1 ⟨0, hn⟩))
  | n + 1, hn =>
    if h0 : (n + 1) % 8 = 0 then
      (outFirst2 c ⟨n + 1, hn⟩ ((first2_iff ⟨n + 1, hn⟩).mpr h0) (notLast2_of_first ⟨n + 1, hn⟩ h0) (blk2 V c 0 ⟨n + 1, hn⟩) (blk2 V c 1 ⟨n + 1, hn⟩),
        accFirst2 c ⟨n + 1, hn⟩ ((first2_iff ⟨n + 1, hn⟩).mpr h0) (notLast2_of_first ⟨n + 1, hn⟩ h0) (blk2 V c 0 ⟨n + 1, hn⟩) (blk2 V c 1 ⟨n + 1, hn⟩))
    else if h1 : (n + 1) % 8 = 7 then
      (outLast2 c ⟨n + 1, hn⟩ (notFirst2 ⟨n + 1, hn⟩ h0) ((last2_iff ⟨n + 1, hn⟩).mpr h1) (blk2 V c 0 ⟨n + 1, hn⟩) (blk2 V c 1 ⟨n + 1, hn⟩) (outsAt2 c n (Nat.lt_of_succ_lt hn)).2,
        accLast2 c ⟨n + 1, hn⟩ (notFirst2 ⟨n + 1, hn⟩ h0) ((last2_iff ⟨n + 1, hn⟩).mpr h1) (blk2 V c 0 ⟨n + 1, hn⟩) (blk2 V c 1 ⟨n + 1, hn⟩) (outsAt2 c n (Nat.lt_of_succ_lt hn)).2)
    else
      (outMid2 c ⟨n + 1, hn⟩ (notFirst2 ⟨n + 1, hn⟩ h0) (notLast2 ⟨n + 1, hn⟩ h1) (blk2 V c 0 ⟨n + 1, hn⟩) (blk2 V c 1 ⟨n + 1, hn⟩) (outsAt2 c n (Nat.lt_of_succ_lt hn)).2,
        accMid2 c ⟨n + 1, hn⟩ (notFirst2 ⟨n + 1, hn⟩ h0) (notLast2 ⟨n + 1, hn⟩ h1) (blk2 V c 0 ⟨n + 1, hn⟩) (blk2 V c 1 ⟨n + 1, hn⟩) (outsAt2 c n (Nat.lt_of_succ_lt hn)).2)

theorem outsAt2_first (c : Dev nD) (t : Fin cfg2.N) (h0 : t.val % 8 = 0) :
    outsAt2 V c t.val t.isLt = (outFirst2 c t ((first2_iff t).mpr h0) (notLast2_of_first t h0) (blk2 V c 0 t) (blk2 V c 1 t),
      accFirst2 c t ((first2_iff t).mpr h0) (notLast2_of_first t h0) (blk2 V c 0 t) (blk2 V c 1 t)) := by
  obtain ⟨n, hn⟩ := t
  cases n with
  | zero => exact rfl
  | succ n => exact (dif_pos h0).trans rfl

theorem outsAt2_last (c : Dev nD) (t : Fin cfg2.N) (h0 : ¬t.val % 8 = 0) (h1 : t.val % 8 = 7) :
    outsAt2 V c t.val t.isLt = (outLast2 c t (notFirst2 t h0) ((last2_iff t).mpr h1) (blk2 V c 0 t) (blk2 V c 1 t) (outsAt2 V c (t.val - 1) (Nat.lt_of_le_of_lt (Nat.sub_le _ _) t.isLt)).2,
      accLast2 c t (notFirst2 t h0) ((last2_iff t).mpr h1) (blk2 V c 0 t) (blk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

theorem outsAt2_mid (c : Dev nD) (t : Fin cfg2.N) (h0 : ¬t.val % 8 = 0) (h1 : ¬t.val % 8 = 7) :
    outsAt2 V c t.val t.isLt = (outMid2 c t (notFirst2 t h0) (notLast2 t h1) (blk2 V c 0 t) (blk2 V c 1 t) (outsAt2 V c (t.val - 1) (Nat.lt_of_le_of_lt (Nat.sub_le _ _) t.isLt)).2,
      accMid2 c t (notFirst2 t h0) (notLast2 t h1) (blk2 V c 0 t) (blk2 V c 1 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-! ## The invariant that carries the accumulator -/

/-- The scoped buffers other than this product's accumulator (the other products' buffers), unopened. -/
abbrev rest2 (c : Dev nD) : sProp 𝕄 :=
  Pipeline.scopedRestBut (Ix := Unit) (Name := ℕ) (U := UR sig nD τ) (Lvl := ℕ) (Val := Elt F) spec2 c [cc2_scratch0]

/-- Before the first point every scoped buffer is at anything: the accumulator, the others, and the random-number register at some state. -/
theorem PhiA2_eq (c : Dev nD) :
    (Pipeline.ΦA spec2 c : sProp 𝕄) = iprop((∃ d, owns (c : Thread nD τ) acc2 fullShare d) ∗ rest2 c ∗ (∃ r, prngReg c r)) := by
  unfold Pipeline.ΦA
  rw [Pipeline.scopedRest_split_of_list spec2 c [cc2_scratch0] (by decide) (by decide)]
  simp only [bigSepL_singleton, acc2, owns_whole]
  exact equiv_iff.mp ⟨BI.sep_assoc, BI.sep_assoc'⟩

/-- Before position `n`: at the start anything; afterwards the accumulator at what the position before left. -/
def PhiS2 (c : Dev nD) : (n : ℕ) → n ≤ cfg2.N → sProp 𝕄
  | 0, _ => Pipeline.ΦA spec2 c
  | n + 1, hn => iprop(owns (c : Thread nD τ) acc2 fullShare ((outsAt2 V c n hn).2) ∗ rest2 c ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) acc2 fullShare ((outsAt2 V c n hn).2) ∗ rest2 c ∗ (∃ r, prngReg c r)) := rfl
theorem PhiS2_pos (c : Dev nD) (n : ℕ) (h : n ≤ cfg2.N) (hz : n ≠ 0) :
    PhiS2 V c n h = iprop(owns (c : Thread nD τ) acc2 fullShare ((outsAt2 V c (n - 1) (by omega)).2) ∗ rest2 c ∗ (∃ r, prngReg c r)) := by
  cases n with
  | zero => exact absurd rfl hz
  | succ n => rfl

/-! ## The proof data -/

/-- The arrays as the region finds them; after the body each input's buffer at its block, the result's at the
    accumulation's first component; the invariant above; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d

end Cert.KernelIdeal.Hand

end
-- ==== Proof.KiR2Body.lean ====
/-
  The third product: the body meets the pipeline's obligation at every point. The invariant hands the body the
  accumulator (at anything at the very first point, else at what the point before left), the body's case runs, and the
  invariant takes the accumulator back at this point's contents; the result's buffer is handed back untouched except
  at the last block of a contraction, where it ends at the leaky rectifier of the accumulator.
-/
import proofs.«125243_j9740985828005_2_alg».proof.Proof.KiR2Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0 V, before2_1 V]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  by_cases h0 : t.val % 8 = 0
  · have h1 : ¬t.val % 8 = 7 := by omega
    rw [Dat.leavesExact_idle (dat2 V c) 2 t (idle2_2 t (notLast2 t h1)) (noFlush2_2 t (notLast2 t h1))]
    rw [outsAt2_first V c t h0]
    unfold accFirst2; (try dsimp only)
    by_cases hz : t.val = 0
    · rw [PhiS2_castSucc V c t, PhiS2_zero V c _ _ hz, PhiA2_eq]
      iintro ⟨⟨HS, HR, Hg⟩, Ho, ⟨%d0, H0⟩, ⟨%d1, H1⟩, ⟨%d2, H2⟩⟩
      iapply ((run2_first c (grid2.coords t) _ _ _ _ _ _ _ _ ((first2_iff t).mpr h0) (notLast2_of_first t h0) (blk2 V c 0 t) (blk2 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (accCoverFirst2 c t _ _ _ _)
        isplitl [HR]; · iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨HS, HR, Hg⟩, Ho, ⟨%d0, H0⟩, ⟨%d1, H1⟩, ⟨%d2, H2⟩⟩
      iapply ((run2_first c (grid2.coords t) _ _ _ _ _ _ _ _ ((first2_iff t).mpr h0) (notLast2_of_first t h0) (blk2 V c 0 t) (blk2 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (accCoverFirst2 c t _ _ _ _)
        isplitl [HR]; · iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat2 V c).leavesExact 2 t = owns (c : Thread nD τ) (ms2_2 t) fullShare ((dat2 V c).after 2 t) from by
        unfold Dat.leavesExact; rw [live2_2 t ((last2_iff t).mpr h1)], after2_2]
      rw [outsAt2_last V c t h0 h1]
      unfold outLast2 accLast2; (try dsimp only)
      rw [PhiS2_castSucc V c t, PhiS2_pos V c _ _ hz]
      iintro ⟨⟨HS, HR, Hg⟩, Ho, ⟨%d0, H0⟩, ⟨%d1, H1⟩, ⟨%d2, H2⟩⟩
      iapply ((run2_last c (grid2.coords t) _ _ _ _ _ _ _ _ (notFirst2 t h0) ((last2_iff t).mpr h1) (blk2 V c 0 t) (blk2 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS]
        · unfold owns; iexists _; isplitr
          swap; · iexact HS
          ipureintro; exact View.read_writes_of_cover _ _ _ _ _ (accCoverLast2 c t _ _ _ _ _)
        isplitl [HR]; · iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverLast2 c t _ _ _ _ _)
    · rw [Dat.leavesExact_idle (dat2 V c) 2 t (idle2_2 t (notLast2 t h1)) (noFlush2_2 t (notLast2 t h1))]
      rw [outsAt2_mid V c t h0 h1]
      unfold accMid2; (try dsimp only)
      rw [PhiS2_castSucc V c t, PhiS2_pos V c _ _ hz]
      iintro ⟨⟨HS, HR, Hg⟩, Ho, ⟨%d0, H0⟩, ⟨%d1, H1⟩, ⟨%d2, H2⟩⟩
      iapply ((run2_mid c (grid2.coords t) _ _ _ _ _ _ _ _ (notFirst2 t h0) (notLast2 t h1) (blk2 V c 0 t) (blk2 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS]
        · unfold owns; iexists _; isplitr
          swap; · iexact HS
          ipureintro; exact View.read_writes_of_cover _ _ _ _ _ (accCoverMid2 c t _ _ _ _ _)
        isplitl [HR]; · iexact HR
        iexact Hg
      isplitl [Ho]; · iexact Ho
      isplitl [H0]; · iexact H0
      isplitl [H1]; · iexact H1
      iexists _; iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨HS, HR, Hg⟩
  isplitl [HS]
  · iexists _; iexact HS
  isplitl [HR]; · iexact HR
  iexact Hg

end Cert.KernelIdeal.Hand

end
-- ==== Proof.KiRun.lean ====
/-
  The whole program: three rounding casts on the host, then the three products, each a pipelined region. Between two
  items every unscoped buffer of the core is held whole at a known contents: the launch memory, then the casts applied,
  then after each product its result array at what the product's write-backs leave. Run to the end, every unscoped
  buffer holds the last of these contents; the arguments, which no item writes, hold what they were launched with.
-/
import proofs.«125243_j9740985828005_2_alg».proof.Proof.KiR0Body
import proofs.«125243_j9740985828005_2_alg».proof.Proof.KiR1Body
import proofs.«125243_j9740985828005_2_alg».proof.Proof.KiR2Body
import proofs.«125243_j9740985828005_2_alg».proof.Proof.Gen.KernelIdeal.Regions
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => (s₀ m ρ).mem ((c : Dev nD), b)
/-- After the three casts. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After product 1: its arrays at what the pipeline leaves (the inputs as entered, the result's write-backs folded), every
    other buffer as before it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After product 2: its arrays at what the pipeline leaves (the inputs as entered, the result's write-backs folded), every
    other buffer as before it. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After product 3: its arrays at what the pipeline leaves (the inputs as entered, the result's write-backs folded), every
    other buffer as before it. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### The arguments end as launched -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

theorem W4_main_arg0 (c : Dev nD) : W4 m ρ c (Proc.devRef .tc main_arg0) = m ((c : Thread nD τ).loc main_arg0) :=
  (W4_of_ne m ρ c main_arg0 (by decide)).trans <| (W3_of_ne m ρ c main_arg0 (by decide)).trans <| (W2_of_ne m ρ c main_arg0 (by decide)).trans <| (W1_of m ρ c main_arg0 (by decide)).trans rfl
theorem W4_main_arg1 (c : Dev nD) : W4 m ρ c (Proc.devRef .tc main_arg1) = m ((c : Thread nD τ).loc main_arg1) :=
  (W4_of_ne m ρ c main_arg1 (by decide)).trans <| (W3_of_ne m ρ c main_arg1 (by decide)).trans <| (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of_ne m ρ c main_arg2 (by decide)).trans <| (W2_of_ne m ρ c main_arg2 (by decide)).trans <| (W1_of m ρ c main_arg2 (by decide)).trans rfl

/-! ## The proof data family and the thread state -/

/-- Each product's proof data at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the random-number register at some state, and nothing owed. -/
abbrev R (c : Dev nD) : sProp 𝕄 := iprop((∃ r, prngReg c r) ∗ ∃ W, owes (c : Thread nD τ) (0 : CellTallies nD τ sig Unit) W)
/-- The casts as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last contents, the random-number register at some state. -/
abbrev Tₙ (c : Dev nD) : sProp 𝕄 := iprop(StableHlo.held (c : Thread nD τ) (Pipeline.ucRefs τ sig) (W4 m ρ c) ∗ ∃ r, prngReg c r)

/-! ## The products as segments -/

set_option backward.isDefEq.respectTransparency.types false in
/-- Product 1 as a segment: entered with every unscoped buffer at the contents before it, left with its result array
    at what its write-backs leave and every other buffer as entered. Its arrays are split out of the unscoped buffers
    at the entry and put back at the exit; the random-number register and the scoped buffers pass through the invariant
    that carries the accumulator; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    refine BIBase.Entails.trans (hout0 (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Product 2 as a segment: entered with every unscoped buffer at the contents before it, left with its result array
    at what its write-backs leave and every other buffer as entered. Its arrays are split out of the unscoped buffers
    at the entry and put back at the exit; the random-number register and the scoped buffers pass through the invariant
    that carries the accumulator; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    refine BIBase.Entails.trans (hout1 (V2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Product 3 as a segment: entered with every unscoped buffer at the contents before it, left with its result array
    at what its write-backs leave and every other buffer as entered. Its arrays are split out of the unscoped buffers
    at the entry and put back at the exit; the random-number register and the scoped buffers pass through the invariant
    that carries the accumulator; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V3 m ρ) c)
    unfold Pipeline.ΦA
    iintro ⟨Hp, -, Hr⟩
    isplitl [Hr]; · iexact Hr
    iexact Hp
  hout c := by
    refine BIBase.Entails.trans (hout2 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and in
    every final state each unscoped buffer of each core holds the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- The result array ends at what the third product's write-backs leave. -/
theorem result : θ_run defs (onTc (τ := τ) (main (F := F))) ⟨m, fun _ => 0, ρ⟩ (fun r => ∀ c : Dev nD,
      r.2.mem ((c.tc : Thread nD τ).loc main_v5) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun s h c =>
    ⟨(h c _ (mem_uc main_v5 (by decide))).trans (W4_arr m ρ c 2),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Hand

end
-- ==== Proof.Spec.lean ====
/-
  The mathematical content of the claim, stated without reference to either program.

  Over three real-extended matrices, an 8192 by 8192 matrix att (second argument), an 8192 by 8192 matrix inp (first
  argument) and an 8192 by 256 matrix embs (third argument):
    adj = att · inp,   tmp = adjᵀ · embs,   pre = adj · tmp,   out = pre where pre > 0, and 0.2 · pre elsewhere.
  Every sum is a finite sum in the extended reals, which form a commutative additive monoid: no finiteness of any
  entry is used. The second half of the file is the one fact about sums the blocked computation needs: adding eight
  consecutive blocks of 1024 terms one after the other onto zero gives the whole sum of 8192 terms.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A square operand: 8192 by 8192 extended reals, read at a rank-2 index. -/
abbrev Sq : Type := (⟨2, ![8192, 8192]⟩ : Shape).Idx → EReal
/-- The tall operand: 8192 by 256 extended reals. -/
abbrev Tall : Type := (⟨2, ![8192, 256]⟩ : Shape).Idx → EReal

/-- adj = att · inp: entry (p, q) is the sum over k of att(p, k) · inp(k, q). -/
def adj (x0 x1 : Sq) (p q : Fin 8192) : EReal := ∑ k : Fin 8192, x1 (ix2 p k) * x0 (ix2 k q)

/-- tmp = adjᵀ · embs: entry (j, d) is the sum over i of adj(i, j) · embs(i, d). -/
def tmp (x0 x1 : Sq) (x2 : Tall) (j : Fin 8192) (d : Fin 256) : EReal :=
  ∑ i : Fin 8192, adj x0 x1 i j * x2 (ix2 i d)

/-- pre = adj · tmp: entry (i, d) is the sum over j of adj(i, j) · tmp(j, d). -/
def pre (x0 x1 : Sq) (x2 : Tall) (i : Fin 8192) (d : Fin 256) : EReal :=
  ∑ j : Fin 8192, adj x0 x1 i j * tmp x0 x1 x2 j d

/-- The leaky rectifier on one entry: v where v is (ordered-)greater than zero, and the constant encoded by the word
    0x3E4CCCCD (the single-precision word nearest to one fifth) times v elsewhere. Both constants are kept as the
    words the programs carry. -/
def leaky (v : EReal) : EReal :=
  Scalar.select (FloatOps.cmpf (F := Ideal) .ogt v (FloatOps.ofBits (F := Ideal) .f32 0x00000000#32)) v
    (FloatOps.mulf (F := Ideal) (FloatOps.ofBits (F := Ideal) .f32 0x3E4CCCCD#32) v)

/-- The result: the leaky rectifier of pre, entry by entry. -/
def out (x0 x1 : Sq) (x2 : Tall) (i : Fin 8192) (d : Fin 256) : EReal := leaky (pre x0 x1 x2 i d)

/-! ## Accumulating blocks one after the other -/

/-- The running total after block n, started from zero: zero plus block 0, then each later block added on the right. -/
def accum (g : ℕ → EReal) : ℕ → EReal
  | 0 => 0 + g 0
  | n + 1 => accum g n + g (n + 1)

/-- The running total after block n is the sum of blocks 0 to n. -/
theorem accum_eq_sum (g : ℕ → EReal) (n : ℕ) : accum g n = ∑ kb ∈ Finset.range (n + 1), g kb := by
  induction n with
  | zero => simp [accum]
  | succ n ih => rw [accum, ih, Finset.sum_range_succ _ (n + 1)]

/-- m consecutive blocks of n terms each make up the first m · n terms: a re-association of one finite sum in a
    commutative monoid. -/
theorem sum_blocks {M : Type*} [AddCommMonoid M] (f : ℕ → M) (n m : ℕ) :
    ∑ kb ∈ Finset.range m, ∑ kk ∈ Finset.range n, f (kb * n + kk) = ∑ k ∈ Finset.range (m * n), f k := by
  induction m with
  | zero => simp
  | succ m ih => rw [Finset.sum_range_succ, ih, Nat.succ_mul, Finset.sum_range_add]

/-- Eight blocks of 1024 terms accumulated one after the other onto zero give the sum of all 8192 terms. -/
theorem accum_blocks (f : ℕ → EReal) :
    accum (fun kb => ∑ kk : Fin 1024, f (kb * 1024 + kk.val)) 7 = ∑ k : Fin 8192, f k.val := by
  rw [accum_eq_sum, Fin.sum_univ_eq_sum_range (fun k => f k) 8192]
  have h : ∀ kb : ℕ, (∑ kk : Fin 1024, f (kb * 1024 + kk.val)) = ∑ kk ∈ Finset.range 1024, f (kb * 1024 + kk) :=
    fun kb => Fin.sum_univ_eq_sum_range (fun kk => f (kb * 1024 + kk)) 1024
  simp only [h]
  exact sum_blocks f 1024 8
end Cert.Spec

end
-- ==== Proof.KiGlue.lean ====
/-
  The three products chained. The result array after the third product is, entry by entry, the leaky rectifier of
  adj · (adjᵀ · embs) with adj = att · inp: each product's result array is the whole-array product of the arrays it was
  entered with, the casts before them change no value, and each region is entered with what the one before it left.
-/
import proofs.«125243_j9740985828005_2_alg».proof.Proof.KiRun
import proofs.«125243_j9740985828005_2_alg».proof.Proof.Spec
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

/-- The core's buffer contents at the ideal values. -/
abbrev VT : Type := (c : Dev nD) → (b : Ref sig .tc) → Buf (Elt Ideal) ((c : Thread nD τ).loc b)

/-- The first product's result array is att · inp of the arrays it is entered with. -/
def Val0 : Prop := ∀ (V : VT) (c : Dev nD) (p q : Fin 8192),
  (@id (S8192x8192.Idx → EReal) ((dat0 (F := Ideal) V c).arrAt 2 cfg0.N)) (ix2 p q)
    = ∑ k : Fin 8192, (@id (S8192x8192.Idx → EReal) (V c main_v0)) (ix2 p k) * (@id (S8192x8192.Idx → EReal) (V c main_v1)) (ix2 k q)
/-- The second product's result array is adjᵀ · embs. -/
def Val1 : Prop := ∀ (V : VT) (c : Dev nD) (j : Fin 8192) (d : Fin 256),
  (@id (S8192x256.Idx → EReal) ((dat1 (F := Ideal) V c).arrAt 2 cfg1.N)) (ix2 j d)
    = ∑ i : Fin 8192, (@id (S8192x8192.Idx → EReal) (V c main_v3)) (ix2 i j) * (@id (S8192x256.Idx → EReal) (V c main_v2)) (ix2 i d)
/-- The third product's result array is the leaky rectifier of adj · tmp. -/
def Val2 : Prop := ∀ (V : VT) (c : Dev nD) (i : Fin 8192) (d : Fin 256),
  (@id (S8192x256.Idx → EReal) ((dat2 (F := Ideal) V c).arrAt 2 cfg2.N)) (ix2 i d)
    = Cert.Spec.leaky (∑ j : Fin 8192, (@id (S8192x8192.Idx → EReal) (V c main_v3)) (ix2 i j) * (@id (S8192x256.Idx → EReal) (V c main_v4)) (ix2 j d))

variable (m : (ℓ : Loc nD τ sig) → Buf (Elt Ideal) ℓ) (ρ : Dev nD → PrngReg)

/-- The casts change no value at the ideal instance. -/
theorem host_v0 (c : Dev nD) : (V1 (F := Ideal) m ρ c main_v0 : S8192x8192.Idx → EReal) = m ((c : Thread nD τ).loc main_arg1) := by
  show StableHlo.after hostOps0 (W0 m ρ c) (Proc.devRef .tc main_v0) = _
  after_results; rfl
theorem host_v1 (c : Dev nD) : (V1 (F := Ideal) m ρ c main_v1 : S8192x8192.Idx → EReal) = m ((c : Thread nD τ).loc main_arg0) := by
  show StableHlo.after hostOps0 (W0 m ρ c) (Proc.devRef .tc main_v1) = _
  after_results; rfl
theorem host_v2 (c : Dev nD) : (V1 (F := Ideal) m ρ c main_v2 : S8192x256.Idx → EReal) = m ((c : Thread nD τ).loc main_arg2) := by
  show StableHlo.after hostOps0 (W0 m ρ c) (Proc.devRef .tc main_v2) = _
  after_results; rfl

/-- The second product is entered with adj where the first left it, and with the cast embedding array. -/
theorem entry1_v3 (c : Dev nD) : V2 (F := Ideal) m ρ c main_v3 = (dat0 (V1 m ρ) c).arrAt 2 cfg0.N := W2_arr m ρ c 2
theorem entry1_v2 (c : Dev nD) : V2 (F := Ideal) m ρ c main_v2 = V1 m ρ c main_v2 := W2_of_ne m ρ c main_v2 (by decide)
/-- The third product is entered with adj unchanged by the second, and with tmp where the second left it. -/
theorem entry2_v3 (c : Dev nD) : V3 (F := Ideal) m ρ c main_v3 = V2 m ρ c main_v3 :=
  (W3_arr m ρ c 0).trans (((dat1 (V2 m ρ) c).arrAt_in 0 rfl _).trans (A_eq1 (V2 m ρ) c 0))
theorem entry2_v4 (c : Dev nD) : V3 (F := Ideal) m ρ c main_v4 = (dat1 (V2 m ρ) c).arrAt 2 cfg1.N := W3_arr m ρ c 2

/-- The result array, entry by entry. -/
theorem result_value (h0 : Val0) (h1 : Val1) (h2 : Val2) (c : Dev nD) (i : Fin 8192) (d : Fin 256) :
    (@id (S8192x256.Idx → EReal) ((dat2 (F := Ideal) (V3 m ρ) c).arrAt 2 cfg2.N)) (ix2 i d)
      = Cert.Spec.out (m ((c : Thread nD τ).loc main_arg0)) (m ((c : Thread nD τ).loc main_arg1)) (m ((c : Thread nD τ).loc main_arg2)) i d := by
  have adj_eq : ∀ p q : Fin 8192, (@id (S8192x8192.Idx → EReal) (V2 (F := Ideal) m ρ c main_v3)) (ix2 p q)
      = Cert.Spec.adj (m ((c : Thread nD τ).loc main_arg0)) (m ((c : Thread nD τ).loc main_arg1)) p q := fun p q => by
    rw [entry1_v3, h0 (V1 m ρ) c p q, host_v0, host_v1]; rfl
  have tmp_eq : ∀ (j : Fin 8192) (d : Fin 256), (@id (S8192x256.Idx → EReal) (V3 (F := Ideal) m ρ c main_v4)) (ix2 j d)
      = Cert.Spec.tmp (m ((c : Thread nD τ).loc main_arg0)) (m ((c : Thread nD τ).loc main_arg1)) (m ((c : Thread nD τ).loc main_arg2)) j d := fun j d => by
    rw [entry2_v4, h1 (V2 m ρ) c j d]
    unfold Cert.Spec.tmp
    refine Finset.sum_congr rfl fun i' _ => ?_
    rw [adj_eq, entry1_v2, host_v2]; rfl
  rw [h2 (V3 m ρ) c i d]
  unfold Cert.Spec.out Cert.Spec.pre
  refine congrArg Cert.Spec.leaky (Finset.sum_congr rfl fun j _ => ?_)
  rw [entry2_v3, adj_eq, tmp_eq]

end Cert.KernelIdeal.Hand

end
-- ==== Proof.KiR0ValuePieces.lean ====
/-
  The first product, adj = att · inp: what each case of a grid point leaves, as a value.

  A point of the 8 × 4 × 8 grid works on the 1024 × 2048 running total of one block of the result. The total it
  leaves is one accumulation step: the total it found (the zero block, at the first block of a contraction) plus the
  product of the two blocks it was handed, which belong to the same block of the contraction. At the last block of a contraction the result's buffer receives that total with
  its float format changed.
-/
import proofs.«125243_j9740985828005_2_alg».proof.Proof.KiR0Data
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

/-- The zero offsets, as the constant function. -/
theorem hz0 : (![0, 0] : Fin 2 → Nat) = fun _ => 0 := funext fun a => by fin_cases a <;> rfl

/-- A middle block: the total found plus this block's product. -/
theorem accMid0_eq (c : Dev nD) (t : Fin cfg0.N) (hf : ¬first0 (grid0.coords t)) (hl : ¬last0 (grid0.coords t))
    (x0 : Vec F S1024x1024 .bf16) (x1 : Vec F S1024x2048 .bf16) (xs : Vec F S1024x2048 .f32) :
    accMid0 c t hf hl x0 x1 xs = k0_pay2 xs x0 x1 := by
  unfold accMid0
  rw [View.read_writes_eq_canon _ _ _ (accCoverMid0 c t hf hl x0 x1 xs)]
  unfold run0_mid
  dsimp only
  rw [View.canon_unit_zero hz0]
  simp only [View.readAt_eq_ld, (hs0_0 t).read_unread, (hs0_1 t).read_unread,
    (Memref.isWhole_whole cc0_scratch0).read_unread, View.ld_unit_zero (S := S1024x1024) hz0,
    View.ld_unit_zero (S := S1024x2048) hz0]

/-- The first block of a contraction: the zero block plus this block's product (the zero block is stored, read
    back, and added to). -/
theorem accFirst0_eq (c : Dev nD) (t : Fin cfg0.N) (hf : first0 (grid0.coords t)) (hl : ¬last0 (grid0.coords t))
    (x0 : Vec F S1024x1024 .bf16) (x1 : Vec F S1024x2048 .bf16) :
    accFirst0 c t hf hl x0 x1 = k0_pay2 (k0_pay1 (F := F)) x0 x1 := by
  unfold accFirst0
  rw [View.read_writes_eq_canon _ _ _ (accCoverFirst0 c t hf hl x0 x1)]
  unfold run0_first
  dsimp only
  sl_unfold_words
  rw [View.canon_cons_unit_zero (S := S1024x2048) hz0, View.readCov_unit_zero (S := S1024x2048) _ hz0]
  simp only [View.readAt_eq_ld, (hs0_0 t).read_unread, (hs0_1 t).read_unread, View.ld_unit_zero (S := S1024x1024) hz0,
    View.ld_unit_zero (S := S1024x2048) hz0]

/-- The last block of a contraction leaves, in the accumulator, the total found plus this block's product … -/
theorem accLast0_eq (c : Dev nD) (t : Fin cfg0.N) (hf : ¬first0 (grid0.coords t)) (hl : last0 (grid0.coords t))
    (x0 : Vec F S1024x1024 .bf16) (x1 : Vec F S1024x2048 .bf16) (xs : Vec F S1024x2048 .f32) :
    accLast0 c t hf hl x0 x1 xs = k0_pay2 xs x0 x1 := by
  unfold accLast0
  rw [View.read_writes_eq_canon _ _ _ (accCoverLast0 c t hf hl x0 x1 xs)]
  unfold run0_last
  dsimp only
  sl_unfold_words
  rw [View.canon_unit_zero hz0]
  simp only [View.readAt_eq_ld, (hs0_0 t).read_unread, (hs0_1 t).read_unread,
    (Memref.isWhole_whole cc0_scratch0).read_unread, View.ld_unit_zero (S := S1024x1024) hz0,
    View.ld_unit_zero (S := S1024x2048) hz0]

/-- … and, in the result's buffer, that total with its float format changed. -/
theorem outLast0_eq (c : Dev nD) (t : Fin cfg0.N) (hf : ¬first0 (grid0.coords t)) (hl : last0 (grid0.coords t))
    (x0 : Vec F S1024x1024 .bf16) (x1 : Vec F S1024x2048 .bf16) (xs : Vec F S1024x2048 .f32) :
    outLast0 c t hf hl x0 x1 xs = k0_pay3 (k0_pay2 xs x0 x1) := by
  unfold outLast0
  rw [View.read_writes_eq_canon _ _ _ (outCoverLast0 c t hf hl x0 x1 xs)]
  unfold run0_last
  dsimp only
  sl_unfold_words
  rw [View.canon_unit_zero hz0, View.readCov_unit_zero (S := S1024x2048) _ hz0]
  simp only [View.readAt_eq_ld, (hs0_0 t).read_unread, (hs0_1 t).read_unread,
    (Memref.isWhole_whole cc0_scratch0).read_unread, View.ld_unit_zero (S := S1024x1024) hz0,
    View.ld_unit_zero (S := S1024x2048) hz0]

end Cert.KernelIdeal.Hand

end
-- ==== Proof.KMatmul.lean ====
/-
  The three block products of the blocked computation, each read at one entry.

  A matrix-unit product into a zero accumulator, at the extended reals, is at each output entry the plain finite sum
  of the products of the operands' entries along the one contracted axis: nothing of the order of accumulation or of
  a rounding is left in it. For the first and the third product the left operand is contracted on its second axis
  and the right operand on its first (rows times columns); for the second both operands are contracted on their
  FIRST axis, which is the product with the left operand transposed. The zero splat that initialises a running total
  reads 0 at every entry.
-/
import proofs.«125243_j9740985828005_2_alg».proof.KernelIdeal
import Idealize.ShloMosaic.PureOps.Ideal
import Idealize.ShloMosaic.PureOps.Ideal.Laws
import Idealize.ShloMosaic.Lib.ValueIdx

noncomputable section

open scoped BigOperators

namespace Cert.KMatmul

open Cert.KernelIdeal Idealize.ShloMosaic Idealize.ShloMosaic.ValueIdx

variable [Cert.KernelIdeal.Facts]

/-! ## First product: [1024, 1024] times [1024, 2048], rows by columns -/

/-- The left operand's row coordinate is the output's row coordinate. -/
theorem mm0_lhs0 (i : S1024x2048.Idx) (q : dot_S1024x1024_S1024x2048_S1024x2048_1_0_0_1_n_n.contr.Idx) :
    (dot_S1024x1024_S1024x2048_S1024x2048_1_0_0_1_n_n.lhsIdx i q 0).val = (i 0).val := by
  unfold DotDims.lhsIdx
  rw [dif_neg (show ¬(0 : Fin S1024x1024.rank) ∈ dot_S1024x1024_S1024x2048_S1024x2048_1_0_0_1_n_n.lhsBatch from List.not_mem_nil),
    dif_pos (show (0 : Fin S1024x1024.rank) ∈ dot_S1024x1024_S1024x2048_S1024x2048_1_0_0_1_n_n.lhsNonContracting from List.mem_singleton.mpr rfl)]
  rfl

/-- The right operand's column coordinate is the output's column coordinate. -/
theorem mm0_rhs1 (i : S1024x2048.Idx) (q : dot_S1024x1024_S1024x2048_S1024x2048_1_0_0_1_n_n.contr.Idx) :
    (dot_S1024x1024_S1024x2048_S1024x2048_1_0_0_1_n_n.rhsIdx i q 1).val = (i 1).val := by
  unfold DotDims.rhsIdx
  rw [dif_neg (show ¬(1 : Fin S1024x2048.rank) ∈ dot_S1024x1024_S1024x2048_S1024x2048_1_0_0_1_n_n.rhsBatch from List.not_mem_nil),
    dif_pos (show (1 : Fin S1024x2048.rank) ∈ dot_S1024x1024_S1024x2048_S1024x2048_1_0_0_1_n_n.rhsNonContracting from List.mem_singleton.mpr rfl)]
  rfl

/-- Entry (y0, y1) of a · b into a zero accumulator is the sum over kk of a(y0, kk) · b(kk, y1). -/
theorem mm0_apply (a : FVec Ideal S1024x1024 .bf16) (b : FVec Ideal S1024x2048 .bf16) (y0 : Fin 1024) (y1 : Fin 2048) :
    matmul (F := Ideal) dot_S1024x1024_S1024x2048_S1024x2048_1_0_0_1_n_n none a b
        (constant S1024x2048 .f32 0x00000000#32) (ix2 y0 y1)
      = ∑ kk : Fin 1024, a (ix2 y0 kk) * b (ix2 kk y1) := by
  simp only [matmul]
  rw [Ideal.matmul_constant_zero_apply,
    ← Equiv.sum_comp (contrEquiv1 dot_S1024x1024_S1024x2048_S1024x2048_1_0_0_1_n_n 1024 rfl rfl).symm]
  refine Finset.sum_congr rfl fun k _ => ?_
  have hk := contrEquiv1_symm_val dot_S1024x1024_S1024x2048_S1024x2048_1_0_0_1_n_n 1024 rfl rfl k
  have el : dot_S1024x1024_S1024x2048_S1024x2048_1_0_0_1_n_n.lhsIdx (ix2 y0 y1)
      ((contrEquiv1 dot_S1024x1024_S1024x2048_S1024x2048_1_0_0_1_n_n 1024 rfl rfl).symm k) = ix2 y0 k :=
    funext fun c => Fin.ext (by
      match c with
      | ⟨0, _⟩ => exact mm0_lhs0 _ _
      | ⟨1, _⟩ => exact (dot_S1024x1024_S1024x2048_S1024x2048_1_0_0_1_n_n.lhsIdx_val_of_single rfl _ _).trans hk)
  have er : dot_S1024x1024_S1024x2048_S1024x2048_1_0_0_1_n_n.rhsIdx (ix2 y0 y1)
      ((contrEquiv1 dot_S1024x1024_S1024x2048_S1024x2048_1_0_0_1_n_n 1024 rfl rfl).symm k) = ix2 k y1 :=
    funext fun c => Fin.ext (by
      match c with
      | ⟨0, _⟩ => exact (dot_S1024x1024_S1024x2048_S1024x2048_1_0_0_1_n_n.rhsIdx_val_of_single rfl _ _).trans hk
      | ⟨1, _⟩ => exact mm0_rhs1 _ _)
  rw [el, er]

/-! ## Second product: both operands contracted on their first axis (the left operand transposed) -/

/-- The left operand's SECOND coordinate is the output's row coordinate. -/
theorem mm1_lhs1 (i : S1024x256.Idx) (q : dot_S1024x1024_S1024x256_S1024x256_0_0_1_1_n_n.contr.Idx) :
    (dot_S1024x1024_S1024x256_S1024x256_0_0_1_1_n_n.lhsIdx i q 1).val = (i 0).val := by
  unfold DotDims.lhsIdx
  rw [dif_neg (show ¬(1 : Fin S1024x1024.rank) ∈ dot_S1024x1024_S1024x256_S1024x256_0_0_1_1_n_n.lhsBatch from List.not_mem_nil),
    dif_pos (show (1 : Fin S1024x1024.rank) ∈ dot_S1024x1024_S1024x256_S1024x256_0_0_1_1_n_n.lhsNonContracting from List.mem_singleton.mpr rfl)]
  rfl

/-- The right operand's column coordinate is the output's column coordinate. -/
theorem mm1_rhs1 (i : S1024x256.Idx) (q : dot_S1024x1024_S1024x256_S1024x256_0_0_1_1_n_n.contr.Idx) :
    (dot_S1024x1024_S1024x256_S1024x256_0_0_1_1_n_n.rhsIdx i q 1).val = (i 1).val := by
  unfold DotDims.rhsIdx
  rw [dif_neg (show ¬(1 : Fin S1024x256.rank) ∈ dot_S1024x1024_S1024x256_S1024x256_0_0_1_1_n_n.rhsBatch from List.not_mem_nil),
    dif_pos (show (1 : Fin S1024x256.rank) ∈ dot_S1024x1024_S1024x256_S1024x256_0_0_1_1_n_n.rhsNonContracting from List.mem_singleton.mpr rfl)]
  rfl

/-- Entry (y0, y1) of aᵀ · b into a zero accumulator is the sum over kk of a(kk, y0) · b(kk, y1). -/
theorem mm1_apply (a : FVec Ideal S1024x1024 .bf16) (b : FVec Ideal S1024x256 .bf16) (y0 : Fin 1024) (y1 : Fin 256) :
    matmul (F := Ideal) dot_S1024x1024_S1024x256_S1024x256_0_0_1_1_n_n none a b
        (constant S1024x256 .f32 0x00000000#32) (ix2 y0 y1)
      = ∑ kk : Fin 1024, a (ix2 kk y0) * b (ix2 kk y1) := by
  simp only [matmul]
  rw [Ideal.matmul_constant_zero_apply,
    ← Equiv.sum_comp (contrEquiv1 dot_S1024x1024_S1024x256_S1024x256_0_0_1_1_n_n 1024 rfl rfl).symm]
  refine Finset.sum_congr rfl fun k _ => ?_
  have hk := contrEquiv1_symm_val dot_S1024x1024_S1024x256_S1024x256_0_0_1_1_n_n 1024 rfl rfl k
  have el : dot_S1024x1024_S1024x256_S1024x256_0_0_1_1_n_n.lhsIdx (ix2 y0 y1)
      ((contrEquiv1 dot_S1024x1024_S1024x256_S1024x256_0_0_1_1_n_n 1024 rfl rfl).symm k) = ix2 k y0 :=
    funext fun c => Fin.ext (by
      match c with
      | ⟨0, _⟩ => exact (dot_S1024x1024_S1024x256_S1024x256_0_0_1_1_n_n.lhsIdx_val_of_single rfl _ _).trans hk
      | ⟨1, _⟩ => exact mm1_lhs1 _ _)
  have er : dot_S1024x1024_S1024x256_S1024x256_0_0_1_1_n_n.rhsIdx (ix2 y0 y1)
      ((contrEquiv1 dot_S1024x1024_S1024x256_S1024x256_0_0_1_1_n_n 1024 rfl rfl).symm k) = ix2 k y1 :=
    funext fun c => Fin.ext (by
      match c with
      | ⟨0, _⟩ => exact (dot_S1024x1024_S1024x256_S1024x256_0_0_1_1_n_n.rhsIdx_val_of_single rfl _ _).trans hk
      | ⟨1, _⟩ => exact mm1_rhs1 _ _)
  rw [el, er]

/-! ## Third product: [1024, 1024] times [1024, 256], rows by columns -/

/-- The left operand's row coordinate is the output's row coordinate. -/
theorem mm2_lhs0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch from List.not_mem_nil),
    dif_pos (show (0 : Fin S1024x1024.rank) ∈ dot_S1024x1024_S1024x256_S1024x256_1_0_0_1_n_n.lhsNonContracting from List.mem_singleton.mpr rfl)]
  rfl

/-- The right operand's column coordinate is the output's column coordinate. -/
theorem mm2_rhs1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch from List.not_mem_nil),
    dif_pos (show (1 : Fin S1024x256.rank) ∈ dot_S1024x1024_S1024x256_S1024x256_1_0_0_1_n_n.rhsNonContracting from List.mem_singleton.mpr rfl)]
  rfl

/-- Entry (y0, y1) of a · b into a zero accumulator is the sum over kk of a(y0, kk) · b(kk, y1). -/
theorem mm2_apply (a : FVec Ideal S1024x1024 .bf16) (b : FVec Ideal S1024x256 .bf16) (y0 : Fin 1024) (y1 : Fin 256) :
    matmul (F := Ideal) dot_S1024x1024_S1024x256_S1024x256_1_0_0_1_n_n none a b
        (constant S1024x256 .f32 0x00000000#32) (ix2 y0 y1)
      = ∑ kk : Fin 1024, a (ix2 y0 kk) * b (ix2 kk y1) := by
  simp only [matmul]
  rw [Ideal.matmul_constant_zero_apply,
    ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 y0 y1)
      ((contrEquiv1 dot_S1024x1024_S1024x256_S1024x256_1_0_0_1_n_n 1024 rfl rfl).symm k) = ix2 y0 k :=
    funext fun c => Fin.ext (by
      match c with
      | ⟨0, _⟩ => exact mm2_lhs0 _ _
      | ⟨1, _⟩ => exact (dot_S1024x1024_S1024x256_S1024x256_1_0_0_1_n_n.lhsIdx_val_of_single rfl _ _).trans hk)
  have er : dot_S1024x1024_S1024x256_S1024x256_1_0_0_1_n_n.rhsIdx (ix2 y0 y1)
      ((contrEquiv1 dot_S1024x1024_S1024x256_S1024x256_1_0_0_1_n_n 1024 rfl rfl).symm k) = ix2 k y1 :=
    funext fun c => Fin.ext (by
      match c with
      | ⟨0, _⟩ => exact (dot_S1024x1024_S1024x256_S1024x256_1_0_0_1_n_n.rhsIdx_val_of_single rfl _ _).trans hk
      | ⟨1, _⟩ => exact mm2_rhs1 _ _)
  rw [el, er]

/-! ## The zero splat -/

/-- The splat of the zero word reads 0 at every entry, whatever the shape. -/
theorem zero_bcast (S : Shape) (y : S.Idx) :
    (broadcast S (Scalar.ofBits (F := Ideal) .f32 0x00000000#32)) y = (0 : EReal) :=
  Ideal.ofBits_zero_f32

end Cert.KMatmul

end
-- ==== Proof.KPay.lean ====
/-
  The values the three blocked products store, each read at one entry, at the extended reals.

  Each of the three products keeps a running total per output block. Its first store writes the zero splat: 0 at
  every entry. Its second store writes the running total plus the block product of the two operand blocks just
  loaded: at the entry (y0, y1), the old total there plus the sum over the 1024 contracted positions of the products
  of the operands' entries (for the second product both operands are contracted on their first axis). Its last
  store writes the finished total: unchanged for the first two products, because a change of float format is the
  identity on extended reals, and through the leaky rectifier for the third. A shape cast between equal shapes is the
  identity throughout.
-/
import proofs.«125243_j9740985828005_2_alg».proof.Proof.Gen.KernelIdeal.Skeleton
import proofs.«125243_j9740985828005_2_alg».proof.Proof.KMatmul
import proofs.«125243_j9740985828005_2_alg».proof.Proof.Spec
import Idealize.ShloMosaic.Lib.Pipeline.Value
import Idealize.ShloMosaic.Lib.ValueIdx

noncomputable section

open scoped BigOperators

namespace Cert.KPay

open Cert.KernelIdeal Cert.KernelIdeal.Gen Idealize.ShloMosaic Idealize.ShloMosaic.ValueIdx

/-! ## First product -/

/-- The initial store of the first product writes 0 at every entry. -/
theorem k0_pay1_apply (y0 : Fin 1024) (y1 : Fin 2048) : k0_pay1 (F := Ideal) (ix2 y0 y1) = 0 := by
  unfold k0_pay1
  refine (congrFun (shapeCast_self _ _) _).trans ?_
  exact Cert.KMatmul.zero_bcast _ _

/-- One accumulation step of the first product at (y0, y1): the old total plus the sum over kk of
    v4(y0, kk) · v6(kk, y1). -/
theorem k0_pay2_apply (v3 : Vec Ideal S1024x2048 .f32) (v4 : Vec Ideal S1024x1024 .bf16) (v6 : Vec Ideal S1024x2048 .bf16)
    (y0 : Fin 1024) (y1 : Fin 2048) :
    k0_pay2 (F := Ideal) v3 v4 v6 (ix2 y0 y1) = v3 (ix2 y0 y1) + ∑ kk : Fin 1024, v4 (ix2 y0 kk) * v6 (ix2 kk y1) := by
  unfold k0_pay2
  simp only [shapeCast_self]
  rw [addf_apply, Cert.KMatmul.mm0_apply]

/-- The final store of the first product writes the total unchanged. -/
theorem k0_pay3_apply (v16 : Vec Ideal S1024x2048 .f32) (y : S1024x2048.Idx) : k0_pay3 (F := Ideal) v16 y = v16 y := by
  unfold k0_pay3
  exact truncf_apply _ _ _

/-! ## Second product (the left operand transposed) -/

/-- The initial store of the second product writes 0 at every entry. -/
theorem k1_pay1_apply (y0 : Fin 1024) (y1 : Fin 256) : k1_pay1 (F := Ideal) (ix2 y0 y1) = 0 := by
  unfold k1_pay1
  refine (congrFun (shapeCast_self _ _) _).trans ?_
  exact Cert.KMatmul.zero_bcast _ _

/-- One accumulation step of the second product at (y0, y1): the old total plus the sum over kk of
    v8(kk, y0) · v6(kk, y1): both operand blocks are contracted on their first axis. -/
theorem k1_pay2_apply (v6 : Vec Ideal S1024x256 .bf16) (v8 : Vec Ideal S1024x1024 .bf16) (v11 : Vec Ideal S1024x256 .f32)
    (y0 : Fin 1024) (y1 : Fin 256) :
    k1_pay2 (F := Ideal) v6 v8 v11 (ix2 y0 y1) = v11 (ix2 y0 y1) + ∑ kk : Fin 1024, v8 (ix2 kk y0) * v6 (ix2 kk y1) := by
  unfold k1_pay2
  simp only [shapeCast_self]
  rw [addf_apply, Cert.KMatmul.mm1_apply]

/-- The final store of the second product writes the total unchanged. -/
theorem k1_pay3_apply (v19 : Vec Ideal S1024x256 .f32) (y : S1024x256.Idx) : k1_pay3 (F := Ideal) v19 y = v19 y := by
  unfold k1_pay3
  exact truncf_apply _ _ _

/-! ## Third product -/

/-- The initial store of the third product writes 0 at every entry. -/
theorem k2_pay1_apply (y0 : Fin 1024) (y1 : Fin 256) : k2_pay1 (F := Ideal) (ix2 y0 y1) = 0 := by
  unfold k2_pay1
  refine (congrFun (shapeCast_self _ _) _).trans ?_
  exact Cert.KMatmul.zero_bcast _ _

/-- One accumulation step of the third product at (y0, y1): the old total v8 there plus the sum over kk of
    v9(y0, kk) · v6(kk, y1). -/
theorem k2_pay2_apply (v6 : Vec Ideal S1024x256 .bf16) (v8 : Vec Ideal S1024x256 .f32) (v9 : Vec Ideal S1024x1024 .bf16)
    (y0 : Fin 1024) (y1 : Fin 256) :
    k2_pay2 (F := Ideal) v6 v8 v9 (ix2 y0 y1) = v8 (ix2 y0 y1) + ∑ kk : Fin 1024, v9 (ix2 y0 kk) * v6 (ix2 kk y1) := by
  unfold k2_pay2
  simp only [shapeCast_self]
  rw [addf_apply, Cert.KMatmul.mm2_apply]

/-- The final store of the third product writes the leaky rectifier of the total, entry by entry: the comparison
    with the zero splat, the product with the splat of the constant and the select all read through at an entry. -/
theorem k2_pay3_apply (v19 : Vec Ideal S1024x256 .f32) (y : S1024x256.Idx) :
    k2_pay3 (F := Ideal) v19 y = Cert.Spec.leaky (v19 y) := by
  unfold k2_pay3 Cert.Spec.leaky
  rfl

end Cert.KPay

end
-- ==== Proof.KAccum.lean ====
/-
  A running total that starts at zero plus block 0 and then adds one block at a time is, after the eighth block of
  1024 terms, the whole sum of 8192 terms: the specification's accumulation, restated for any sequence of totals
  that satisfies its two equations.
-/
import proofs.«125243_j9740985828005_2_alg».proof.Proof.Spec

noncomputable section

open scoped BigOperators

namespace Cert.KAccum

open Cert.Spec

/-- A sequence that satisfies the accumulation's two equations up to step n is the accumulation there. -/
theorem eq_accum (g : ℕ → EReal) (a : ℕ → EReal) (N : ℕ) (h0 : a 0 = 0 + g 0)
    (hs : ∀ n, n < N → a (n + 1) = a n + g (n + 1)) : ∀ n, n ≤ N → a n = accum g n := by
  intro n
  induction n with
  | zero => intro _; rw [h0, accum]
  | succ n ih =>
    intro hn
    rw [hs n (Nat.lt_of_succ_le hn), ih (Nat.le_of_succ_le hn), accum]

/-- Eight blocks of 1024 terms: if the total after block 0 is zero plus that block, and the total after each later
    block is the previous total plus that block, the total after block 7 is the sum of all 8192 terms. -/
theorem total_blocks (f : ℕ → EReal) (a : ℕ → EReal)
    (h0 : a 0 = 0 + ∑ kk : Fin 1024, f (0 * 1024 + kk.val))
    (hs : ∀ n, n < 7 → a (n + 1) = a n + ∑ kk : Fin 1024, f ((n + 1) * 1024 + kk.val)) :
    a 7 = ∑ k : Fin 8192, f k.val := by
  rw [eq_accum (fun kb => ∑ kk : Fin 1024, f (kb * 1024 + kk.val)) a 7 h0 hs 7 (Nat.le_refl 7)]
  exact accum_blocks f

end Cert.KAccum

end
-- ==== Proof.KiR0ValueAcc.lean ====
/-
  The first product, adj = att · inp: the running total, entry by entry, at the extended reals.

  Grid point t = 8 · (4 · i + j) + k works on rows 1024 · i … and columns 2048 · j … of the result and on block k of the
  contraction. The left block it is handed is rows 1024 · i … and columns 1024 · k … of the left array, the right block
  rows 1024 · k … and columns 2048 · j … of the right array. So the total the point leaves at the entry (y0, y1) is the
  total it found plus the 1024 terms att(1024 i + y0, 1024 k + kk) · inp(1024 k + kk, 2048 j + y1) of the contraction
  for the result's entry (1024 i + y0, 2048 j + y1); the first block starts from zero. By induction on the position,
  the total after point t is the accumulation of blocks 0 to k of that contraction.
-/
import proofs.«125243_j9740985828005_2_alg».proof.Proof.KiR0ValuePieces
import proofs.«125243_j9740985828005_2_alg».proof.Proof.KPay
import proofs.«125243_j9740985828005_2_alg».proof.Proof.KAccum
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

theorem idx0_0 : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)
theorem idx0_1 : ∀ t : Fin cfg0.N, win0_1.index t 0 = t.val % 8 ∧ win0_1.index t 1 = t.val / 8 % 4 :=
  (by decide +kernel : ∀ t : Fin grid0.N, win0_1.index t 0 = t.val % 8 ∧ win0_1.index t 1 = t.val / 8 % 4)
theorem idx0_2 : ∀ t : Fin cfg0.N, win0_2.index t 0 = t.val / 32 ∧ win0_2.index t 1 = t.val / 8 % 4 :=
  (by decide +kernel : ∀ t : Fin grid0.N, win0_2.index t 0 = t.val / 32 ∧ win0_2.index t 1 = t.val / 8 % 4)

theorem blk0_0_apply (c : Dev nD) (t : Fin cfg0.N) (a b : Fin 1024) (r q : Fin 8192)
    (hr : r.val = (t.val / 32) * 1024 + a.val) (hq : q.val = (t.val % 8) * 1024 + b.val) :
    (blk0 V c 0 t : Vec F S1024x1024 .bf16) (ix2 a b) = (V c main_v0 : S8192x8192.Idx → Elt F .bf16) (ix2 r q) := by
  have hi := idx0_0 t
  unfold blk0
  rw [View.read_apply]
  show V c main_v0 _ = V c main_v0 _
  congr 1
  funext x
  apply Fin.ext
  match x with
  | ⟨0, _⟩ => show win0_0.index t 0 * 1024 + 1 * a.val = r.val; rw [hi.1, hr]; omega
  | ⟨1, _⟩ => show win0_0.index t 1 * 1024 + 1 * b.val = q.val; rw [hi.2, hq]; omega

theorem blk0_1_apply (c : Dev nD) (t : Fin cfg0.N) (a : Fin 1024) (b : Fin 2048) (r q : Fin 8192)
    (hr : r.val = (t.val % 8) * 1024 + a.val) (hq : q.val = (t.val / 8 % 4) * 2048 + b.val) :
    (blk0 V c 1 t : Vec F S1024x2048 .bf16) (ix2 a b) = (V c main_v1 : S8192x8192.Idx → Elt F .bf16) (ix2 r q) := by
  have hi := idx0_1 t
  unfold blk0
  rw [View.read_apply]
  show V c main_v1 _ = V c main_v1 _
  congr 1
  funext x
  apply Fin.ext
  match x with
  | ⟨0, _⟩ => show win0_1.index t 0 * 1024 + 1 * a.val = r.val; rw [hi.1, hr]; omega
  | ⟨1, _⟩ => show win0_1.index t 1 * 2048 + 1 * b.val = q.val; rw [hi.2, hq]; omega

/-! ## The accumulation at the extended reals -/

/-- One term of the contraction, as a function of the position along it (zero past the end, where nothing reads). -/
def term0 (A B : S8192x8192.Idx → EReal) (p q : Fin 8192) (n : ℕ) : EReal :=
  if h : n < 8192 then A (ix2 p ⟨n, h⟩) * B (ix2 ⟨n, h⟩ q) else 0

theorem term0_of_lt (A B : S8192x8192.Idx → EReal) (p q : Fin 8192) (n : ℕ)
    (h : n < 8192) : term0 A B p q n = A (ix2 p ⟨n, h⟩) * B (ix2 ⟨n, h⟩ q) := dif_pos h

/-- Summed over all positions, the terms are the contraction. -/
theorem sum_term0 (A B : S8192x8192.Idx → EReal) (p q : Fin 8192) :
    ∑ k : Fin 8192, term0 A B p q k.val = ∑ k : Fin 8192, A (ix2 p k) * B (ix2 k q) :=
  Finset.sum_congr rfl fun k _ => term0_of_lt A B p q k.val k.isLt

/-- One accumulation step at an entry, the two blocks read as entries of the arrays they are blocks of: the total
    there plus block `kb`'s 1024 terms of the contraction. -/
theorem step0 (A B : S8192x8192.Idx → EReal)
    (x0 : Vec Ideal S1024x1024 .bf16) (x1 : Vec Ideal S1024x2048 .bf16) (acc : Vec Ideal S1024x2048 .f32)
    (kb : ℕ) (hkb8 : kb < 8) (y0 : Fin 1024) (y1 : Fin 2048) (p q : Fin 8192)
    (h0 : ∀ (kk : Fin 1024) (r : Fin 8192), r.val = kb * 1024 + kk.val → x0 (ix2 y0 kk) = A (ix2 p r))
    (h1 : ∀ (kk : Fin 1024) (r : Fin 8192), r.val = kb * 1024 + kk.val → x1 (ix2 kk y1) = B (ix2 r q)) :
    k0_pay2 (F := Ideal) acc x0 x1 (ix2 y0 y1)
      = acc (ix2 y0 y1) + ∑ kk : Fin 1024, term0 A B p q (kb * 1024 + kk.val) := by
  refine (Cert.KPay.k0_pay2_apply acc x0 x1 y0 y1).trans ?_
  congr 1
  refine Finset.sum_congr rfl fun kk _ => ?_
  have hlt : kb * 1024 + kk.val < 8192 := by have := kk.isLt; omega
  rw [term0_of_lt A B p q _ hlt, h0 kk ⟨_, hlt⟩ rfl, h1 kk ⟨_, hlt⟩ rfl]

/-- The same at grid point `t`, on the blocks the point is handed. -/
theorem point0 (V : (c : Dev nD) → (b : Ref sig .tc) → Buf (Elt Ideal) ((c : Thread nD τ).loc b)) (c : Dev nD)
    (t : Fin cfg0.N) (acc : Vec Ideal S1024x2048 .f32) (y0 : Fin 1024) (y1 : Fin 2048) (p q : Fin 8192)
    (hp : p.val = (t.val / 32) * 1024 + y0.val) (hq : q.val = (t.val / 8 % 4) * 2048 + y1.val) :
    k0_pay2 (F := Ideal) acc (blk0 V c 0 t) (blk0 V c 1 t) (ix2 y0 y1)
      = acc (ix2 y0 y1) + ∑ kk : Fin 1024, term0 (V c main_v0) (V c main_v1) p q ((t.val % 8) * 1024 + kk.val) :=
  step0 (V c main_v0) (V c main_v1) (blk0 V c 0 t) (blk0 V c 1 t) acc (t.val % 8)
    (Nat.mod_lt _ (by decide)) y0 y1 p q (fun kk r hr => blk0_0_apply V c t y0 kk p r hp hr) (fun kk r hr => blk0_1_apply V c t kk y1 r q hr hq)

/-- The first block of a contraction leaves zero plus block 0. -/
theorem firstVal0 (V : (c : Dev nD) → (b : Ref sig .tc) → Buf (Elt Ideal) ((c : Thread nD τ).loc b)) (c : Dev nD)
    (t : Fin cfg0.N) (h0 : t.val % 8 = 0) (y0 : Fin 1024) (y1 : Fin 2048) (p q : Fin 8192)
    (hp : p.val = (t.val / 32) * 1024 + y0.val) (hq : q.val = (t.val / 8 % 4) * 2048 + y1.val) :
    k0_pay2 (F := Ideal) (k0_pay1 (F := Ideal)) (blk0 V c 0 t) (blk0 V c 1 t) (ix2 y0 y1)
      = Cert.Spec.accum (fun kb => ∑ kk : Fin 1024, term0 (V c main_v0) (V c main_v1) p q (kb * 1024 + kk.val)) (t.val % 8) := by
  refine (point0 V c t _ y0 y1 p q hp hq).trans ?_
  rw [h0, Cert.KPay.k0_pay1_apply]
  rfl

/-- A later block adds its 1024 terms to the total of the blocks before it. -/
theorem laterVal0 (V : (c : Dev nD) → (b : Ref sig .tc) → Buf (Elt Ideal) ((c : Thread nD τ).loc b)) (c : Dev nD)
    (t : Fin cfg0.N) (m : ℕ) (hm : t.val % 8 = m + 1) (prev : Vec Ideal S1024x2048 .f32) (y0 : Fin 1024) (y1 : Fin 2048)
    (p q : Fin 8192) (hp : p.val = (t.val / 32) * 1024 + y0.val) (hq : q.val = (t.val / 8 % 4) * 2048 + y1.val)
    (hprev : prev (ix2 y0 y1)
      = Cert.Spec.accum (fun kb => ∑ kk : Fin 1024, term0 (V c main_v0) (V c main_v1) p q (kb * 1024 + kk.val)) m) :
    k0_pay2 (F := Ideal) prev (blk0 V c 0 t) (blk0 V c 1 t) (ix2 y0 y1)
      = Cert.Spec.accum (fun kb => ∑ kk : Fin 1024, term0 (V c main_v0) (V c main_v1) p q (kb * 1024 + kk.val)) (t.val % 8) := by
  refine (point0 V c t prev y0 y1 p q hp hq).trans ?_
  rw [hm, hprev]
  rfl

/-- THE RUNNING TOTAL after position `n`, at an entry: blocks 0 to `n % 8` of the entry's contraction accumulated
    one after the other onto zero. By induction on the position. -/
theorem acc0_eq (V : (c : Dev nD) → (b : Ref sig .tc) → Buf (Elt Ideal) ((c : Thread nD τ).loc b)) (c : Dev nD) :
    ∀ (n : ℕ) (hn : n < cfg0.N) (y0 : Fin 1024) (y1 : Fin 2048) (p q : Fin 8192),
      p.val = (n / 32) * 1024 + y0.val → q.val = (n / 8 % 4) * 2048 + y1.val →
      (outsAt0 (F := Ideal) V c n hn).2 (ix2 y0 y1)
        = Cert.Spec.accum (fun kb => ∑ kk : Fin 1024, term0 (V c main_v0) (V c main_v1) p q (kb * 1024 + kk.val)) (n % 8) := by
  intro n
  induction n with
  | zero =>
    intro hn y0 y1 p q hp hq
    rw [show outsAt0 V c 0 hn = _ from outsAt0_first V c ⟨0, hn⟩ (Nat.zero_mod 8)]
    dsimp only
    rw [accFirst0_eq c ⟨0, hn⟩ _ _ (blk0 V c 0 ⟨0, hn⟩) (blk0 V c 1 ⟨0, hn⟩)]
    exact firstVal0 V c ⟨0, hn⟩ (Nat.zero_mod 8) y0 y1 p q hp hq
  | succ n ih =>
    intro hn y0 y1 p q hp hq
    by_cases h0 : (n + 1) % 8 = 0
    · rw [show outsAt0 V c (n + 1) hn = _ from outsAt0_first V c ⟨n + 1, hn⟩ h0]
      dsimp only
      rw [accFirst0_eq c ⟨n + 1, hn⟩ _ _ (blk0 V c 0 ⟨n + 1, hn⟩) (blk0 V c 1 ⟨n + 1, hn⟩)]
      exact firstVal0 V c ⟨n + 1, hn⟩ h0 y0 y1 p q hp hq
    · have hpp : p.val = (n / 32) * 1024 + y0.val := by omega
      have hqp : q.val = (n / 8 % 4) * 2048 + y1.val := by omega
      have hm : (n + 1) % 8 = n % 8 + 1 := by omega
      have ihv := ih (Nat.lt_of_succ_lt hn) y0 y1 p q hpp hqp
      by_cases h1 : (n + 1) % 8 = 7
      · rw [show outsAt0 V c (n + 1) hn = _ from outsAt0_last V c ⟨n + 1, hn⟩ h0 h1]
        dsimp only
        rw [accLast0_eq c ⟨n + 1, hn⟩ _ _ (blk0 V c 0 ⟨n + 1, hn⟩) (blk0 V c 1 ⟨n + 1, hn⟩)]
        exact laterVal0 V c ⟨n + 1, hn⟩ (n % 8) hm _ y0 y1 p q hp hq ihv
      · rw [show outsAt0 V c (n + 1) hn = _ from outsAt0_mid V c ⟨n + 1, hn⟩ h0 h1]
        dsimp only
        rw [accMid0_eq c ⟨n + 1, hn⟩ _ _ (blk0 V c 0 ⟨n + 1, hn⟩) (blk0 V c 1 ⟨n + 1, hn⟩)]
        exact laterVal0 V c ⟨n + 1, hn⟩ (n % 8) hm _ y0 y1 p q hp hq ihv

end Cert.KernelIdeal.Hand

end
-- ==== Proof.KiR0Value.lean ====
/-
  The first product, adj = att · inp: the value of its result array.

  The result's buffer is written back at the last block of each contraction only, to rows 1024 · i … and columns
  2048 · j … of the result array. What it holds then is, at the entry (y0, y1), the eight blocks of the contraction for
  the result's entry (1024 i + y0, 2048 j + y1) accumulated one after the other onto zero: the whole sum over the 8192
  contracted positions (a change of float format is the identity on extended reals). The thirty-two write-backs'
  blocks tile the result array, so when the region is done the array holds, at (p, q), the sum over k of
  att(p, k) · inp(k, q).
-/
import proofs.«125243_j9740985828005_2_alg».proof.Proof.KiR0ValueAcc
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

variable (V : (c : Dev nD) → (b : Ref sig .tc) → Buf (Elt Ideal) ((c : Thread nD τ).loc b))

/-- The left array the region is entered with, as a function of its index. -/
abbrev left0 (c : Dev nD) : S8192x8192.Idx → EReal := V c main_v0
/-- The right array the region is entered with, as a function of its index. -/
abbrev right0 (c : Dev nD) : S8192x8192.Idx → EReal := V c main_v1

theorem xsize0_2 : ∀ t : Fin cfg0.N, win0_2.xsize (grid0.coords t) 0 = 1024 ∧ win0_2.xsize (grid0.coords t) 1 = 2048 :=
  (by decide +kernel : ∀ t : Fin grid0.N, win0_2.xsize (grid0.coords t) 0 = 1024 ∧ win0_2.xsize (grid0.coords t) 1 = 2048)

/-- The product as contents of the result array: entry (p, q) is the sum over k of att(p, k) · inp(k, q). -/
def adjArr (c : Dev nD) : S8192x8192.Idx → EReal :=
  fun x => ∑ k : Fin 8192, left0 V c (ix2 (x 0) k) * right0 V c (ix2 k (x 1))

/-- The result's block at point `t`, read at an entry, is the array at rows 1024 · (t / 32) … and columns 2048 · (t / 8 mod 4) …. -/
theorem blk0_2_read (G : S8192x8192.Idx → EReal) (t : Fin cfg0.N) (y0 : Fin 1024) (y1 : Fin 2048) (p q : Fin 8192)
    (hp : p.val = (t.val / 32) * 1024 + y0.val) (hq : q.val = (t.val / 8 % 4) * 2048 + y1.val) :
    (((cfg0.win 2).blk t).view.read (Elt Ideal) G : S1024x2048.Idx → EReal) (ix2 y0 y1) = G (ix2 p q) := by
  have hi := idx0_2 t
  rw [View.read_apply]
  show G _ = G _
  congr 1
  funext x
  apply Fin.ext
  match x with
  | ⟨0, _⟩ => show win0_2.index t 0 * 1024 + 1 * y0.val = p.val; rw [hi.1, hp]; omega
  | ⟨1, _⟩ => show win0_2.index t 1 * 2048 + 1 * y1.val = q.val; rw [hi.2, hq]; omega

/-- At the last block of a contraction the result's buffer holds, at each entry, the whole contraction. -/
theorem out0_eq (c : Dev nD) (t : Fin cfg0.N) (h7 : t.val % 8 = 7) (y0 : Fin 1024) (y1 : Fin 2048) (p q : Fin 8192)
    (hp : p.val = (t.val / 32) * 1024 + y0.val) (hq : q.val = (t.val / 8 % 4) * 2048 + y1.val) :
    (outsAt0 (F := Ideal) V c t.val t.isLt).1 (ix2 y0 y1)
      = ∑ k : Fin 8192, left0 V c (ix2 p k) * right0 V c (ix2 k q) := by
  have h0 : ¬t.val % 8 = 0 := by omega
  have hlt : t.val - 1 < cfg0.N := Nat.lt_of_le_of_lt (Nat.sub_le _ _) t.isLt
  have hprev := acc0_eq V c (t.val - 1) hlt y0 y1 p q (by omega) (by omega)
  rw [show (t.val - 1) % 8 = 6 from by omega] at hprev
  rw [outsAt0_last V c t h0 h7]
  dsimp only
  rw [outLast0_eq c t _ _ (blk0 V c 0 t) (blk0 V c 1 t)]
  refine (Cert.KPay.k0_pay3_apply _ _).trans ?_
  refine (laterVal0 V c t 6 h7 _ y0 y1 p q hp hq hprev).trans ?_
  rw [h7]
  exact (Cert.Spec.accum_blocks (term0 (V c main_v0) (V c main_v1) p q)).trans (sum_term0 _ _ p q)

/-- What a write-back writes is the product's block. -/
theorem flushed0_eq (c : Dev nD) (t : Fin cfg0.N) (hf : (cfg0.win 2).flush t = true) :
    (dat0 V c).flushed 2 t = ((cfg0.win 2).blk t).view.read (Elt Ideal) (adjArr V c) := by
  have h7 : t.val % 8 = 7 := (flush0_2 t).mp hf
  have ht : t.val < 256 := lt_of_lt_of_eq t.isLt N_0
  show (cfg0.win 2).cut (grid0.coords t) ((dat0 V c).after 2 t) = _
  rw [after0_2]
  funext y
  obtain ⟨y0, y1, rfl⟩ : ∃ (a : Fin 1024) (b : Fin 2048), y = ix2 a b := ⟨y 0, y 1, eq_ix2 y⟩
  have hpl : (t.val / 32) * 1024 + y0.val < 8192 := by have := y0.isLt; omega
  have hql : (t.val / 8 % 4) * 2048 + y1.val < 8192 := by have := y1.isLt; omega
  refine (out0_eq V c t h7 y0 y1 ⟨_, hpl⟩ ⟨_, hql⟩ rfl rfl).trans ?_
  exact (blk0_2_read (adjArr V c) t y0 y1 ⟨_, hpl⟩ ⟨_, hql⟩ rfl rfl).symm

/-- THE FIRST PRODUCT'S VALUE: when the region is done its result array holds, at (p, q), the sum over k of
    att(p, k) · inp(k, q) of the arrays the region was entered with. The thirty-two write-backs' blocks cover the array. -/
theorem final0 (c : Dev nD) : (dat0 V c).arrAt 2 cfg0.N = adjArr V c :=
  (dat0 V c).arrAt_eq_of_cover 2 (adjArr V c) (flushed0_eq V c) fun i => by
    have h0 : (i 0 : Nat) < 8192 := (i 0).isLt
    have h1 : (i 1 : Nat) < 8192 := (i 1).isLt
    have hN : cfg0.N = 256 := N_0
    have htl : ((i 0 : Nat) / 1024 * 4 + (i 1 : Nat) / 2048) * 8 + 7 < cfg0.N := by rw [hN]; omega
    refine ⟨⟨((i 0 : Nat) / 1024 * 4 + (i 1 : Nat) / 2048) * 8 + 7, htl⟩, (flush0_2 _).mpr (by dsimp only; omega), ?_⟩
    show i ∈ ((View.whole main_v3).slice (win0_2.rect ⟨((i 0 : Nat) / 1024 * 4 + (i 1 : Nat) / 2048) * 8 + 7, htl⟩)).set
    rw [View.set_slice_whole, Rect.mem_set_unit]
    intro a
    have hi := idx0_2 ⟨((i 0 : Nat) / 1024 * 4 + (i 1 : Nat) / 2048) * 8 + 7, htl⟩
    have hx := xsize0_2 ⟨((i 0 : Nat) / 1024 * 4 + (i 1 : Nat) / 2048) * 8 + 7, htl⟩
    match a with
    | ⟨0, _⟩ =>
      show win0_2.index ⟨((i 0 : Nat) / 1024 * 4 + (i 1 : Nat) / 2048) * 8 + 7, htl⟩ 0 * 1024 ≤ (i 0 : Nat) ∧ (i 0 : Nat) < win0_2.index ⟨((i 0 : Nat) / 1024 * 4 + (i 1 : Nat) / 2048) * 8 + 7, htl⟩ 0 * 1024 + win0_2.xsize (grid0.coords ⟨((i 0 : Nat) / 1024 * 4 + (i 1 : Nat) / 2048) * 8 + 7, htl⟩) 0
      rw [hi.1, hx.1]; dsimp only; omega
    | ⟨1, _⟩ =>
      show win0_2.index ⟨((i 0 : Nat) / 1024 * 4 + (i 1 : Nat) / 2048) * 8 + 7, htl⟩ 1 * 2048 ≤ (i 1 : Nat) ∧ (i 1 : Nat) < win0_2.index ⟨((i 0 : Nat) / 1024 * 4 + (i 1 : Nat) / 2048) * 8 + 7, htl⟩ 1 * 2048 + win0_2.xsize (grid0.coords ⟨((i 0 : Nat) / 1024 * 4 + (i 1 : Nat) / 2048) * 8 + 7, htl⟩) 1
      rw [hi.2, hx.2]; dsimp only; omega

theorem val0 (c : Dev nD) (p q : Fin 8192) :
    (@id (S8192x8192.Idx → EReal) ((dat0 (F := Ideal) V c).arrAt 2 cfg0.N)) (ix2 p q)
      = ∑ k : Fin 8192, (@id (S8192x8192.Idx → EReal) (V c main_v0)) (ix2 p k) * (@id (S8192x8192.Idx → EReal) (V c main_v1)) (ix2 k q) :=
  congrFun (final0 V c) (ix2 p q)

end Cert.KernelIdeal.Hand

end
-- ==== Proof.KiR1ValuePieces.lean ====
/-
  The second product, tmp = adjᵀ · embs: what each case of a grid point leaves, as a value.

  A point of the 8 × 8 grid works on the 1024 × 256 running total of one block of rows of the result. The total it
  leaves is one accumulation step: the total it found (the zero block, at the first block of a contraction) plus the
  product of the adjacency block it was handed, transposed, with the 1024 rows of the embedding array that belong to
  the same block of the contraction. At the last block of a contraction the result's buffer receives that total with
  its float format changed.
-/
import proofs.«125243_j9740985828005_2_alg».proof.Proof.KiR1Data
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

/-- The zero offsets, as the constant function. -/
theorem hz1 : (![0, 0] : Fin 2 → Nat) = fun _ => 0 := funext fun a => by fin_cases a <;> rfl

/-- The 1024 rows of the embedding array a point loads: the rows of its block of the contraction. -/
abbrev slab1 (i : grid1.Coords) (x1 : Vec F S8192x256 .bf16) : Vec F S1024x256 .bf16 :=
  View.ld x1 (Rect.unit (s := S8192x256) (k1_off1 i) S1024x256.size (k1_off1_inb i))

/-- A middle block: the total found plus this block's product. -/
theorem accMid1_eq (c : Dev nD) (t : Fin cfg1.N) (hf : ¬first1 (grid1.coords t)) (hl : ¬last1 (grid1.coords t))
    (x0 : Vec F S1024x1024 .bf16) (x1 : Vec F S8192x256 .bf16) (xs : Vec F S1024x256 .f32) :
    accMid1 c t hf hl x0 x1 xs = k1_pay2 (slab1 (grid1.coords t) x1) x0 xs := by
  unfold accMid1
  rw [View.read_writes_eq_canon _ _ _ (accCoverMid1 c t hf hl x0 x1 xs)]
  unfold run1_mid
  dsimp only
  rw [View.canon_unit_zero hz1]
  simp only [View.readAt_eq_ld, (hs1_0 t).read_unread, (hs1_1 t).read_unread,
    (Memref.isWhole_whole cc1_scratch0).read_unread, View.ld_unit_zero (S := S1024x1024) hz1,
    View.ld_unit_zero (S := S1024x256) hz1]

/-- The first block of a contraction: the zero block plus this block's product (the zero block is stored, read
    back, and added to). -/
theorem accFirst1_eq (c : Dev nD) (t : Fin cfg1.N) (hf : first1 (grid1.coords t)) (hl : ¬last1 (grid1.coords t))
    (x0 : Vec F S1024x1024 .bf16) (x1 : Vec F S8192x256 .bf16) :
    accFirst1 c t hf hl x0 x1 = k1_pay2 (slab1 (grid1.coords t) x1) x0 (k1_pay1 (F := F)) := by
  unfold accFirst1
  rw [View.read_writes_eq_canon _ _ _ (accCoverFirst1 c t hf hl x0 x1)]
  unfold run1_first
  dsimp only
  sl_unfold_words
  rw [View.canon_cons_unit_zero (S := S1024x256) hz1, View.readCov_unit_zero (S := S1024x256) _ hz1]
  simp only [View.readAt_eq_ld, (hs1_0 t).read_unread, (hs1_1 t).read_unread, View.ld_unit_zero (S := S1024x1024) hz1,
    View.ld_unit_zero (S := S1024x256) hz1]
  rfl

/-- The last block of a contraction leaves, in the accumulator, the total found plus this block's product … -/
theorem accLast1_eq (c : Dev nD) (t : Fin cfg1.N) (hf : ¬first1 (grid1.coords t)) (hl : last1 (grid1.coords t))
    (x0 : Vec F S1024x1024 .bf16) (x1 : Vec F S8192x256 .bf16) (xs : Vec F S1024x256 .f32) :
    accLast1 c t hf hl x0 x1 xs = k1_pay2 (slab1 (grid1.coords t) x1) x0 xs := by
  unfold accLast1
  rw [View.read_writes_eq_canon _ _ _ (accCoverLast1 c t hf hl x0 x1 xs)]
  unfold run1_last
  dsimp only
  sl_unfold_words
  rw [View.canon_unit_zero hz1]
  simp only [View.readAt_eq_ld, (hs1_0 t).read_unread, (hs1_1 t).read_unread,
    (Memref.isWhole_whole cc1_scratch0).read_unread, View.ld_unit_zero (S := S1024x1024) hz1,
    View.ld_unit_zero (S := S1024x256) hz1]
  rfl

/-- … and, in the result's buffer, that total with its float format changed. -/
theorem outLast1_eq (c : Dev nD) (t : Fin cfg1.N) (hf : ¬first1 (grid1.coords t)) (hl : last1 (grid1.coords t))
    (x0 : Vec F S1024x1024 .bf16) (x1 : Vec F S8192x256 .bf16) (xs : Vec F S1024x256 .f32) :
    outLast1 c t hf hl x0 x1 xs = k1_pay3 (k1_pay2 (slab1 (grid1.coords t) x1) x0 xs) := by
  unfold outLast1
  rw [View.read_writes_eq_canon _ _ _ (outCoverLast1 c t hf hl x0 x1 xs)]
  unfold run1_last
  dsimp only
  sl_unfold_words
  rw [View.canon_unit_zero hz1, View.readCov_unit_zero (S := S1024x256) _ hz1]
  simp only [View.readAt_eq_ld, (hs1_0 t).read_unread, (hs1_1 t).read_unread,
    (Memref.isWhole_whole cc1_scratch0).read_unread, View.ld_unit_zero (S := S1024x1024) hz1,
    View.ld_unit_zero (S := S1024x256) hz1]
  rfl

end Cert.KernelIdeal.Hand

end
-- ==== Proof.KiR1ValueAcc.lean ====
/-
  The second product, tmp = adjᵀ · embs: the running total, entry by entry, at the extended reals.

  Grid point t = 8 · i + k works on rows 1024 · i … of the result and on block k of the contraction. The adjacency
  block it is handed is rows 1024 · k … and columns 1024 · i … of the adjacency array; the embedding array is resident
  whole, and the point reads its rows 1024 · k …. So the total the point leaves at the entry (y0, y1) is the total it
  found plus the 1024 terms adj(1024 k + kk, 1024 i + y0) · embs(1024 k + kk, y1) of the contraction for the result's
  entry (1024 i + y0, y1); the first block starts from zero. By induction on the position, the total after point t is
  the accumulation of blocks 0 to k of that contraction.
-/
import proofs.«125243_j9740985828005_2_alg».proof.Proof.KiR1ValuePieces
import proofs.«125243_j9740985828005_2_alg».proof.Proof.KPay
import proofs.«125243_j9740985828005_2_alg».proof.Proof.KAccum
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

theorem idx1_0 : ∀ t : Fin cfg1.N, win1_0.index t 0 = t.val % 8 ∧ win1_0.index t 1 = t.val / 8 :=
  (by decide +kernel : ∀ t : Fin grid1.N, win1_0.index t 0 = t.val % 8 ∧ win1_0.index t 1 = t.val / 8)
theorem idx1_1 : ∀ t : Fin cfg1.N, win1_1.index t 0 = 0 ∧ win1_1.index t 1 = 0 :=
  (by decide +kernel : ∀ t : Fin grid1.N, win1_1.index t 0 = 0 ∧ win1_1.index t 1 = 0)
theorem idx1_2 : ∀ t : Fin cfg1.N, win1_2.index t 0 = t.val / 8 ∧ win1_2.index t 1 = 0 :=
  (by decide +kernel : ∀ t : Fin grid1.N, win1_2.index t 0 = t.val / 8 ∧ win1_2.index t 1 = 0)
theorem coord1_1 : ∀ t : Fin cfg1.N, ((grid1.coords t) 1).val = t.val % 8 :=
  (by decide +kernel : ∀ t : Fin grid1.N, ((grid1.coords t) 1).val = t.val % 8)

theorem blk1_0_apply (c : Dev nD) (t : Fin cfg1.N) (a b : Fin 1024) (r q : Fin 8192)
    (hr : r.val = (t.val % 8) * 1024 + a.val) (hq : q.val = (t.val / 8) * 1024 + b.val) :
    (blk1 V c 0 t : Vec F S1024x1024 .bf16) (ix2 a b) = (V c main_v3 : S8192x8192.Idx → Elt F .bf16) (ix2 r q) := by
  have hi := idx1_0 t
  unfold blk1
  rw [View.read_apply]
  show V c main_v3 _ = V c main_v3 _
  congr 1
  funext x
  apply Fin.ext
  match x with
  | ⟨0, _⟩ => show win1_0.index t 0 * 1024 + 1 * a.val = r.val; rw [hi.1, hr]; omega
  | ⟨1, _⟩ => show win1_0.index t 1 * 1024 + 1 * b.val = q.val; rw [hi.2, hq]; omega

theorem blk1_1_apply (c : Dev nD) (t : Fin cfg1.N) (a : Fin 8192) (b : Fin 256) :
    (blk1 V c 1 t : Vec F S8192x256 .bf16) (ix2 a b) = (V c main_v2 : S8192x256.Idx → Elt F .bf16) (ix2 a b) := by
  have hi := idx1_1 t
  unfold blk1
  rw [View.read_apply]
  show V c main_v2 _ = V c main_v2 _
  congr 1
  funext x
  apply Fin.ext
  match x with
  | ⟨0, _⟩ => show win1_1.index t 0 * 8192 + 1 * a.val = a.val; rw [hi.1]; omega
  | ⟨1, _⟩ => show win1_1.index t 1 * 256 + 1 * b.val = b.val; rw [hi.2]; omega

theorem slab1_apply (i : grid1.Coords) (x1 : Vec F S8192x256 .bf16) (kk : Fin 1024) (y1 : Fin 256) (r : Fin 8192)
    (hr : r.val = (i 1).val * 1024 + kk.val) : slab1 i x1 (ix2 kk y1) = x1 (ix2 r y1) := by
  show x1 _ = x1 _
  congr 1
  funext x
  apply Fin.ext
  match x with
  | ⟨0, _⟩ =>
    show k1_off1 i 0 + 1 * kk.val = r.val
    rw [k1_off1_eq i, hr]; show 1024 * (i 1).val + 1 * kk.val = _; omega
  | ⟨1, _⟩ =>
    show k1_off1 i 1 + 1 * y1.val = y1.val
    rw [k1_off1_eq i]; show 0 + 1 * y1.val = _; omega

/-! ## The accumulation at the extended reals -/

/-- One term of the contraction, as a function of the position along it (zero past the end, where nothing reads). -/
def term1 (A : S8192x8192.Idx → EReal) (E : S8192x256.Idx → EReal) (j : Fin 8192) (d : Fin 256) (n : ℕ) : EReal :=
  if h : n < 8192 then A (ix2 ⟨n, h⟩ j) * E (ix2 ⟨n, h⟩ d) else 0

theorem term1_of_lt (A : S8192x8192.Idx → EReal) (E : S8192x256.Idx → EReal) (j : Fin 8192) (d : Fin 256) (n : ℕ)
    (h : n < 8192) : term1 A E j d n = A (ix2 ⟨n, h⟩ j) * E (ix2 ⟨n, h⟩ d) := dif_pos h

/-- Summed over all positions, the terms are the contraction. -/
theorem sum_term1 (A : S8192x8192.Idx → EReal) (E : S8192x256.Idx → EReal) (j : Fin 8192) (d : Fin 256) :
    ∑ k : Fin 8192, term1 A E j d k.val = ∑ k : Fin 8192, A (ix2 k j) * E (ix2 k d) :=
  Finset.sum_congr rfl fun k _ => term1_of_lt A E j d k.val k.isLt

/-- One accumulation step at an entry, the two blocks read as entries of the arrays they are blocks of: the total
    there plus block `kb`'s 1024 terms of the contraction. -/
theorem step1 (A : S8192x8192.Idx → EReal) (E : S8192x256.Idx → EReal)
    (x0 : Vec Ideal S1024x1024 .bf16) (x1 : Vec Ideal S8192x256 .bf16) (acc : Vec Ideal S1024x256 .f32)
    (i : grid1.Coords) (kb : ℕ) (hkb : (i 1).val = kb) (hkb8 : kb < 8)
    (y0 : Fin 1024) (y1 : Fin 256) (j : Fin 8192)
    (h0 : ∀ (kk : Fin 1024) (r : Fin 8192), r.val = kb * 1024 + kk.val → x0 (ix2 kk y0) = A (ix2 r j))
    (h1 : ∀ r : Fin 8192, x1 (ix2 r y1) = E (ix2 r y1)) :
    k1_pay2 (F := Ideal) (slab1 i x1) x0 acc (ix2 y0 y1)
      = acc (ix2 y0 y1) + ∑ kk : Fin 1024, term1 A E j y1 (kb * 1024 + kk.val) := by
  refine (Cert.KPay.k1_pay2_apply (slab1 i x1) x0 acc y0 y1).trans ?_
  congr 1
  refine Finset.sum_congr rfl fun kk _ => ?_
  have hlt : kb * 1024 + kk.val < 8192 := by have := kk.isLt; omega
  rw [term1_of_lt A E j y1 _ hlt, h0 kk ⟨_, hlt⟩ rfl, slab1_apply i x1 kk y1 ⟨_, hlt⟩ (by rw [hkb]), h1]

/-- The same at grid point `t`, on the blocks the point is handed. -/
theorem point1 (V : (c : Dev nD) → (b : Ref sig .tc) → Buf (Elt Ideal) ((c : Thread nD τ).loc b)) (c : Dev nD)
    (t : Fin cfg1.N) (acc : Vec Ideal S1024x256 .f32) (y0 : Fin 1024) (y1 : Fin 256) (j : Fin 8192)
    (hj : j.val = (t.val / 8) * 1024 + y0.val) :
    k1_pay2 (F := Ideal) (slab1 (grid1.coords t) (blk1 V c 1 t)) (blk1 V c 0 t) acc (ix2 y0 y1)
      = acc (ix2 y0 y1) + ∑ kk : Fin 1024, term1 (V c main_v3) (V c main_v2) j y1 ((t.val % 8) * 1024 + kk.val) :=
  step1 (V c main_v3) (V c main_v2) (blk1 V c 0 t) (blk1 V c 1 t) acc (grid1.coords t) (t.val % 8) (coord1_1 t)
    (Nat.mod_lt _ (by decide)) y0 y1 j (fun kk r hr => blk1_0_apply V c t kk y0 r j hr hj) (fun r => blk1_1_apply V c t r y1)

/-- The first block of a contraction leaves zero plus block 0. -/
theorem firstVal1 (V : (c : Dev nD) → (b : Ref sig .tc) → Buf (Elt Ideal) ((c : Thread nD τ).loc b)) (c : Dev nD)
    (t : Fin cfg1.N) (h0 : t.val % 8 = 0) (y0 : Fin 1024) (y1 : Fin 256) (j : Fin 8192)
    (hj : j.val = (t.val / 8) * 1024 + y0.val) :
    k1_pay2 (F := Ideal) (slab1 (grid1.coords t) (blk1 V c 1 t)) (blk1 V c 0 t) (k1_pay1 (F := Ideal)) (ix2 y0 y1)
      = Cert.Spec.accum (fun kb => ∑ kk : Fin 1024, term1 (V c main_v3) (V c main_v2) j y1 (kb * 1024 + kk.val)) (t.val % 8) := by
  refine (point1 V c t _ y0 y1 j hj).trans ?_
  rw [h0, Cert.KPay.k1_pay1_apply]
  rfl

/-- A later block adds its 1024 terms to the total of the blocks before it. -/
theorem laterVal1 (V : (c : Dev nD) → (b : Ref sig .tc) → Buf (Elt Ideal) ((c : Thread nD τ).loc b)) (c : Dev nD)
    (t : Fin cfg1.N) (m : ℕ) (hm : t.val % 8 = m + 1) (prev : Vec Ideal S1024x256 .f32) (y0 : Fin 1024) (y1 : Fin 256)
    (j : Fin 8192) (hj : j.val = (t.val / 8) * 1024 + y0.val)
    (hprev : prev (ix2 y0 y1)
      = Cert.Spec.accum (fun kb => ∑ kk : Fin 1024, term1 (V c main_v3) (V c main_v2) j y1 (kb * 1024 + kk.val)) m) :
    k1_pay2 (F := Ideal) (slab1 (grid1.coords t) (blk1 V c 1 t)) (blk1 V c 0 t) prev (ix2 y0 y1)
      = Cert.Spec.accum (fun kb => ∑ kk : Fin 1024, term1 (V c main_v3) (V c main_v2) j y1 (kb * 1024 + kk.val)) (t.val % 8) := by
  refine (point1 V c t prev y0 y1 j hj).trans ?_
  rw [hm, hprev]
  rfl

/-- THE RUNNING TOTAL after position `n`, at an entry: blocks 0 to `n % 8` of the entry's contraction accumulated
    one after the other onto zero. By induction on the position. -/
theorem acc1_eq (V : (c : Dev nD) → (b : Ref sig .tc) → Buf (Elt Ideal) ((c : Thread nD τ).loc b)) (c : Dev nD) :
    ∀ (n : ℕ) (hn : n < cfg1.N) (y0 : Fin 1024) (y1 : Fin 256) (j : Fin 8192), j.val = (n / 8) * 1024 + y0.val →
      (outsAt1 (F := Ideal) V c n hn).2 (ix2 y0 y1)
        = Cert.Spec.accum (fun kb => ∑ kk : Fin 1024, term1 (V c main_v3) (V c main_v2) j y1 (kb * 1024 + kk.val)) (n % 8) := by
  intro n
  induction n with
  | zero =>
    intro hn y0 y1 j hj
    rw [show outsAt1 V c 0 hn = _ from outsAt1_first V c ⟨0, hn⟩ (Nat.zero_mod 8)]
    dsimp only
    rw [accFirst1_eq c ⟨0, hn⟩ _ _ (blk1 V c 0 ⟨0, hn⟩) (blk1 V c 1 ⟨0, hn⟩)]
    exact firstVal1 V c ⟨0, hn⟩ (Nat.zero_mod 8) y0 y1 j hj
  | succ n ih =>
    intro hn y0 y1 j hj
    by_cases h0 : (n + 1) % 8 = 0
    · rw [show outsAt1 V c (n + 1) hn = _ from outsAt1_first V c ⟨n + 1, hn⟩ h0]
      dsimp only
      rw [accFirst1_eq c ⟨n + 1, hn⟩ _ _ (blk1 V c 0 ⟨n + 1, hn⟩) (blk1 V c 1 ⟨n + 1, hn⟩)]
      exact firstVal1 V c ⟨n + 1, hn⟩ h0 y0 y1 j hj
    · have hprev : j.val = (n / 8) * 1024 + y0.val := by omega
      have hm : (n + 1) % 8 = n % 8 + 1 := by omega
      have ihv := ih (Nat.lt_of_succ_lt hn) y0 y1 j hprev
      by_cases h1 : (n + 1) % 8 = 7
      · rw [show outsAt1 V c (n + 1) hn = _ from outsAt1_last V c ⟨n + 1, hn⟩ h0 h1]
        dsimp only
        rw [accLast1_eq c ⟨n + 1, hn⟩ _ _ (blk1 V c 0 ⟨n + 1, hn⟩) (blk1 V c 1 ⟨n + 1, hn⟩)]
        exact laterVal1 V c ⟨n + 1, hn⟩ (n % 8) hm _ y0 y1 j hj ihv
      · rw [show outsAt1 V c (n + 1) hn = _ from outsAt1_mid V c ⟨n + 1, hn⟩ h0 h1]
        dsimp only
        rw [accMid1_eq c ⟨n + 1, hn⟩ _ _ (blk1 V c 0 ⟨n + 1, hn⟩) (blk1 V c 1 ⟨n + 1, hn⟩)]
        exact laterVal1 V c ⟨n + 1, hn⟩ (n % 8) hm _ y0 y1 j hj ihv

end Cert.KernelIdeal.Hand

end
-- ==== Proof.KiR1Value.lean ====
/-
  The second product, tmp = adjᵀ · embs: the value of its result array.

  The result's buffer is written back at the last block of each contraction only, to rows 1024 · i … of the result
  array. What it holds then is, at the entry (y0, y1), the eight blocks of the contraction for the result's entry
  (1024 i + y0, y1) accumulated one after the other onto zero: the whole sum over the 8192 contracted positions (a
  change of float format is the identity on extended reals). The eight write-backs' blocks tile the result array, so
  when the region is done the array holds, at (j, d), the sum over i of adj(i, j) · embs(i, d).
-/
import proofs.«125243_j9740985828005_2_alg».proof.Proof.KiR1ValueAcc
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

variable (V : (c : Dev nD) → (b : Ref sig .tc) → Buf (Elt Ideal) ((c : Thread nD τ).loc b))

/-- The adjacency array the region is entered with, as a function of its index. -/
abbrev adj1 (c : Dev nD) : S8192x8192.Idx → EReal := V c main_v3
/-- The embedding array the region is entered with, as a function of its index. -/
abbrev emb1 (c : Dev nD) : S8192x256.Idx → EReal := V c main_v2

theorem xsize1_2 : ∀ t : Fin cfg1.N, win1_2.xsize (grid1.coords t) 0 = 1024 ∧ win1_2.xsize (grid1.coords t) 1 = 256 :=
  (by decide +kernel : ∀ t : Fin grid1.N, win1_2.xsize (grid1.coords t) 0 = 1024 ∧ win1_2.xsize (grid1.coords t) 1 = 256)

/-- The product as contents of the result array: entry (j, d) is the sum over i of adj(i, j) · embs(i, d). -/
def tmpArr (c : Dev nD) : S8192x256.Idx → EReal :=
  fun x => ∑ i : Fin 8192, adj1 V c (ix2 i (x 0)) * emb1 V c (ix2 i (x 1))

/-- The result's block at point `t`, read at an entry, is the array at rows 1024 · (t / 8) …. -/
theorem blk1_2_read (G : S8192x256.Idx → EReal) (t : Fin cfg1.N) (y0 : Fin 1024) (y1 : Fin 256) (j : Fin 8192)
    (hj : j.val = (t.val / 8) * 1024 + y0.val) :
    (((cfg1.win 2).blk t).view.read (Elt Ideal) G : S1024x256.Idx → EReal) (ix2 y0 y1) = G (ix2 j y1) := by
  have hi := idx1_2 t
  rw [View.read_apply]
  show G _ = G _
  congr 1
  funext x
  apply Fin.ext
  match x with
  | ⟨0, _⟩ => show win1_2.index t 0 * 1024 + 1 * y0.val = j.val; rw [hi.1, hj]; omega
  | ⟨1, _⟩ => show win1_2.index t 1 * 256 + 1 * y1.val = y1.val; rw [hi.2]; omega

/-- At the last block of a contraction the result's buffer holds, at each entry, the whole contraction. -/
theorem out1_eq (c : Dev nD) (t : Fin cfg1.N) (h7 : t.val % 8 = 7) (y0 : Fin 1024) (y1 : Fin 256) (j : Fin 8192)
    (hj : j.val = (t.val / 8) * 1024 + y0.val) :
    (outsAt1 (F := Ideal) V c t.val t.isLt).1 (ix2 y0 y1)
      = ∑ i : Fin 8192, adj1 V c (ix2 i j) * emb1 V c (ix2 i y1) := by
  have h0 : ¬t.val % 8 = 0 := by omega
  have hlt : t.val - 1 < cfg1.N := Nat.lt_of_le_of_lt (Nat.sub_le _ _) t.isLt
  have hprev := acc1_eq V c (t.val - 1) hlt y0 y1 j (by omega)
  rw [show (t.val - 1) % 8 = 6 from by omega] at hprev
  rw [outsAt1_last V c t h0 h7]
  dsimp only
  rw [outLast1_eq c t _ _ (blk1 V c 0 t) (blk1 V c 1 t)]
  refine (Cert.KPay.k1_pay3_apply _ _).trans ?_
  refine (laterVal1 V c t 6 h7 _ y0 y1 j hj hprev).trans ?_
  rw [h7]
  exact (Cert.Spec.accum_blocks (term1 (V c main_v3) (V c main_v2) j y1)).trans (sum_term1 _ _ j y1)

/-- What a write-back writes is the product's block. -/
theorem flushed1_eq (c : Dev nD) (t : Fin cfg1.N) (hf : (cfg1.win 2).flush t = true) :
    (dat1 V c).flushed 2 t = ((cfg1.win 2).blk t).view.read (Elt Ideal) (tmpArr V c) := by
  have h7 : t.val % 8 = 7 := (flush1_2 t).mp hf
  have ht : t.val < 64 := lt_of_lt_of_eq t.isLt N_1
  show (cfg1.win 2).cut (grid1.coords t) ((dat1 V c).after 2 t) = _
  rw [after1_2]
  funext y
  obtain ⟨y0, y1, rfl⟩ : ∃ (a : Fin 1024) (b : Fin 256), y = ix2 a b := ⟨y 0, y 1, eq_ix2 y⟩
  have hjl : (t.val / 8) * 1024 + y0.val < 8192 := by have := y0.isLt; omega
  refine (out1_eq V c t h7 y0 y1 ⟨_, hjl⟩ rfl).trans ?_
  exact (blk1_2_read (tmpArr V c) t y0 y1 ⟨_, hjl⟩ rfl).symm

/-- THE SECOND PRODUCT'S VALUE: when the region is done its result array holds, at (j, d), the sum over i of
    adj(i, j) · embs(i, d) of the arrays the region was entered with. The eight write-backs' blocks (one per block
    of rows) cover the array. -/
theorem final1 (c : Dev nD) : (dat1 V c).arrAt 2 cfg1.N = tmpArr V c :=
  (dat1 V c).arrAt_eq_of_cover 2 (tmpArr V c) (flushed1_eq V c) fun i => by
    have h0 : (i 0 : Nat) < 8192 := (i 0).isLt
    have h1 : (i 1 : Nat) < 256 := (i 1).isLt
    have hN : cfg1.N = 64 := N_1
    have htl : (i 0 : Nat) / 1024 * 8 + 7 < cfg1.N := by rw [hN]; omega
    refine ⟨⟨(i 0 : Nat) / 1024 * 8 + 7, htl⟩, (flush1_2 _).mpr (by dsimp only; omega), ?_⟩
    show i ∈ ((View.whole main_v4).slice (win1_2.rect ⟨(i 0 : Nat) / 1024 * 8 + 7, htl⟩)).set
    rw [View.set_slice_whole, Rect.mem_set_unit]
    intro a
    have hi := idx1_2 ⟨(i 0 : Nat) / 1024 * 8 + 7, htl⟩
    have hx := xsize1_2 ⟨(i 0 : Nat) / 1024 * 8 + 7, htl⟩
    match a with
    | ⟨0, _⟩ =>
      show win1_2.index ⟨(i 0 : Nat) / 1024 * 8 + 7, htl⟩ 0 * 1024 ≤ (i 0 : Nat) ∧ (i 0 : Nat) < win1_2.index ⟨(i 0 : Nat) / 1024 * 8 + 7, htl⟩ 0 * 1024 + win1_2.xsize (grid1.coords ⟨(i 0 : Nat) / 1024 * 8 + 7, htl⟩) 0
      rw [hi.1, hx.1]; dsimp only; omega
    | ⟨1, _⟩ =>
      show win1_2.index ⟨(i 0 : Nat) / 1024 * 8 + 7, htl⟩ 1 * 256 ≤ (i 1 : Nat) ∧ (i 1 : Nat) < win1_2.index ⟨(i 0 : Nat) / 1024 * 8 + 7, htl⟩ 1 * 256 + win1_2.xsize (grid1.coords ⟨(i 0 : Nat) / 1024 * 8 + 7, htl⟩) 1
      rw [hi.2, hx.2]; omega

theorem val1 (c : Dev nD) (j : Fin 8192) (d : Fin 256) :
    (@id (S8192x256.Idx → EReal) ((dat1 (F := Ideal) V c).arrAt 2 cfg1.N)) (ix2 j d)
      = ∑ i : Fin 8192, (@id (S8192x8192.Idx → EReal) (V c main_v3)) (ix2 i j) * (@id (S8192x256.Idx → EReal) (V c main_v2)) (ix2 i d) :=
  congrFun (final1 V c) (ix2 j d)

end Cert.KernelIdeal.Hand

end
-- ==== Proof.KiR2ValuePieces.lean ====
/-
  The third product, adj · tmp followed by the leaky rectifier: what each case of a grid point leaves, as a value.

  A point of the 8 × 8 grid works on the 1024 × 256 running total of one block of rows of the result. The total it
  leaves is one accumulation step: the total it found (the zero block, at the first block of a contraction) plus the
  product of the adjacency block it was handed with the 1024 rows of the second product's result that belong to
  the same block of the contraction. At the last block of a contraction the result's buffer receives the leaky rectifier of that total.
-/
import proofs.«125243_j9740985828005_2_alg».proof.Proof.KiR2Data
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

/-- The zero offsets, as the constant function. -/
theorem hz2 : (![0, 0] : Fin 2 → Nat) = fun _ => 0 := funext fun a => by fin_cases a <;> rfl

/-- The 1024 rows of the second product's result a point loads: the rows of its block of the contraction. -/
abbrev slab2 (i : grid2.Coords) (x1 : Vec F S8192x256 .bf16) : Vec F S1024x256 .bf16 :=
  View.ld x1 (Rect.unit (s := S8192x256) (k2_off1 i) S1024x256.size (k2_off1_inb i))

/-- A middle block: the total found plus this block's product. -/
theorem accMid2_eq (c : Dev nD) (t : Fin cfg2.N) (hf : ¬first2 (grid2.coords t)) (hl : ¬last2 (grid2.coords t))
    (x0 : Vec F S1024x1024 .bf16) (x1 : Vec F S8192x256 .bf16) (xs : Vec F S1024x256 .f32) :
    accMid2 c t hf hl x0 x1 xs = k2_pay2 (slab2 (grid2.coords t) x1) xs x0 := by
  unfold accMid2
  rw [View.read_writes_eq_canon _ _ _ (accCoverMid2 c t hf hl x0 x1 xs)]
  unfold run2_mid
  dsimp only
  rw [View.canon_unit_zero hz2]
  simp only [View.readAt_eq_ld, (hs2_0 t).read_unread, (hs2_1 t).read_unread,
    (Memref.isWhole_whole cc2_scratch0).read_unread, View.ld_unit_zero (S := S1024x1024) hz2,
    View.ld_unit_zero (S := S1024x256) hz2]

/-- The first block of a contraction: the zero block plus this block's product (the zero block is stored, read
    back, and added to). -/
theorem accFirst2_eq (c : Dev nD) (t : Fin cfg2.N) (hf : first2 (grid2.coords t)) (hl : ¬last2 (grid2.coords t))
    (x0 : Vec F S1024x1024 .bf16) (x1 : Vec F S8192x256 .bf16) :
    accFirst2 c t hf hl x0 x1 = k2_pay2 (slab2 (grid2.coords t) x1) (k2_pay1 (F := F)) x0 := by
  unfold accFirst2
  rw [View.read_writes_eq_canon _ _ _ (accCoverFirst2 c t hf hl x0 x1)]
  unfold run2_first
  dsimp only
  sl_unfold_words
  rw [View.canon_cons_unit_zero (S := S1024x256) hz2, View.readCov_unit_zero (S := S1024x256) _ hz2]
  simp only [View.readAt_eq_ld, (hs2_0 t).read_unread, (hs2_1 t).read_unread, View.ld_unit_zero (S := S1024x1024) hz2,
    View.ld_unit_zero (S := S1024x256) hz2]
  rfl

/-- The last block of a contraction leaves, in the accumulator, the total found plus this block's product … -/
theorem accLast2_eq (c : Dev nD) (t : Fin cfg2.N) (hf : ¬first2 (grid2.coords t)) (hl : last2 (grid2.coords t))
    (x0 : Vec F S1024x1024 .bf16) (x1 : Vec F S8192x256 .bf16) (xs : Vec F S1024x256 .f32) :
    accLast2 c t hf hl x0 x1 xs = k2_pay2 (slab2 (grid2.coords t) x1) xs x0 := by
  unfold accLast2
  rw [View.read_writes_eq_canon _ _ _ (accCoverLast2 c t hf hl x0 x1 xs)]
  unfold run2_last
  dsimp only
  sl_unfold_words
  rw [View.canon_unit_zero hz2]
  simp only [View.readAt_eq_ld, (hs2_0 t).read_unread, (hs2_1 t).read_unread,
    (Memref.isWhole_whole cc2_scratch0).read_unread, View.ld_unit_zero (S := S1024x1024) hz2,
    View.ld_unit_zero (S := S1024x256) hz2]
  rfl

/-- … and, in the result's buffer, the leaky rectifier of that total. -/
theorem outLast2_eq (c : Dev nD) (t : Fin cfg2.N) (hf : ¬first2 (grid2.coords t)) (hl : last2 (grid2.coords t))
    (x0 : Vec F S1024x1024 .bf16) (x1 : Vec F S8192x256 .bf16) (xs : Vec F S1024x256 .f32) :
    outLast2 c t hf hl x0 x1 xs = k2_pay3 (k2_pay2 (slab2 (grid2.coords t) x1) xs x0) := by
  unfold outLast2
  rw [View.read_writes_eq_canon _ _ _ (outCoverLast2 c t hf hl x0 x1 xs)]
  unfold run2_last
  dsimp only
  sl_unfold_words
  rw [View.canon_unit_zero hz2, View.readCov_unit_zero (S := S1024x256) _ hz2]
  simp only [View.readAt_eq_ld, (hs2_0 t).read_unread, (hs2_1 t).read_unread,
    (Memref.isWhole_whole cc2_scratch0).read_unread, View.ld_unit_zero (S := S1024x1024) hz2,
    View.ld_unit_zero (S := S1024x256) hz2]
  rfl

end Cert.KernelIdeal.Hand

end
-- ==== Proof.KiR2ValueAcc.lean ====
/-
  The third product, pre = adj · tmp: the running total, entry by entry, at the extended reals.

  Grid point t = 8 · i + k works on rows 1024 · i … of the result and on block k of the contraction. The adjacency
  block it is handed is rows 1024 · i … and columns 1024 · k … of the adjacency array; the array tmp is resident
  whole, and the point reads its rows 1024 · k …. So the total the point leaves at the entry (y0, y1) is the total it
  found plus the 1024 terms adj(1024 i + y0, 1024 k + kk) · tmp(1024 k + kk, y1) of the contraction for the result's
  entry (1024 i + y0, y1); the first block starts from zero. By induction on the position, the total after point t is
  the accumulation of blocks 0 to k of that contraction.
-/
import proofs.«125243_j9740985828005_2_alg».proof.Proof.KiR2ValuePieces
import proofs.«125243_j9740985828005_2_alg».proof.Proof.KPay
import proofs.«125243_j9740985828005_2_alg».proof.Proof.KAccum
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

theorem idx2_0 : ∀ t : Fin cfg2.N, win2_0.index t 0 = t.val / 8 ∧ win2_0.index t 1 = t.val % 8 :=
  (by decide +kernel : ∀ t : Fin grid2.N, win2_0.index t 0 = t.val / 8 ∧ win2_0.index t 1 = t.val % 8)
theorem idx2_1 : ∀ t : Fin cfg2.N, win2_1.index t 0 = 0 ∧ win2_1.index t 1 = 0 :=
  (by decide +kernel : ∀ t : Fin grid2.N, win2_1.index t 0 = 0 ∧ win2_1.index t 1 = 0)
theorem idx2_2 : ∀ t : Fin cfg2.N, win2_2.index t 0 = t.val / 8 ∧ win2_2.index t 1 = 0 :=
  (by decide +kernel : ∀ t : Fin grid2.N, win2_2.index t 0 = t.val / 8 ∧ win2_2.index t 1 = 0)
theorem coord2_1 : ∀ t : Fin cfg2.N, ((grid2.coords t) 1).val = t.val % 8 :=
  (by decide +kernel : ∀ t : Fin grid2.N, ((grid2.coords t) 1).val = t.val % 8)

/-- The adjacency block at point `t`, read at an entry, is the array at rows 1024 · (t / 8) …, columns 1024 · (t % 8) …. -/
theorem blk2_0_apply (c : Dev nD) (t : Fin cfg2.N) (a b : Fin 1024) (r q : Fin 8192)
    (hr : r.val = (t.val / 8) * 1024 + a.val) (hq : q.val = (t.val % 8) * 1024 + b.val) :
    (blk2 V c 0 t : Vec F S1024x1024 .bf16) (ix2 a b) = (V c main_v3 : S8192x8192.Idx → Elt F .bf16) (ix2 r q) := by
  have hi := idx2_0 t
  unfold blk2
  rw [View.read_apply]
  show V c main_v3 _ = V c main_v3 _
  congr 1
  funext x
  apply Fin.ext
  match x with
  | ⟨0, _⟩ => show win2_0.index t 0 * 1024 + 1 * a.val = r.val; rw [hi.1, hr]; omega
  | ⟨1, _⟩ => show win2_0.index t 1 * 1024 + 1 * b.val = q.val; rw [hi.2, hq]; omega

/-- The resident array's block is the whole array. -/
theorem blk2_1_apply (c : Dev nD) (t : Fin cfg2.N) (a : Fin 8192) (b : Fin 256) :
    (blk2 V c 1 t : Vec F S8192x256 .bf16) (ix2 a b) = (V c main_v4 : S8192x256.Idx → Elt F .bf16) (ix2 a b) := by
  have hi := idx2_1 t
  unfold blk2
  rw [View.read_apply]
  show V c main_v4 _ = V c main_v4 _
  congr 1
  funext x
  apply Fin.ext
  match x with
  | ⟨0, _⟩ => show win2_1.index t 0 * 8192 + 1 * a.val = a.val; rw [hi.1]; omega
  | ⟨1, _⟩ => show win2_1.index t 1 * 256 + 1 * b.val = b.val; rw [hi.2]; omega

/-- The rows a point loads of the resident array are rows 1024 · k … for its block k of the contraction. -/
theorem slab2_apply (i : grid2.Coords) (x1 : Vec F S8192x256 .bf16) (kk : Fin 1024) (y1 : Fin 256) (r : Fin 8192)
    (hr : r.val = (i 1).val * 1024 + kk.val) : slab2 i x1 (ix2 kk y1) = x1 (ix2 r y1) := by
  show x1 _ = x1 _
  congr 1
  funext x
  apply Fin.ext
  match x with
  | ⟨0, _⟩ =>
    show k2_off1 i 0 + 1 * kk.val = r.val
    rw [k2_off1_eq i, hr]; show 1024 * (i 1).val + 1 * kk.val = _; omega
  | ⟨1, _⟩ =>
    show k2_off1 i 1 + 1 * y1.val = y1.val
    rw [k2_off1_eq i]; show 0 + 1 * y1.val = _; omega

/-! ## The accumulation at the extended reals -/

/-- One term of the contraction, as a function of the position along it (zero past the end, where nothing reads). -/
def term2 (A : S8192x8192.Idx → EReal) (T : S8192x256.Idx → EReal) (r : Fin 8192) (d : Fin 256) (n : ℕ) : EReal :=
  if h : n < 8192 then A (ix2 r ⟨n, h⟩) * T (ix2 ⟨n, h⟩ d) else 0

theorem term2_of_lt (A : S8192x8192.Idx → EReal) (T : S8192x256.Idx → EReal) (r : Fin 8192) (d : Fin 256) (n : ℕ)
    (h : n < 8192) : term2 A T r d n = A (ix2 r ⟨n, h⟩) * T (ix2 ⟨n, h⟩ d) := dif_pos h

/-- Summed over all positions, the terms are the contraction. -/
theorem sum_term2 (A : S8192x8192.Idx → EReal) (T : S8192x256.Idx → EReal) (r : Fin 8192) (d : Fin 256) :
    ∑ k : Fin 8192, term2 A T r d k.val = ∑ k : Fin 8192, A (ix2 r k) * T (ix2 k d) :=
  Finset.sum_congr rfl fun k _ => term2_of_lt A T r d k.val k.isLt

/-- One accumulation step at an entry, the two blocks read as entries of the arrays they are blocks of: the total
    there plus block `kb`'s 1024 terms of the contraction. -/
theorem step2 (A : S8192x8192.Idx → EReal) (T : S8192x256.Idx → EReal)
    (x0 : Vec Ideal S1024x1024 .bf16) (x1 : Vec Ideal S8192x256 .bf16) (acc : Vec Ideal S1024x256 .f32)
    (i : grid2.Coords) (kb : ℕ) (hkb : (i 1).val = kb) (hkb8 : kb < 8)
    (y0 : Fin 1024) (y1 : Fin 256) (j : Fin 8192)
    (h0 : ∀ (kk : Fin 1024) (q : Fin 8192), q.val = kb * 1024 + kk.val → x0 (ix2 y0 kk) = A (ix2 j q))
    (h1 : ∀ r : Fin 8192, x1 (ix2 r y1) = T (ix2 r y1)) :
    k2_pay2 (F := Ideal) (slab2 i x1) acc x0 (ix2 y0 y1)
      = acc (ix2 y0 y1) + ∑ kk : Fin 1024, term2 A T j y1 (kb * 1024 + kk.val) := by
  refine (Cert.KPay.k2_pay2_apply (slab2 i x1) acc x0 y0 y1).trans ?_
  congr 1
  refine Finset.sum_congr rfl fun kk _ => ?_
  have hlt : kb * 1024 + kk.val < 8192 := by have := kk.isLt; omega
  rw [term2_of_lt A T j y1 _ hlt, h0 kk ⟨_, hlt⟩ rfl, slab2_apply i x1 kk y1 ⟨_, hlt⟩ (by rw [hkb]), h1]

/-- The same at grid point `t`, on the blocks the point is handed. -/
theorem point2 (V : (c : Dev nD) → (b : Ref sig .tc) → Buf (Elt Ideal) ((c : Thread nD τ).loc b)) (c : Dev nD)
    (t : Fin cfg2.N) (acc : Vec Ideal S1024x256 .f32) (y0 : Fin 1024) (y1 : Fin 256) (j : Fin 8192)
    (hj : j.val = (t.val / 8) * 1024 + y0.val) :
    k2_pay2 (F := Ideal) (slab2 (grid2.coords t) (blk2 V c 1 t)) acc (blk2 V c 0 t) (ix2 y0 y1)
      = acc (ix2 y0 y1) + ∑ kk : Fin 1024, term2 (V c main_v3) (V c main_v4) j y1 ((t.val % 8) * 1024 + kk.val) :=
  step2 (V c main_v3) (V c main_v4) (blk2 V c 0 t) (blk2 V c 1 t) acc (grid2.coords t) (t.val % 8) (coord2_1 t)
    (Nat.mod_lt _ (by decide)) y0 y1 j (fun kk q hq => blk2_0_apply V c t y0 kk j q hj hq) (fun r => blk2_1_apply V c t r y1)

/-- The first block of a contraction leaves zero plus block 0. -/
theorem firstVal2 (V : (c : Dev nD) → (b : Ref sig .tc) → Buf (Elt Ideal) ((c : Thread nD τ).loc b)) (c : Dev nD)
    (t : Fin cfg2.N) (h0 : t.val % 8 = 0) (y0 : Fin 1024) (y1 : Fin 256) (j : Fin 8192)
    (hj : j.val = (t.val / 8) * 1024 + y0.val) :
    k2_pay2 (F := Ideal) (slab2 (grid2.coords t) (blk2 V c 1 t)) (k2_pay1 (F := Ideal)) (blk2 V c 0 t) (ix2 y0 y1)
      = Cert.Spec.accum (fun kb => ∑ kk : Fin 1024, term2 (V c main_v3) (V c main_v4) j y1 (kb * 1024 + kk.val)) (t.val % 8) := by
  refine (point2 V c t _ y0 y1 j hj).trans ?_
  rw [h0, Cert.KPay.k2_pay1_apply]
  rfl

/-- A later block adds its 1024 terms to the total of the blocks before it. -/
theorem laterVal2 (V : (c : Dev nD) → (b : Ref sig .tc) → Buf (Elt Ideal) ((c : Thread nD τ).loc b)) (c : Dev nD)
    (t : Fin cfg2.N) (m : ℕ) (hm : t.val % 8 = m + 1) (prev : Vec Ideal S1024x256 .f32) (y0 : Fin 1024) (y1 : Fin 256)
    (j : Fin 8192) (hj : j.val = (t.val / 8) * 1024 + y0.val)
    (hprev : prev (ix2 y0 y1)
      = Cert.Spec.accum (fun kb => ∑ kk : Fin 1024, term2 (V c main_v3) (V c main_v4) j y1 (kb * 1024 + kk.val)) m) :
    k2_pay2 (F := Ideal) (slab2 (grid2.coords t) (blk2 V c 1 t)) prev (blk2 V c 0 t) (ix2 y0 y1)
      = Cert.Spec.accum (fun kb => ∑ kk : Fin 1024, term2 (V c main_v3) (V c main_v4) j y1 (kb * 1024 + kk.val)) (t.val % 8) := by
  refine (point2 V c t prev y0 y1 j hj).trans ?_
  rw [hm, hprev]
  rfl

/-- THE RUNNING TOTAL after position `n`, at an entry: blocks 0 to `n % 8` of the entry's contraction accumulated
    one after the other onto zero. By induction on the position. -/
theorem acc2_eq (V : (c : Dev nD) → (b : Ref sig .tc) → Buf (Elt Ideal) ((c : Thread nD τ).loc b)) (c : Dev nD) :
    ∀ (n : ℕ) (hn : n < cfg2.N) (y0 : Fin 1024) (y1 : Fin 256) (j : Fin 8192), j.val = (n / 8) * 1024 + y0.val →
      (outsAt2 (F := Ideal) V c n hn).2 (ix2 y0 y1)
        = Cert.Spec.accum (fun kb => ∑ kk : Fin 1024, term2 (V c main_v3) (V c main_v4) j y1 (kb * 1024 + kk.val)) (n % 8) := by
  intro n
  induction n with
  | zero =>
    intro hn y0 y1 j hj
    rw [show outsAt2 V c 0 hn = _ from outsAt2_first V c ⟨0, hn⟩ (Nat.zero_mod 8)]
    dsimp only
    rw [accFirst2_eq c ⟨0, hn⟩ _ _ (blk2 V c 0 ⟨0, hn⟩) (blk2 V c 1 ⟨0, hn⟩)]
    exact firstVal2 V c ⟨0, hn⟩ (Nat.zero_mod 8) y0 y1 j hj
  | succ n ih =>
    intro hn y0 y1 j hj
    by_cases h0 : (n + 1) % 8 = 0
    · rw [show outsAt2 V c (n + 1) hn = _ from outsAt2_first V c ⟨n + 1, hn⟩ h0]
      dsimp only
      rw [accFirst2_eq c ⟨n + 1, hn⟩ _ _ (blk2 V c 0 ⟨n + 1, hn⟩) (blk2 V c 1 ⟨n + 1, hn⟩)]
      exact firstVal2 V c ⟨n + 1, hn⟩ h0 y0 y1 j hj
    · have hprev : j.val = (n / 8) * 1024 + y0.val := by omega
      have hm : (n + 1) % 8 = n % 8 + 1 := by omega
      have ihv := ih (Nat.lt_of_succ_lt hn) y0 y1 j hprev
      by_cases h1 : (n + 1) % 8 = 7
      · rw [show outsAt2 V c (n + 1) hn = _ from outsAt2_last V c ⟨n + 1, hn⟩ h0 h1]
        dsimp only
        rw [accLast2_eq c ⟨n + 1, hn⟩ _ _ (blk2 V c 0 ⟨n + 1, hn⟩) (blk2 V c 1 ⟨n + 1, hn⟩)]
        exact laterVal2 V c ⟨n + 1, hn⟩ (n % 8) hm _ y0 y1 j hj ihv
      · rw [show outsAt2 V c (n + 1) hn = _ from outsAt2_mid V c ⟨n + 1, hn⟩ h0 h1]
        dsimp only
        rw [accMid2_eq c ⟨n + 1, hn⟩ _ _ (blk2 V c 0 ⟨n + 1, hn⟩) (blk2 V c 1 ⟨n + 1, hn⟩)]
        exact laterVal2 V c ⟨n + 1, hn⟩ (n % 8) hm _ y0 y1 j hj ihv

end Cert.KernelIdeal.Hand

end
-- ==== Proof.KiR2Value.lean ====
/-
  The third product, out = leaky(adj · tmp): the value of its result array.

  The result's buffer is written back at the last block of each contraction only, to rows 1024 · i … of the result
  array. What it holds then is, at the entry (y0, y1), the leaky rectifier of the eight blocks of the contraction for
  the result's entry (1024 i + y0, y1) accumulated one after the other onto zero: of the whole sum over the 8192
  contracted positions. The eight write-backs' blocks tile the result array, so when the region is done the array
  holds, at (i, d), the leaky rectifier of the sum over j of adj(i, j) · tmp(j, d).
-/
import proofs.«125243_j9740985828005_2_alg».proof.Proof.KiR2ValueAcc
import proofs.«125243_j9740985828005_2_alg».proof.Proof.Spec
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

variable (V : (c : Dev nD) → (b : Ref sig .tc) → Buf (Elt Ideal) ((c : Thread nD τ).loc b))

/-- The adjacency array the region is entered with, as a function of its index. -/
abbrev adj2 (c : Dev nD) : S8192x8192.Idx → EReal := V c main_v3
/-- The array tmp the region is entered with, as a function of its index. -/
abbrev tmp2 (c : Dev nD) : S8192x256.Idx → EReal := V c main_v4

theorem xsize2_2 : ∀ t : Fin cfg2.N, win2_2.xsize (grid2.coords t) 0 = 1024 ∧ win2_2.xsize (grid2.coords t) 1 = 256 :=
  (by decide +kernel : ∀ t : Fin grid2.N, win2_2.xsize (grid2.coords t) 0 = 1024 ∧ win2_2.xsize (grid2.coords t) 1 = 256)

/-- The result as contents of the result array: entry (i, d) is the leaky rectifier of the sum over j of
    adj(i, j) · tmp(j, d). -/
def outArr2 (c : Dev nD) : S8192x256.Idx → EReal :=
  fun x => Cert.Spec.leaky (∑ j : Fin 8192, adj2 V c (ix2 (x 0) j) * tmp2 V c (ix2 j (x 1)))

/-- The result's block at point `t`, read at an entry, is the array at rows 1024 · (t / 8) …. -/
theorem blk2_2_read (G : S8192x256.Idx → EReal) (t : Fin cfg2.N) (y0 : Fin 1024) (y1 : Fin 256) (j : Fin 8192)
    (hj : j.val = (t.val / 8) * 1024 + y0.val) :
    (((cfg2.win 2).blk t).view.read (Elt Ideal) G : S1024x256.Idx → EReal) (ix2 y0 y1) = G (ix2 j y1) := by
  have hi := idx2_2 t
  rw [View.read_apply]
  show G _ = G _
  congr 1
  funext x
  apply Fin.ext
  match x with
  | ⟨0, _⟩ => show win2_2.index t 0 * 1024 + 1 * y0.val = j.val; rw [hi.1, hj]; omega
  | ⟨1, _⟩ => show win2_2.index t 1 * 256 + 1 * y1.val = y1.val; rw [hi.2]; omega

/-- At the last block of a contraction the result's buffer holds, at each entry, the leaky rectifier of the whole
    contraction. -/
theorem out2_eq (c : Dev nD) (t : Fin cfg2.N) (h7 : t.val % 8 = 7) (y0 : Fin 1024) (y1 : Fin 256) (j : Fin 8192)
    (hj : j.val = (t.val / 8) * 1024 + y0.val) :
    (outsAt2 (F := Ideal) V c t.val t.isLt).1 (ix2 y0 y1)
      = Cert.Spec.leaky (∑ i : Fin 8192, adj2 V c (ix2 j i) * tmp2 V c (ix2 i y1)) := by
  have h0 : ¬t.val % 8 = 0 := by omega
  have hlt : t.val - 1 < cfg2.N := Nat.lt_of_le_of_lt (Nat.sub_le _ _) t.isLt
  have hprev := acc2_eq V c (t.val - 1) hlt y0 y1 j (by omega)
  rw [show (t.val - 1) % 8 = 6 from by omega] at hprev
  rw [outsAt2_last V c t h0 h7]
  dsimp only
  rw [outLast2_eq c t _ _ (blk2 V c 0 t) (blk2 V c 1 t)]
  refine (Cert.KPay.k2_pay3_apply _ _).trans (congrArg Cert.Spec.leaky ?_)
  refine (laterVal2 V c t 6 h7 _ y0 y1 j hj hprev).trans ?_
  rw [h7]
  exact (Cert.Spec.accum_blocks (term2 (V c main_v3) (V c main_v4) j y1)).trans (sum_term2 _ _ j y1)

/-- What a write-back writes is the result's block. -/
theorem flushed2_eq (c : Dev nD) (t : Fin cfg2.N) (hf : (cfg2.win 2).flush t = true) :
    (dat2 V c).flushed 2 t = ((cfg2.win 2).blk t).view.read (Elt Ideal) (outArr2 V c) := by
  have h7 : t.val % 8 = 7 := (flush2_2 t).mp hf
  have ht : t.val < 64 := lt_of_lt_of_eq t.isLt N_2
  show (cfg2.win 2).cut (grid2.coords t) ((dat2 V c).after 2 t) = _
  rw [after2_2]
  funext y
  obtain ⟨y0, y1, rfl⟩ : ∃ (a : Fin 1024) (b : Fin 256), y = ix2 a b := ⟨y 0, y 1, eq_ix2 y⟩
  have hjl : (t.val / 8) * 1024 + y0.val < 8192 := by have := y0.isLt; omega
  refine (out2_eq V c t h7 y0 y1 ⟨_, hjl⟩ rfl).trans ?_
  exact (blk2_2_read (outArr2 V c) t y0 y1 ⟨_, hjl⟩ rfl).symm

/-- THE THIRD PRODUCT'S VALUE: when the region is done its result array holds, at (i, d), the leaky rectifier of the
    sum over j of adj(i, j) · tmp(j, d) of the arrays the region was entered with. The eight write-backs' blocks (one
    per block of rows) cover the array. -/
theorem final2 (c : Dev nD) : (dat2 V c).arrAt 2 cfg2.N = outArr2 V c :=
  (dat2 V c).arrAt_eq_of_cover 2 (outArr2 V c) (flushed2_eq V c) fun i => by
    have h0 : (i 0 : Nat) < 8192 := (i 0).isLt
    have h1 : (i 1 : Nat) < 256 := (i 1).isLt
    have hN : cfg2.N = 64 := N_2
    have htl : (i 0 : Nat) / 1024 * 8 + 7 < cfg2.N := by rw [hN]; omega
    refine ⟨⟨(i 0 : Nat) / 1024 * 8 + 7, htl⟩, (flush2_2 _).mpr (by dsimp only; omega), ?_⟩
    show i ∈ ((View.whole main_v5).slice (win2_2.rect ⟨(i 0 : Nat) / 1024 * 8 + 7, htl⟩)).set
    rw [View.set_slice_whole, Rect.mem_set_unit]
    intro a
    have hi := idx2_2 ⟨(i 0 : Nat) / 1024 * 8 + 7, htl⟩
    have hx := xsize2_2 ⟨(i 0 : Nat) / 1024 * 8 + 7, htl⟩
    match a with
    | ⟨0, _⟩ =>
      show win2_2.index ⟨(i 0 : Nat) / 1024 * 8 + 7, htl⟩ 0 * 1024 ≤ (i 0 : Nat) ∧ (i 0 : Nat) < win2_2.index ⟨(i 0 : Nat) / 1024 * 8 + 7, htl⟩ 0 * 1024 + win2_2.xsize (grid2.coords ⟨(i 0 : Nat) / 1024 * 8 + 7, htl⟩) 0
      rw [hi.1, hx.1]; dsimp only; omega
    | ⟨1, _⟩ =>
      show win2_2.index ⟨(i 0 : Nat) / 1024 * 8 + 7, htl⟩ 1 * 256 ≤ (i 1 : Nat) ∧ (i 1 : Nat) < win2_2.index ⟨(i 0 : Nat) / 1024 * 8 + 7, htl⟩ 1 * 256 + win2_2.xsize (grid2.coords ⟨(i 0 : Nat) / 1024 * 8 + 7, htl⟩) 1
      rw [hi.2, hx.2]; omega

theorem val2 (c : Dev nD) (i : Fin 8192) (d : Fin 256) :
    (@id (S8192x256.Idx → EReal) ((dat2 (F := Ideal) V c).arrAt 2 cfg2.N)) (ix2 i d)
      = Cert.Spec.leaky (∑ j : Fin 8192, (@id (S8192x8192.Idx → EReal) (V c main_v3)) (ix2 i j) * (@id (S8192x256.Idx → EReal) (V c main_v4)) (ix2 j d)) :=
  congrFun (final2 V c) (ix2 i d)

end Cert.KernelIdeal.Hand

end
-- ==== Proof.RefValue.lean ====
/-
  The reference program's result, entry by entry, is the mathematical specification.

  The reference computes adj = att · inp by one whole contraction, transposes it, contracts the transpose with embs
  (tmp), contracts adj with tmp (pre), and selects between pre and the constant times pre by the comparison of pre with
  zero. Read at the entry (i, d), each contraction is the finite sum over its contracted coordinate of the products of
  its operands' entries; the transpose swaps the two coordinates; so the three nested sums are literally those of
  `Spec.adj`, `Spec.tmp` and `Spec.pre`, and the select is `Spec.leaky` of the last.
-/
import proofs.«125243_j9740985828005_2_alg».proof.Proof.Gen.ReferenceIdeal.Read
import proofs.«125243_j9740985828005_2_alg».proof.Proof.Spec

noncomputable section

open scoped BigOperators

namespace Cert.RefValue

open Cert.ReferenceIdeal Cert.ReferenceIdeal.Read Idealize.ShloMosaic Idealize.ShloMosaic.ValueIdx

variable [Cert.ReferenceIdeal.Facts]

/-- The first contraction at the entry (p, q) is adj(p, q). -/
theorem v0_eq (x0 x1 : (⟨S8192x8192, .f32⟩ : BufTy).Contents (Elt Ideal)) (p q : Fin 8192) :
    val_main_v0 (F := Ideal) x0 x1 (ix2 p q) = Cert.Spec.adj x0 x1 p q := by
  rw [val_main_v0_apply]
  unfold Cert.Spec.adj
  refine Finset.sum_congr rfl fun k _ => ?_
  have el : lidx_main_v0 (ix2 p q) k = ix2 p k := funext fun a => Fin.ext (by
    match a with
    | ⟨0, _⟩ => rfl
    | ⟨1, _⟩ => rfl)
  have er : ridx_main_v0 (ix2 p q) k = ix2 k q := funext fun a => Fin.ext (by
    match a with
    | ⟨0, _⟩ => rfl
    | ⟨1, _⟩ => rfl)
  rw [el, er]

/-- The transpose at the entry (p, q) is adj(q, p). -/
theorem v1_eq (x0 x1 : (⟨S8192x8192, .f32⟩ : BufTy).Contents (Elt Ideal)) (p q : Fin 8192) :
    val_main_v1 (F := Ideal) x0 x1 (ix2 p q) = Cert.Spec.adj x0 x1 q p := by
  rw [val_main_v1_apply]
  have e : idx_main_v1 (ix2 p q) = ix2 q p := funext fun a => Fin.ext (by
    match a with
    | ⟨0, _⟩ => rfl
    | ⟨1, _⟩ => rfl)
  rw [e, v0_eq]

/-- The second contraction at the entry (j, d) is tmp(j, d): the sum over i of adj(i, j) · embs(i, d). -/
theorem v2_eq (x0 x1 : (⟨S8192x8192, .f32⟩ : BufTy).Contents (Elt Ideal))
    (x2 : (⟨S8192x256, .f32⟩ : BufTy).Contents (Elt Ideal)) (j : Fin 8192) (d : Fin 256) :
    val_main_v2 (F := Ideal) x0 x1 x2 (ix2 j d) = Cert.Spec.tmp x0 x1 x2 j d := by
  rw [val_main_v2_apply]
  unfold Cert.Spec.tmp
  refine Finset.sum_congr rfl fun k _ => ?_
  have el : lidx_main_v2 (ix2 j d) k = ix2 j k := funext fun a => Fin.ext (by
    match a with
    | ⟨0, _⟩ => rfl
    | ⟨1, _⟩ => rfl)
  have er : ridx_main_v2 (ix2 j d) k = ix2 k d := funext fun a => Fin.ext (by
    match a with
    | ⟨0, _⟩ => rfl
    | ⟨1, _⟩ => rfl)
  rw [el, er, v1_eq]

/-- The third contraction at the entry (i, d) is pre(i, d): the sum over j of adj(i, j) · tmp(j, d). -/
theorem v3_eq (x0 x1 : (⟨S8192x8192, .f32⟩ : BufTy).Contents (Elt Ideal))
    (x2 : (⟨S8192x256, .f32⟩ : BufTy).Contents (Elt Ideal)) (i : Fin 8192) (d : Fin 256) :
    val_main_v3 (F := Ideal) x0 x1 x2 (ix2 i d) = Cert.Spec.pre x0 x1 x2 i d := by
  rw [val_main_v3_apply]
  unfold Cert.Spec.pre
  refine Finset.sum_congr rfl fun k _ => ?_
  have el : lidx_main_v3 (ix2 i d) k = ix2 i k := funext fun a => Fin.ext (by
    match a with
    | ⟨0, _⟩ => rfl
    | ⟨1, _⟩ => rfl)
  have er : ridx_main_v3 (ix2 i d) k = ix2 k d := funext fun a => Fin.ext (by
    match a with
    | ⟨0, _⟩ => rfl
    | ⟨1, _⟩ => rfl)
  rw [el, er, v0_eq, v2_eq]

/-- THE REFERENCE'S RESULT at the entry (i, d) is the specification's: the leaky rectifier of pre(i, d). -/
theorem ref_eq (x0 x1 : (⟨S8192x8192, .f32⟩ : BufTy).Contents (Elt Ideal))
    (x2 : (⟨S8192x256, .f32⟩ : BufTy).Contents (Elt Ideal)) (i : Fin 8192) (d : Fin 256) :
    val_main_v8 (F := Ideal) x0 x1 x2 (ix2 i d) = Cert.Spec.out x0 x1 x2 i d := by
  rw [val_main_v8_apply, val_main_v5_apply, val_main_v7_apply, val_main_v4_apply, val_main_v6_apply,
    val_main_cst_apply, val_main_cst_0_apply, v3_eq]
  rfl

end Cert.RefValue

end
-- ==== Proof.lean ====
/-
  The certificate of a three-product graph layer: out = leaky(adj · (adjᵀ · embs)) with adj = att · inp, computed by three
  pipelined matrix products whose contraction is cut into eight blocks accumulated in a scratch buffer, against the
  same expression written with three whole products.

  Frames: each kernel region is run point by point with an invariant that carries the accumulator from a block to
  the next; the regions are chained through the contents of the unscoped buffers between them. The reference has
  no kernel: its frame is its run with the result dropped. Nothing was rewritten when the kernel was idealized, so
  there is nothing to preserve. Value: at the ideal values a cast changes nothing, a product into a zeroed accumulator
  is a finite sum, and the eight partial sums added one after the other are the whole sum because addition of extended
  reals is commutative and associative; the rectifier is the same expression on both sides.
-/
import proofs.«125243_j9740985828005_2_alg».proof.Defs
import proofs.«125243_j9740985828005_2_alg».proof.Proof.Gen.Kernel
import proofs.«125243_j9740985828005_2_alg».proof.Proof.Gen.KernelIdeal
import proofs.«125243_j9740985828005_2_alg».proof.Proof.Gen.ReferenceIdeal
import proofs.«125243_j9740985828005_2_alg».proof.Proof.Gen.Pre_finite_inputs
import proofs.«125243_j9740985828005_2_alg».proof.Proof.Gen.ReferenceIdeal.Run
import proofs.«125243_j9740985828005_2_alg».proof.Proof.Gen.ReferenceIdeal.Read
import proofs.«125243_j9740985828005_2_alg».proof.Proof.KbRun
import proofs.«125243_j9740985828005_2_alg».proof.Proof.KiRun
import proofs.«125243_j9740985828005_2_alg».proof.Proof.KiGlue
import proofs.«125243_j9740985828005_2_alg».proof.Proof.KiR0Value
import proofs.«125243_j9740985828005_2_alg».proof.Proof.KiR1Value
import proofs.«125243_j9740985828005_2_alg».proof.Proof.KiR2Value
import proofs.«125243_j9740985828005_2_alg».proof.Proof.RefValue
import Idealize.ShloMosaic.Adequacy
import Idealize.ShloMosaic.Init

noncomputable section

namespace Cert.Proof

open Idealize.ShloMosaic Idealize.ShloMosaic.TcCoe Idealize.SL.Sem ValueIdx

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at out = leaky(adj · (adjᵀ · embs)) of the arguments, which agree. -/
theorem algebraic : Cert.algebraic_KernelIdeal_ReferenceIdeal := by
  intro m ρ m' ρ' _ hagree
  refine ⟨fun c => (Cert.KernelIdeal.Hand.dat2 (F := Ideal) (Cert.KernelIdeal.Hand.V3 m ρ) c).arrAt 2 Cert.KernelIdeal.cfg2.N,
    Cert.KernelIdeal.Hand.result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2]
  funext idx
  rw [eq_ix2 idx]
  exact (Cert.RefValue.ref_eq _ _ _ (idx 0) (idx 1)).trans
    (Cert.KernelIdeal.Hand.result_value m ρ Cert.KernelIdeal.Hand.val0 Cert.KernelIdeal.Hand.val1 Cert.KernelIdeal.Hand.val2 c (idx 0) (idx 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
